-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8192x1024 .f32) (main_arg1 : FVec F S1024x1024 .f32) (main_arg2 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 6
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1x1024, .f32⟩
  | .hbm, ⟨4, _⟩ => ⟨S8192x1024, .f32⟩
  | .hbm, ⟨5, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1, .f32⟩
  | .local _ .vmem, ⟨13, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc1_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_14 : BitVec 32 := 0#32
  let v28 : BitVec 1 := Scalar.cmpi .ne v27 c0_i32_14
  v28

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x1024_S1024x1024 : S1024x1024.ShapeCasts S1024x1024
  bitsLt_bf16_f32 : FTy.bits .bf16 < FTy.bits .f32
  reduces_S1024x1024_S1024 : S1024x1024.Reduces [1] S1024
  shapeCasts_S1024_S1024x1 : S1024.ShapeCasts S1024x1
  broadcasts_S1024x1_S1024x1024 : S1024x1.Broadcasts S1024x1024
  dot_S1024x1024_S1024x1024_S1024x1024_1_1_0_0_n_n_wf : DotDims.WF S1024x1024 S1024x1024 S1024x1024 [1] [1] [0] [0] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .f32 = 32 ∨ (Rect.block (s := S8192x1024) S1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x1024.size a
  hwx1_1 : ∀ i : grid1.Coords, EltTy.bits .f32 = 32 ∨ (Rect.block (s := S8192x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x1024.size a
  hwx1_2 : ∀ i : grid1.Coords, EltTy.bits .f32 = 32 ∨ (Rect.block (s := S8192x1024) S1024x1024.size (cc1_transform_2 i) (hinb1_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S1024x8192 : Shape := ⟨2, ![1024, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S1024x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S8192x1, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S8192x8192, .f32⟩
  | .hbm, ⟨24, _⟩ => ⟨S8192x8192, .f32⟩
  | .hbm, ⟨25, _⟩ => ⟨S8192x1024, .f32⟩
  | .hbm, ⟨26, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  transposes_S8192x1024_S1024x8192_1_0 : S8192x1024.Transposes [1, 0] S1024x8192
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x1024_S1024x1024_S8192x1024_1_0_0_1_n_n_wf : DotDims.WF S8192x1024 S1024x1024 S8192x1024 [1] [0] [0] [1] [] []
  dot_S8192x1024_S1024x8192_S8192x8192_1_0_0_1_n_n_wf : DotDims.WF S8192x1024 S1024x8192 S8192x8192 [1] [0] [0] [1] [] []
  dot_S8192x8192_S8192x1024_S8192x1024_1_0_0_1_n_n_wf : DotDims.WF S8192x8192 S8192x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.BitsLinRegion.lean ====
/-
  The linear layer's region. At every one of its eight grid points the body reads a 1024-row block of x, the whole
  of W and the bias row, and stores  block · Wᵀ + bias  into the output block; nothing is carried between points.
  Stated at any float instance and at any contents `V` of the core's buffers when the region is entered: what each
  input window's staging buffer holds at a point (its block of the array), what the one store leaves in the output's
  buffer, the body's triple, the proof data of the pipeline and its body obligation.
-/
import proofs.«138730_j37787122270731_2_alg».proof.Proof.Gen.Kernel.Launch
import proofs.«138730_j37787122270731_2_alg».proof.Proof.Gen.Kernel.Skeleton
import proofs.«138730_j37787122270731_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Lin

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of its array at grid point `t`, the array at its region-entry contents. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window whose body leaves its block in place holds its block at every point, fetched there or not:
    where it is not fetched its block index has not moved (x's block changes with the point and is fetched at each;
    W and the bias row have one block, fetched once). One statement per input window. -/
theorem x_holds_block {c : Dev nD} (dat : Dat τ (Elt F) Unit ℕ (UR sig nD τ) ℕ cfg0 c)
    (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem w_holds_block {c : Dev nD} (dat : Dat τ (Elt F) Unit ℕ (UR sig nD τ) ℕ cfg0 c)
    (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem b_holds_block {c : Dev nD} (dat : Dat τ (Elt F) Unit ℕ (UR sig nD τ) ℕ cfg0 c)
    (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- The whole of a 1024 × 1024 buffer, and of the 1 × 1024 bias row: the rectangles every access of the body uses. -/
abbrev rSq : Rect S1024x1024 := Rect.unit (s := S1024x1024) ![0, 0] S1024x1024.size inb_S1024x1024_S1024x1024_0_0
abbrev rRow : Rect S1x1024 := Rect.unit (s := S1x1024) ![0, 0] S1x1024.size inb_S1x1024_S1x1024_0_0

/-- What the body's one store leaves in the output's staging buffer, from the three input blocks. -/
def stored (x : Vec F S1024x1024 .f32) (w : Vec F S1024x1024 .f32) (b : Vec F S1x1024 .f32) : Vec F S1024x1024 .f32 :=
  View.canon [⟨rSq, k0_pay1 (View.ld x rSq) (View.ld w rSq) (View.ld b rRow)⟩]

/-- The one store covers the buffer. -/
theorem stored_covers (p0 : Vec F S1024x1024 .f32) (y : S1024x1024.Idx) :
    ∃ pc ∈ ([⟨rSq, p0⟩] : List (View.Piece (Elt F) S1024x1024 .f32)), y ∈ pc.1.set :=
  View.cover_of_tiled [⟨rSq, p0⟩] S1024x1024.size (by rfl) y

set_option maxHeartbeats 1000000 in
/-- The body on whole staging memrefs, the inputs' at contents `x`, `w`, `b` and the output's at anything, runs to
    the continuation with the inputs' as they were and the output's at `stored x w b`. -/
theorem body_triple (c : Dev nD) (E : Set ℕ) (i : grid0.Coords)
    (a1 : Memref sig .tc .vmem S1024x1024 .f32) (h1 : a1.IsWhole) (a2 : Memref sig .tc .vmem S1024x1024 .f32) (h2 : a2.IsWhole)
    (a3 : Memref sig .tc .vmem S1x1024 .f32) (h3 : a3.IsWhole) (a4 : Memref sig .tc .vmem S1024x1024 .f32) (h4 : a4.IsWhole)
    (x : Vec F S1024x1024 .f32) (w : Vec F S1024x1024 .f32) (b : Vec F S1x1024 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d)
        ∗ (iprop(owns (c : Thread nD τ) a1 fullShare x ∗ owns (c : Thread nD τ) a2 fullShare w ∗ owns (c : Thread nD τ) a3 fullShare b
            ∗ owns (c : Thread nD τ) a4 fullShare (stored x w b)) -∗ K ⟨⟩))
      ⊢ wp frame (wpE (defs₀ (F := F)) Variants.none c none) E (cc0__linear_kernel i a1 h1 a2 h2 a3 h3 a4 h4) K := by
  simp only [cc0__linear_kernel_eq_skeleton]; unfold cc0__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (stored_covers _)

/-- The pipeline's proof data on core `c`: the arrays as the region finds them; after the body each input's buffer at
    its block and the output's at `stored` of the three blocks; between points only the scoped buffers the kernel
    does not name and the generator register; nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => stored (blockAt V c 0 t) (blockAt V c 1 t) (blockAt V c 2 t)
  Φ _ := Pipeline.ΦA spec0 c
  q _ := fullShare
  owed _ := 0

theorem dat_A (c : Dev nD) (w : Fin cfg0.W) : (dat V c).A w = V c (Pipeline.arrRef spec0 w) := by dsimp only [dat]
theorem after_x (c : Dev nD) (t : Fin cfg0.N) : (dat V c).after 0 t = blockAt V c 0 t := by dsimp only [dat]
theorem after_w (c : Dev nD) (t : Fin cfg0.N) : (dat V c).after 1 t = blockAt V c 1 t := by dsimp only [dat]
theorem after_b (c : Dev nD) (t : Fin cfg0.N) : (dat V c).after 2 t = blockAt V c 2 t := by dsimp only [dat]
theorem after_out (c : Dev nD) (t : Fin cfg0.N) :
    (dat V c).after 3 t = stored (blockAt V c 0 t) (blockAt V c 1 t) (blockAt V c 2 t) := by dsimp only [dat]

theorem before_x (c : Dev nD) (t : Fin cfg0.N) (d) : (dat V c).before 0 t d = blockAt V c 0 t :=
  x_holds_block V (dat V c) (dat_A V c 0) (after_x V c) t d
theorem before_w (c : Dev nD) (t : Fin cfg0.N) (d) : (dat V c).before 1 t d = blockAt V c 1 t :=
  w_holds_block V (dat V c) (dat_A V c 1) (after_w V c) t d
theorem before_b (c : Dev nD) (t : Fin cfg0.N) (d) : (dat V c).before 2 t d = blockAt V c 2 t :=
  b_holds_block V (dat V c) (dat_A V c 2) (after_b V c) t d

/-- What the body is called with at point `t`, the windows one by one, -/
def pointPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def pointPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their blocks, so the triple applies; the invariant and the core's
    dues pass through untouched. -/
theorem point_sound (c : Dev nD) (t : Fin cfg0.N) :
    pointPre V c t ⊢ wp frame (wpE (defs₀ (F := F)) Variants.none c none) Set.univ (bodyAt0 t) (fun _ => pointPost V c t) := by
  unfold pointPre pointPost bodyAt0
  simp only [before_x, before_w, before_b]
  rw [show (dat V c).Φ t.succ = (dat V c).Φ t.castSucc from rfl,
    show (dat V c).owesAt () t.succ = (dat V c).owesAt () t.castSucc from rfl,
    after_x, after_w, after_b, after_out]
  iintro ⟨HΦ, Ho, ⟨%d0, H0⟩, ⟨%d1, H1⟩, ⟨%d2, H2⟩, ⟨%d3, H3⟩⟩
  iapply (body_triple c Set.univ _ _ _ _ _ _ _ _ _ (blockAt V c 0 t) (blockAt V c 1 t) (blockAt V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact point_sound V c t

end Cert.Kernel.Lin

end
-- ==== Proof.BitsAttBase.lean ====
/-
  The attention region: what its three cases share. The grid is 8 × 8 (query tile, key tile), the key tile the inner
  coordinate. The body's first branch (the key tile is the first: clear the two accumulators) and its last (the key
  tile is the last: normalise and store the output block) are decided by the point's position in its run of eight;
  the output window is idle, and not written back, everywhere but at the last key tile. The two scratch buffers — the
  column of weight sums and the 1024 × 1024 weighted sum — are the kernel's own and are carried from point to point.
-/
import proofs.«138730_j37787122270731_2_alg».proof.Proof.Gen.Kernel.Launch
import proofs.«138730_j37787122270731_2_alg».proof.Proof.Gen.Kernel.Skeleton
import proofs.«138730_j37787122270731_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of its array at grid point `t`, the array at its region-entry contents. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query tile's window and the key tile's window hold their blocks at every point, fetched there or not: the
    query tile is fetched once per run of eight points and its index does not move inside the run; the key tile
    is fetched at every point. -/
theorem q_holds_block {c : Dev nD} (dat : Dat τ (Elt F) Unit ℕ (UR sig nD τ) ℕ cfg1 c)
    (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem k_holds_block {c : Dev nD} (dat : Dat τ (Elt F) Unit ℕ (UR sig nD τ) ℕ cfg1 c)
    (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The two branch conditions -/

/-- "The key tile is the first", as the body computes it from the grid coordinates. -/
abbrev isFirst (i : grid1.Coords) : Prop :=
  (Scalar.cmpi .ne (Scalar.extui (Scalar.cmpi .eq (BitVec.ofNat 32 (i 1).val) 0#32)) 0#32) = 1#1
/-- It holds at the points ≡ 0 (mod 8). -/
theorem isFirst_iff : ∀ t : Fin cfg1.N, isFirst (grid1.coords t) ↔ t.val % 8 = 0 :=
  (by decide +kernel : ∀ t : Fin grid1.N, isFirst (grid1.coords t) ↔ t.val % 8 = 0)

/-- "The key tile is the last", as the body computes it. -/
abbrev isLast (i : grid1.Coords) : Prop := k1_cond2 i = 1#1
/-- It holds at the points ≡ 7 (mod 8). -/
theorem isLast_iff : ∀ t : Fin cfg1.N, isLast (grid1.coords t) ↔ t.val % 8 = 7 :=
  (by decide +kernel : ∀ t : Fin grid1.N, isLast (grid1.coords t) ↔ t.val % 8 = 7)

/-! ## Where the windows are idle -/

theorem q_live : ∀ t : Fin cfg1.N, cfg1.idle 0 (grid1.coords t) = false := by decide +kernel
theorem k_live : ∀ t : Fin cfg1.N, cfg1.idle 1 (grid1.coords t) = false := by decide +kernel
/-- Away from the last key tile the output window is idle and not written back. -/
theorem out_idle : ∀ t : Fin cfg1.N, ¬isLast (grid1.coords t) → cfg1.idle 2 (grid1.coords t) = true := by decide +kernel
theorem out_noFlush : ∀ t : Fin cfg1.N, ¬isLast (grid1.coords t) → (cfg1.win 2).flush t = false := by decide +kernel
/-- At the last key tile it is live. -/
theorem out_live : ∀ t : Fin cfg1.N, isLast (grid1.coords t) → cfg1.idle 2 (grid1.coords t) = false := by decide +kernel

/-! ## The memrefs the body is called with -/

abbrev mq (t : Fin cfg1.N) : Memref sig .tc .vmem S1024x1024 .f32 := win1_0.stage (cfg1.slots t 0)
abbrev hmq (t : Fin cfg1.N) : (mq t).IsWhole := hstage1_0 ((cfg1.slots t 0).cast nbuf1_0)
abbrev mk (t : Fin cfg1.N) : Memref sig .tc .vmem S1024x1024 .f32 := win1_1.stage (cfg1.slots t 1)
abbrev hmk (t : Fin cfg1.N) : (mk t).IsWhole := hstage1_1 ((cfg1.slots t 1).cast nbuf1_1)
abbrev mo (t : Fin cfg1.N) : Memref sig .tc .vmem S1024x1024 .f32 := win1_2.stage (cfg1.slots t 2)
abbrev hmo (t : Fin cfg1.N) : (mo t).IsWhole := hstage1_2 ((cfg1.slots t 2).cast nbuf1_2)
/-- The column of weight sums and the weighted sum: whole scoped buffers of the kernel's own. -/
abbrev mSum : Memref sig .tc .vmem S1024x1 .f32 := Memref.whole cc1_scratch0
abbrev mAcc : Memref sig .tc .vmem S1024x1024 .f32 := Memref.whole cc1_scratch1
/-- Views through which the accumulators' and the output buffer's contents are stated. -/
abbrev vSum : View sig .tc .vmem S1024x1 .f32 := mSum.view
abbrev vAcc : View sig .tc .vmem S1024x1024 .f32 := mAcc.view
abbrev vOut : View sig .tc .vmem S1024x1024 .f32 := (Memref.whole cc1_stg2_0 : Memref sig .tc .vmem S1024x1024 .f32).view

/-- The region's plain invariant with the two accumulators spelled as memrefs owned at some contents, beside the
    staging buffers of the other region (which this kernel never touches) and the generator register. -/
theorem plainInv_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) mSum fullShare d) ∗ (∃ d, owns (c : Thread nD τ) mAcc fullShare d)) ∗ (∃ r, prngReg c r)) := by
  unfold Pipeline.ΦA; rw [scopedRest1_eq]; simp only [mSum, mAcc, owns_whole]; try rfl

end Cert.Kernel.Att

end
-- ==== Proof.BitsAttRuns.lean ====
/-
  The attention body run once per case, on any whole memrefs: the inputs' at given contents, the accumulators' at
  given contents (at anything where the case clears them first), the output's handed back untouched where the case
  stores nothing into it. What each buffer the case stores into ends with is a list of store pieces, last first,
  which the run itself determines.
-/
import proofs.«138730_j37787122270731_2_alg».proof.Proof.BitsAttBase

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- THE FIRST KEY TILE (and not the last): both accumulators are cleared, then the tile is added. The accumulators
    start at anything; the output's buffer is handed back as found. -/
noncomputable def runFirst (c : Dev nD) (i : grid1.Coords)
    (aq : Memref sig .tc .vmem S1024x1024 .f32) (hq : aq.IsWhole) (ak : Memref sig .tc .vmem S1024x1024 .f32) (hk : ak.IsWhole)
    (ao : Memref sig .tc .vmem S1024x1024 .f32) (ho : ao.IsWhole) (aS : Memref sig .tc .vmem S1024x1 .f32) (hs : aS.IsWhole)
    (aa : Memref sig .tc .vmem S1024x1024 .f32) (ha : aa.IsWhole) (hc0 : isFirst i) (hc1 : ¬isLast i)
    (xq : Vec F S1024x1024 .f32) (xk : Vec F S1024x1024 .f32) :
    Σ' (LS : List (View.Piece (Elt F) S1024x1 .f32)), { LA : List (View.Piece (Elt F) S1024x1024 .f32) //
      ∀ (xo : Vec F S1024x1024 .f32) (E : Set ℕ) (K : PUnit → sProp 𝕄),
        iprop(owns (c : Thread nD τ) aq fullShare xq ∗ owns (c : Thread nD τ) ak fullShare xk ∗ owns (c : Thread nD τ) ao fullShare xo
            ∗ (∃ d, owns (c : Thread nD τ) aS fullShare d) ∗ (∃ d, owns (c : Thread nD τ) aa fullShare d)
            ∗ (iprop(owns (c : Thread nD τ) aq fullShare xq ∗ owns (c : Thread nD τ) ak fullShare xk ∗ owns (c : Thread nD τ) ao fullShare xo
                ∗ (∃ f, aS.view.loc (c : Thread nD τ) ↦[aS.view.set]{fullShare} aS.view.writes (Elt F) f LS)
                ∗ (∃ f, aa.view.loc (c : Thread nD τ) ↦[aa.view.set]{fullShare} aa.view.writes (Elt F) f LA)) -∗ K ⟨⟩))
          ⊢ wp frame (wpE (defs₀ (F := F)) Variants.none c none) E (cc1__attn_kernel i aq hq ak hk ao ho aS hs aa ha) K } := by
  refine ⟨?_, ?_, fun xo E K => ?run⟩
  case run =>
    simp only [cc1__attn_kernel_eq_skeleton]; unfold cc1__attn_kernel_skel
    unfold owns
    iintro ⟨⟨%fq, %hfq, Hq⟩, ⟨%fk, %hfk, Hk'⟩, ⟨%fo, %hfo, Ho⟩, ⟨%ds, %fs, -, Hs⟩, ⟨%da, %fa, -, Ha⟩, Hk⟩
    obtain rfl := hq.eq_unread hfq; obtain rfl := hk.eq_unread hfk; obtain rfl := ho.eq_unread hfo
    sl_exec (disch := first | exact hc0 | exact hc1)
    sl_step
    iapply Hk
    isplitl [Hq]
    · iexists _; isplitr; · ipureintro; exact hq.read_unread _
      iexact Hq
    isplitl [Hk']
    · iexists _; isplitr; · ipureintro; exact hk.read_unread _
      iexact Hk'
    isplitl [Ho]
    · iexists _; isplitr; · ipureintro; exact ho.read_unread _
      iexact Ho
    isplitl [Hs]; · iexists _; iexact Hs
    iexists _; iexact Ha

set_option maxHeartbeats 2000000 in
/-- A KEY TILE THAT IS NEITHER FIRST NOR LAST: the tile is added to the accumulators, which start at the contents
    `xs`, `xa` the point before left; the output's buffer is handed back as found. -/
noncomputable def runMid (c : Dev nD) (i : grid1.Coords)
    (aq : Memref sig .tc .vmem S1024x1024 .f32) (hq : aq.IsWhole) (ak : Memref sig .tc .vmem S1024x1024 .f32) (hk : ak.IsWhole)
    (ao : Memref sig .tc .vmem S1024x1024 .f32) (ho : ao.IsWhole) (aS : Memref sig .tc .vmem S1024x1 .f32) (hs : aS.IsWhole)
    (aa : Memref sig .tc .vmem S1024x1024 .f32) (ha : aa.IsWhole) (hc0 : ¬isFirst i) (hc1 : ¬isLast i)
    (xq : Vec F S1024x1024 .f32) (xk : Vec F S1024x1024 .f32) (xs : Vec F S1024x1 .f32) (xa : Vec F S1024x1024 .f32) :
    Σ' (LS : List (View.Piece (Elt F) S1024x1 .f32)), { LA : List (View.Piece (Elt F) S1024x1024 .f32) //
      ∀ (xo : Vec F S1024x1024 .f32) (E : Set ℕ) (K : PUnit → sProp 𝕄),
        iprop(owns (c : Thread nD τ) aq fullShare xq ∗ owns (c : Thread nD τ) ak fullShare xk ∗ owns (c : Thread nD τ) ao fullShare xo
            ∗ owns (c : Thread nD τ) aS fullShare xs ∗ owns (c : Thread nD τ) aa fullShare xa
            ∗ (iprop(owns (c : Thread nD τ) aq fullShare xq ∗ owns (c : Thread nD τ) ak fullShare xk ∗ owns (c : Thread nD τ) ao fullShare xo
                ∗ (∃ f, aS.view.loc (c : Thread nD τ) ↦[aS.view.set]{fullShare} aS.view.writes (Elt F) f LS)
                ∗ (∃ f, aa.view.loc (c : Thread nD τ) ↦[aa.view.set]{fullShare} aa.view.writes (Elt F) f LA)) -∗ K ⟨⟩))
          ⊢ wp frame (wpE (defs₀ (F := F)) Variants.none c none) E (cc1__attn_kernel i aq hq ak hk ao ho aS hs aa ha) K } := by
  refine ⟨?_, ?_, fun xo E K => ?run⟩
  case run =>
    simp only [cc1__attn_kernel_eq_skeleton]; unfold cc1__attn_kernel_skel
    unfold owns
    iintro ⟨⟨%fq, %hfq, Hq⟩, ⟨%fk, %hfk, Hk'⟩, ⟨%fo, %hfo, Ho⟩, ⟨%fs, %hfs, Hs⟩, ⟨%fa, %hfa, Ha⟩, Hk⟩
    obtain rfl := hq.eq_unread hfq; obtain rfl := hk.eq_unread hfk; obtain rfl := ho.eq_unread hfo
    obtain rfl := hs.eq_unread hfs; obtain rfl := ha.eq_unread hfa
    sl_exec (disch := first | exact hc0 | exact hc1)
    sl_step
    iapply Hk
    isplitl [Hq]
    · iexists _; isplitr; · ipureintro; exact hq.read_unread _
      iexact Hq
    isplitl [Hk']
    · iexists _; isplitr; · ipureintro; exact hk.read_unread _
      iexact Hk'
    isplitl [Ho]
    · iexists _; isplitr; · ipureintro; exact ho.read_unread _
      iexact Ho
    isplitl [Hs]; · iexists _; iexact Hs
    iexists _; iexact Ha

set_option maxHeartbeats 2000000 in
/-- THE LAST KEY TILE (and not the first): the tile is added to the accumulators, which start at `xs`, `xa`, and the
    normalised block is stored into the output's buffer, which starts at anything. -/
noncomputable def runLast (c : Dev nD) (i : grid1.Coords)
    (aq : Memref sig .tc .vmem S1024x1024 .f32) (hq : aq.IsWhole) (ak : Memref sig .tc .vmem S1024x1024 .f32) (hk : ak.IsWhole)
    (ao : Memref sig .tc .vmem S1024x1024 .f32) (ho : ao.IsWhole) (aS : Memref sig .tc .vmem S1024x1 .f32) (hs : aS.IsWhole)
    (aa : Memref sig .tc .vmem S1024x1024 .f32) (ha : aa.IsWhole) (hc0 : ¬isFirst i) (hc1 : isLast i)
    (xq : Vec F S1024x1024 .f32) (xk : Vec F S1024x1024 .f32) (xs : Vec F S1024x1 .f32) (xa : Vec F S1024x1024 .f32) :
    Σ' (LO : List (View.Piece (Elt F) S1024x1024 .f32)) (LS : List (View.Piece (Elt F) S1024x1 .f32)), { LA : List (View.Piece (Elt F) S1024x1024 .f32) //
      ∀ (E : Set ℕ) (K : PUnit → sProp 𝕄),
        iprop(owns (c : Thread nD τ) aq fullShare xq ∗ owns (c : Thread nD τ) ak fullShare xk ∗ (∃ d, owns (c : Thread nD τ) ao fullShare d)
            ∗ owns (c : Thread nD τ) aS fullShare xs ∗ owns (c : Thread nD τ) aa fullShare xa
            ∗ (iprop(owns (c : Thread nD τ) aq fullShare xq ∗ owns (c : Thread nD τ) ak fullShare xk
                ∗ (∃ f, ao.view.loc (c : Thread nD τ) ↦[ao.view.set]{fullShare} ao.view.writes (Elt F) f LO)
                ∗ (∃ f, aS.view.loc (c : Thread nD τ) ↦[aS.view.set]{fullShare} aS.view.writes (Elt F) f LS)
                ∗ (∃ f, aa.view.loc (c : Thread nD τ) ↦[aa.view.set]{fullShare} aa.view.writes (Elt F) f LA)) -∗ K ⟨⟩))
          ⊢ wp frame (wpE (defs₀ (F := F)) Variants.none c none) E (cc1__attn_kernel i aq hq ak hk ao ho aS hs aa ha) K } := by
  refine ⟨?_, ?_, ?_, fun E K => ?run⟩
  case run =>
    simp only [cc1__attn_kernel_eq_skeleton]; unfold cc1__attn_kernel_skel
    unfold owns
    iintro ⟨⟨%fq, %hfq, Hq⟩, ⟨%fk, %hfk, Hk'⟩, ⟨%dO, %fo, -, Ho⟩, ⟨%fs, %hfs, Hs⟩, ⟨%fa, %hfa, Ha⟩, Hk⟩
    obtain rfl := hq.eq_unread hfq; obtain rfl := hk.eq_unread hfk
    obtain rfl := hs.eq_unread hfs; obtain rfl := ha.eq_unread hfa
    sl_exec (disch := first | exact hc0 | exact hc1)
    sl_step
    iapply Hk
    isplitl [Hq]
    · iexists _; isplitr; · ipureintro; exact hq.read_unread _
      iexact Hq
    isplitl [Hk']
    · iexists _; isplitr; · ipureintro; exact hk.read_unread _
      iexact Hk'
    isplitl [Ho]; · iexists _; iexact Ho
    isplitl [Hs]; · iexists _; iexact Hs
    iexists _; iexact Ha

end Cert.Kernel.Att

end
-- ==== Proof.BitsAttRegion.lean ====
/-
  The attention region's accumulation and its body obligation. After each grid point the two accumulators hold what
  the point's case leaves from what the point before left (cleared first at the first key tile of each query tile),
  and at the last key tile the output's buffer holds the normalised block; the region's invariant between points is
  the plain one with the two accumulators at these contents.
-/
import proofs.«138730_j37787122270731_2_alg».proof.Proof.BitsAttRuns

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Contents read back from a list of store pieces over anything, for each of the three buffers. -/
def sumOf (L : List (View.Piece (Elt F) S1024x1 .f32)) : Vec F S1024x1 .f32 := vSum.read (Elt F) (vSum.writes (Elt F) vSum.junk L)
def accOf (L : List (View.Piece (Elt F) S1024x1024 .f32)) : Vec F S1024x1024 .f32 := vAcc.read (Elt F) (vAcc.writes (Elt F) vAcc.junk L)
def outOf (L : List (View.Piece (Elt F) S1024x1024 .f32)) : Vec F S1024x1024 .f32 := vOut.read (Elt F) (vOut.writes (Elt F) vOut.junk L)

/-! ## Each case's stores cover the buffer they go to -/

section Covers
variable (c : Dev nD) (i : grid1.Coords)
    (aq : Memref sig .tc .vmem S1024x1024 .f32) (hq : aq.IsWhole) (ak : Memref sig .tc .vmem S1024x1024 .f32) (hk : ak.IsWhole)
    (ao : Memref sig .tc .vmem S1024x1024 .f32) (ho : ao.IsWhole) (aS : Memref sig .tc .vmem S1024x1 .f32) (hs : aS.IsWhole)
    (aa : Memref sig .tc .vmem S1024x1024 .f32) (ha : aa.IsWhole)
    (xq : Vec F S1024x1024 .f32) (xk : Vec F S1024x1024 .f32) (xs : Vec F S1024x1 .f32) (xa : Vec F S1024x1024 .f32)

theorem first_sum_covers (hc0 : isFirst i) (hc1 : ¬isLast i) (y : S1024x1.Idx) :
    ∃ pc ∈ (runFirst (F := F) c i aq hq ak hk ao ho aS hs aa ha hc0 hc1 xq xk).1, y ∈ pc.1.set :=
  View.cover_of_tiledL _ S1024x1.size (by sl_kernel_rfl) y
theorem first_acc_covers (hc0 : isFirst i) (hc1 : ¬isLast i) (y : S1024x1024.Idx) :
    ∃ pc ∈ (runFirst (F := F) c i aq hq ak hk ao ho aS hs aa ha hc0 hc1 xq xk).2.1, y ∈ pc.1.set :=
  View.cover_of_tiledL _ S1024x1024.size (by sl_kernel_rfl) y
theorem mid_sum_covers (hc0 : ¬isFirst i) (hc1 : ¬isLast i) (y : S1024x1.Idx) :
    ∃ pc ∈ (runMid (F := F) c i aq hq ak hk ao ho aS hs aa ha hc0 hc1 xq xk xs xa).1, y ∈ pc.1.set :=
  View.cover_of_tiledL _ S1024x1.size (by sl_kernel_rfl) y
theorem mid_acc_covers (hc0 : ¬isFirst i) (hc1 : ¬isLast i) (y : S1024x1024.Idx) :
    ∃ pc ∈ (runMid (F := F) c i aq hq ak hk ao ho aS hs aa ha hc0 hc1 xq xk xs xa).2.1, y ∈ pc.1.set :=
  View.cover_of_tiledL _ S1024x1024.size (by sl_kernel_rfl) y
theorem last_out_covers (hc0 : ¬isFirst i) (hc1 : isLast i) (y : S1024x1024.Idx) :
    ∃ pc ∈ (runLast (F := F) c i aq hq ak hk ao ho aS hs aa ha hc0 hc1 xq xk xs xa).1, y ∈ pc.1.set :=
  View.cover_of_tiledL _ S1024x1024.size (by sl_kernel_rfl) y
theorem last_sum_covers (hc0 : ¬isFirst i) (hc1 : isLast i) (y : S1024x1.Idx) :
    ∃ pc ∈ (runLast (F := F) c i aq hq ak hk ao ho aS hs aa ha hc0 hc1 xq xk xs xa).2.1, y ∈ pc.1.set :=
  View.cover_of_tiledL _ S1024x1.size (by sl_kernel_rfl) y
theorem last_acc_covers (hc0 : ¬isFirst i) (hc1 : isLast i) (y : S1024x1024.Idx) :
    ∃ pc ∈ (runLast (F := F) c i aq hq ak hk ao ho aS hs aa ha hc0 hc1 xq xk xs xa).2.2.1, y ∈ pc.1.set :=
  View.cover_of_tiledL _ S1024x1024.size (by sl_kernel_rfl) y
end Covers

/-! ## The cases at a grid point -/

/-- The first-key-tile run at point `t`: on the point's memrefs and its two input blocks. -/
def firstAt (c : Dev nD) (t : Fin cfg1.N) (h0 : t.val % 8 = 0) (h1 : ¬t.val % 8 = 7) :=
  runFirst (F := F) c (grid1.coords t) (mq t) (hmq t) (mk t) (hmk t) (mo t) (hmo t) mSum (Memref.isWhole_whole _) mAcc (Memref.isWhole_whole _)
    ((isFirst_iff t).mpr h0) (fun h => h1 ((isLast_iff t).mp h)) (blockAt V c 0 t) (blockAt V c 1 t)
/-- The middle run at point `t`, from the accumulators' contents `xs`, `xa`. -/
def midAt (c : Dev nD) (t : Fin cfg1.N) (h0 : ¬t.val % 8 = 0) (h1 : ¬t.val % 8 = 7) (xs : Vec F S1024x1 .f32) (xa : Vec F S1024x1024 .f32) :=
  runMid (F := F) c (grid1.coords t) (mq t) (hmq t) (mk t) (hmk t) (mo t) (hmo t) mSum (Memref.isWhole_whole _) mAcc (Memref.isWhole_whole _)
    (fun h => h0 ((isFirst_iff t).mp h)) (fun h => h1 ((isLast_iff t).mp h)) (blockAt V c 0 t) (blockAt V c 1 t) xs xa
/-- The last-key-tile run at point `t`, from the accumulators' contents `xs`, `xa`. -/
def lastAt (c : Dev nD) (t : Fin cfg1.N) (h0 : ¬t.val % 8 = 0) (h1 : t.val % 8 = 7) (xs : Vec F S1024x1 .f32) (xa : Vec F S1024x1024 .f32) :=
  runLast (F := F) c (grid1.coords t) (mq t) (hmq t) (mk t) (hmk t) (mo t) (hmo t) mSum (Memref.isWhole_whole _) mAcc (Memref.isWhole_whole _)
    (fun h => h0 ((isFirst_iff t).mp h)) ((isLast_iff t).mpr h1) (blockAt V c 0 t) (blockAt V c 1 t) xs xa

/-- A placeholder for the output's buffer where no case stores into it: nothing consults it there (the window is
    idle and not written back). -/
def unstored : Vec F S1024x1024 .f32 := outOf []

/-- THE ACCUMULATION: after the body at position `n`, the output's buffer, the column of weight sums and the weighted
    sum — the case the position selects, the accumulators taken from position `n - 1` unless the case clears them. -/
def stateAt (c : Dev nD) : (n : ℕ) → n < cfg1.N → Vec F S1024x1024 .f32 × Vec F S1024x1 .f32 × Vec F S1024x1024 .f32
  | 0, hn => (unstored, sumOf (firstAt V c ⟨0, hn⟩ (Nat.zero_mod _) (fun h => absurd (show (0 : ℕ) % 8 = 7 from h) (by decide))).1, accOf (firstAt V c ⟨0, hn⟩ (Nat.zero_mod _) (fun h => absurd (show (0 : ℕ) % 8 = 7 from h) (by decide))).2.1)
  | n + 1, hn =>
    if h0 : (n + 1) % 8 = 0 then
      if h1 : (n + 1) % 8 = 7 then False.elim (by omega)
      else (unstored, sumOf (firstAt V c ⟨n + 1, hn⟩ h0 h1).1, accOf (firstAt V c ⟨n + 1, hn⟩ h0 h1).2.1)
    else
      if h1 : (n + 1) % 8 = 7 then
        (outOf (lastAt V c ⟨n + 1, hn⟩ h0 h1 (stateAt c n (Nat.lt_of_succ_lt hn)).2.1 (stateAt c n (Nat.lt_of_succ_lt hn)).2.2).1,
         sumOf (lastAt V c ⟨n + 1, hn⟩ h0 h1 (stateAt c n (Nat.lt_of_succ_lt hn)).2.1 (stateAt c n (Nat.lt_of_succ_lt hn)).2.2).2.1,
         accOf (lastAt V c ⟨n + 1, hn⟩ h0 h1 (stateAt c n (Nat.lt_of_succ_lt hn)).2.1 (stateAt c n (Nat.lt_of_succ_lt hn)).2.2).2.2.1)
      else
        (unstored,
         sumOf (midAt V c ⟨n + 1, hn⟩ h0 h1 (stateAt c n (Nat.lt_of_succ_lt hn)).2.1 (stateAt c n (Nat.lt_of_succ_lt hn)).2.2).1,
         accOf (midAt V c ⟨n + 1, hn⟩ h0 h1 (stateAt c n (Nat.lt_of_succ_lt hn)).2.1 (stateAt c n (Nat.lt_of_succ_lt hn)).2.2).2.1)

/-- The accumulators the point before `t` left (for `t` not the first point of all). -/
abbrev prevSum (c : Dev nD) (t : Fin cfg1.N) : Vec F S1024x1 .f32 := (stateAt V c (t.val - 1) (Nat.lt_of_le_of_lt (Nat.sub_le _ _) t.isLt)).2.1
abbrev prevAcc (c : Dev nD) (t : Fin cfg1.N) : Vec F S1024x1024 .f32 := (stateAt V c (t.val - 1) (Nat.lt_of_le_of_lt (Nat.sub_le _ _) t.isLt)).2.2

theorem stateAt_first (c : Dev nD) (t : Fin cfg1.N) (h0 : t.val % 8 = 0) (h1 : ¬t.val % 8 = 7) :
    stateAt V c t.val t.isLt = (unstored, sumOf (firstAt V c t h0 h1).1, accOf (firstAt V c t h0 h1).2.1) := by
  obtain ⟨n, hn⟩ := t
  cases n with
  | zero => exact rfl
  | succ n => exact (dif_pos h0).trans ((dif_neg h1).trans rfl)

theorem stateAt_mid (c : Dev nD) (t : Fin cfg1.N) (h0 : ¬t.val % 8 = 0) (h1 : ¬t.val % 8 = 7) :
    stateAt V c t.val t.isLt = (unstored, sumOf (midAt V c t h0 h1 (prevSum V c t) (prevAcc V c t)).1,
      accOf (midAt V c t h0 h1 (prevSum V c t) (prevAcc V c t)).2.1) := by
  obtain ⟨n, hn⟩ := t
  cases n with
  | zero => exact (by exfalso; exact absurd (Nat.zero_mod _) h0)
  | succ n => exact (dif_neg h0).trans ((dif_neg h1).trans rfl)

theorem stateAt_last (c : Dev nD) (t : Fin cfg1.N) (h0 : ¬t.val % 8 = 0) (h1 : t.val % 8 = 7) :
    stateAt V c t.val t.isLt = (outOf (lastAt V c t h0 h1 (prevSum V c t) (prevAcc V c t)).1,
      sumOf (lastAt V c t h0 h1 (prevSum V c t) (prevAcc V c t)).2.1,
      accOf (lastAt V c t h0 h1 (prevSum V c t) (prevAcc V c t)).2.2.1) := by
  obtain ⟨n, hn⟩ := t
  cases n with
  | zero => exact (by exfalso; exact absurd (Nat.zero_mod _) h0)
  | succ n => exact (dif_neg h0).trans ((dif_pos h1).trans rfl)

/-! ## The region's invariant between points -/

/-- The invariant's shape: the other region's staging buffers at anything, the two accumulators as `PS`, `PA` say,
    the generator register at some state. -/
def invWith (c : Dev nD) (PS PA : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ PS ∗ PA) ∗ (∃ r, prngReg c r))

theorem plainInv_eq' (c : Dev nD) :
    (Pipeline.ΦA spec1 c : sProp 𝕄) = invWith c iprop(∃ d, owns (c : Thread nD τ) mSum fullShare d) iprop(∃ d, owns (c : Thread nD τ) mAcc fullShare d) := by
  rw [plainInv_eq]; rfl

/-- Before the first point the plain invariant; before any other the accumulators at what the point before left. -/
def inv (c : Dev nD) : (n : ℕ) → n ≤ cfg1.N → sProp 𝕄
  | 0, _ => Pipeline.ΦA spec1 c
  | n + 1, hn => invWith c (owns (c : Thread nD τ) mSum fullShare (stateAt V c n hn).2.1) (owns (c : Thread nD τ) mAcc fullShare (stateAt V c n hn).2.2)

theorem inv_zero (c : Dev nD) (n : ℕ) (h : n ≤ cfg1.N) (hz : n = 0) : inv V c n h = Pipeline.ΦA spec1 c := by
  subst hz; rfl
theorem inv_succ (c : Dev nD) (n : ℕ) (hn : n < cfg1.N) :
    inv V c (n + 1) hn = invWith c (owns (c : Thread nD τ) mSum fullShare (stateAt V c n hn).2.1) (owns (c : Thread nD τ) mAcc fullShare (stateAt V c n hn).2.2) := rfl
theorem inv_pos (c : Dev nD) (n : ℕ) (h : n ≤ cfg1.N) (hz : n ≠ 0) :
    inv V c n h = invWith c (owns (c : Thread nD τ) mSum fullShare (stateAt V c (n - 1) (by omega)).2.1) (owns (c : Thread nD τ) mAcc fullShare (stateAt V c (n - 1) (by omega)).2.2) := by
  cases n with
  | zero => exact absurd rfl hz
  | succ n => rfl

/-! ## The pipeline's proof data -/

/-- The two input windows read one array (the linear layer's result): each holds one half of it. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => (stateAt V c t.val t.isLt).1
  Φ t := inv V c t.val (Nat.le_of_lt_succ t.isLt)
  q w := match w with
    | ⟨0, _⟩ => fullShare.left
    | ⟨1, _⟩ => fullShare.right
    | ⟨2, _⟩ => fullShare
  owed _ := 0

theorem dat_A (c : Dev nD) (w : Fin cfg1.W) : (dat V c).A w = V c (Pipeline.arrRef spec1 w) := by dsimp only [dat]
theorem inv_castSucc (c : Dev nD) (t : Fin cfg1.N) : (dat V c).Φ t.castSucc = inv V c t.val (Nat.le_of_lt t.isLt) := by
  dsimp only [dat]; simp only [Fin.coe_castSucc]
theorem after_q (c : Dev nD) (t : Fin cfg1.N) : (dat V c).after 0 t = blockAt V c 0 t := by dsimp only [dat]
theorem after_k (c : Dev nD) (t : Fin cfg1.N) : (dat V c).after 1 t = blockAt V c 1 t := by dsimp only [dat]
theorem after_o (c : Dev nD) (t : Fin cfg1.N) : (dat V c).after 2 t = (stateAt V c t.val t.isLt).1 := by dsimp only [dat]
theorem before_q (c : Dev nD) (t : Fin cfg1.N) (d) : (dat V c).before 0 t d = blockAt V c 0 t :=
  q_holds_block V (dat V c) (dat_A V c 0) (after_q V c) t d
theorem before_k (c : Dev nD) (t : Fin cfg1.N) (d) : (dat V c).before 1 t d = blockAt V c 1 t :=
  k_holds_block V (dat V c) (dat_A V c 1) (after_k V c) t d

/-! ## The body obligation -/

def pointPre (c : Dev nD) (t : Fin cfg1.N) : sProp 𝕄 :=
  iprop((dat V c).Φ t.castSucc ∗ (dat V c).owesAt () t.castSucc
    ∗ (∃ d, owns (c : Thread nD τ) (mq t) fullShare ((dat V c).before 0 t d))
    ∗ (∃ d, owns (c : Thread nD τ) (mk t) fullShare ((dat V c).before 1 t d))
    ∗ (∃ d, owns (c : Thread nD τ) (mo t) fullShare ((dat V c).before 2 t d)))

def pointPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The inputs' buffers hold their blocks; the point's position in its run of eight says
    which case it is; the invariant hands the body the accumulators at what the point before left (at anything before
    the first point of all, and the first case does not look) and takes them back at this point's contents; the
    output's buffer goes back untouched except at the last key tile; the core owes nothing throughout. -/
theorem point_sound (c : Dev nD) (t : Fin cfg1.N) :
    pointPre V c t ⊢ wp frame (wpE (defs₀ (F := F)) Variants.none c none) Set.univ (bodyAt1 t) (fun _ => pointPost V c t) := by
  unfold pointPre pointPost bodyAt1
  simp only [before_q, before_k]
  rw [show (dat V c).owesAt () t.succ = (dat V c).owesAt () t.castSucc from rfl]
  rw [show (dat V c).Φ t.succ = inv V c (t.val + 1) t.isLt from rfl, inv_succ]
  have hN : t.val < 64 := lt_of_lt_of_eq t.isLt (show cfg1.N = 64 from N_1)
  rw [show (dat V c).leavesExact 0 t = owns (c : Thread nD τ) (mq t) fullShare ((dat V c).after 0 t) from by
    unfold Dat.leavesExact; rw [q_live t], after_q]
  rw [show (dat V c).leavesExact 1 t = owns (c : Thread nD τ) (mk t) fullShare ((dat V c).after 1 t) from by
    unfold Dat.leavesExact; rw [k_live t], after_k]
  by_cases h0 : t.val % 8 = 0
  · have h1 : ¬t.val % 8 = 7 := by omega
    rw [Dat.leavesExact_idle (dat V c) 2 t (out_idle t (fun h => h1 ((isLast_iff t).mp h))) (out_noFlush t (fun h => h1 ((isLast_iff t).mp h)))]
    rw [stateAt_first V c t h0 h1]
    (try dsimp only)
    have hpre : (dat V c).Φ t.castSucc ⊢ (Pipeline.ΦA spec1 c : sProp 𝕄) := by
      rw [inv_castSucc V c t]
      by_cases hz : t.val = 0
      · rw [inv_zero V c _ _ hz]
      · rw [inv_pos V c _ _ hz, plainInv_eq']; unfold invWith
        iintro ⟨⟨H1, H2, H3, H4, H5, H6, HS, HA⟩, Hg⟩
        isplitr [Hg]
        · isplitl [H1]; · iexact H1
          isplitl [H2]; · iexact H2
          isplitl [H3]; · iexact H3
          isplitl [H4]; · iexact H4
          isplitl [H5]; · iexact H5
          isplitl [H6]; · iexact H6
          isplitl [HS]; · iexists _; iexact HS
          iexists _; iexact HA
        iexact Hg
    refine (sep_mono hpre .rfl).trans ?_
    rw [plainInv_eq']; unfold invWith
    iintro ⟨⟨⟨H1, H2, H3, H4, H5, H6, HS, HA⟩, Hg⟩, Ho, ⟨%d0, H0q⟩, ⟨%d1, H0k⟩, ⟨%d2, H0o⟩⟩
    iapply ((firstAt V c t h0 h1).2.2 _ Set.univ _)
    isplitl [H0q]; · iexact H0q
    isplitl [H0k]; · iexact H0k
    isplitl [H0o]; · iexact H0o
    isplitl [HS]; · iexact HS
    isplitl [HA]; · iexact HA
    iintro ⟨H0q, H0k, H0o, ⟨%es, HS⟩, ⟨%ea, HA⟩⟩
    isplitr [Ho H0q H0k H0o]
    · isplitr [Hg]
      · isplitl [H1]; · iexact H1
        isplitl [H2]; · iexact H2
        isplitl [H3]; · iexact H3
        isplitl [H4]; · iexact H4
        isplitl [H5]; · iexact H5
        isplitl [H6]; · iexact H6
        isplitl [HS]
        · unfold owns; iexists _; isplitr
          swap; · iexact HS
          ipureintro; exact View.read_writes_of_cover _ _ _ _ _ (first_sum_covers c _ _ _ _ _ _ _ _ _ _ _ _ _ _ _)
        unfold owns; iexists _; isplitr
        swap; · iexact HA
        ipureintro; exact View.read_writes_of_cover _ _ _ _ _ (first_acc_covers c _ _ _ _ _ _ _ _ _ _ _ _ _ _ _)
      iexact Hg
    isplitl [Ho]; · iexact Ho
    isplitl [H0q]; · iexact H0q
    isplitl [H0k]; · iexact H0k
    iexists _; iexact H0o
  · have hz : t.val ≠ 0 := fun e => h0 (by rw [e])
    rw [inv_castSucc V c t, inv_pos V c _ _ hz]
    by_cases h1 : t.val % 8 = 7
    · rw [show (dat V c).leavesExact 2 t = owns (c : Thread nD τ) (mo t) fullShare ((dat V c).after 2 t) from by
        unfold Dat.leavesExact; rw [out_live t ((isLast_iff t).mpr h1)], after_o]
      rw [stateAt_last V c t h0 h1]
      (try dsimp only)
      unfold invWith
      iintro ⟨⟨⟨H1, H2, H3, H4, H5, H6, HS, HA⟩, Hg⟩, Ho, ⟨%d0, H0q⟩, ⟨%d1, H0k⟩, ⟨%d2, H0o⟩⟩
      iapply ((lastAt V c t h0 h1 (prevSum V c t) (prevAcc V c t)).2.2.2 Set.univ _)
      isplitl [H0q]; · iexact H0q
      isplitl [H0k]; · iexact H0k
      isplitl [H0o]; · iexists _; iexact H0o
      isplitl [HS]; · iexact HS
      isplitl [HA]; · iexact HA
      iintro ⟨H0q, H0k, ⟨%eo, H0o⟩, ⟨%es, HS⟩, ⟨%ea, HA⟩⟩
      isplitr [Ho H0q H0k H0o]
      · isplitr [Hg]
        · isplitl [H1]; · iexact H1
          isplitl [H2]; · iexact H2
          isplitl [H3]; · iexact H3
          isplitl [H4]; · iexact H4
          isplitl [H5]; · iexact H5
          isplitl [H6]; · iexact H6
          isplitl [HS]
          · unfold owns; iexists _; isplitr
            swap; · iexact HS
            ipureintro; exact View.read_writes_of_cover _ _ _ _ _ (last_sum_covers c _ _ _ _ _ _ _ _ _ _ _ _ _ _ _ _ _)
          unfold owns; iexists _; isplitr
          swap; · iexact HA
          ipureintro; exact View.read_writes_of_cover _ _ _ _ _ (last_acc_covers c _ _ _ _ _ _ _ _ _ _ _ _ _ _ _ _ _)
        iexact Hg
      isplitl [Ho]; · iexact Ho
      isplitl [H0q]; · iexact H0q
      isplitl [H0k]; · iexact H0k
      unfold owns; iexists _; isplitr
      swap; · iexact H0o
      ipureintro; exact View.read_writes_of_cover _ _ _ _ _ (last_out_covers c _ _ _ _ _ _ _ _ _ _ _ _ _ _ _ _ _)
    · rw [Dat.leavesExact_idle (dat V c) 2 t (out_idle t (fun h => h1 ((isLast_iff t).mp h))) (out_noFlush t (fun h => h1 ((isLast_iff t).mp h)))]
      rw [stateAt_mid V c t h0 h1]
      (try dsimp only)
      unfold invWith
      iintro ⟨⟨⟨H1, H2, H3, H4, H5, H6, HS, HA⟩, Hg⟩, Ho, ⟨%d0, H0q⟩, ⟨%d1, H0k⟩, ⟨%d2, H0o⟩⟩
      iapply ((midAt V c t h0 h1 (prevSum V c t) (prevAcc V c t)).2.2 _ Set.univ _)
      isplitl [H0q]; · iexact H0q
      isplitl [H0k]; · iexact H0k
      isplitl [H0o]; · iexact H0o
      isplitl [HS]; · iexact HS
      isplitl [HA]; · iexact HA
      iintro ⟨H0q, H0k, H0o, ⟨%es, HS⟩, ⟨%ea, HA⟩⟩
      isplitr [Ho H0q H0k H0o]
      · isplitr [Hg]
        · isplitl [H1]; · iexact H1
          isplitl [H2]; · iexact H2
          isplitl [H3]; · iexact H3
          isplitl [H4]; · iexact H4
          isplitl [H5]; · iexact H5
          isplitl [H6]; · iexact H6
          isplitl [HS]
          · unfold owns; iexists _; isplitr
            swap; · iexact HS
            ipureintro; exact View.read_writes_of_cover _ _ _ _ _ (mid_sum_covers c _ _ _ _ _ _ _ _ _ _ _ _ _ _ _ _ _)
          unfold owns; iexists _; isplitr
          swap; · iexact HA
          ipureintro; exact View.read_writes_of_cover _ _ _ _ _ (mid_acc_covers c _ _ _ _ _ _ _ _ _ _ _ _ _ _ _ _ _)
        iexact Hg
      isplitl [Ho]; · iexact Ho
      isplitl [H0q]; · iexact H0q
      isplitl [H0k]; · iexact H0k
      iexists _; iexact H0o

/-- The library's body obligation, at every point. -/
theorem body_obligation (c : Dev nD) : BodyObligation (dat (F := F) V c) (defs₀ (F := F)) Variants.none () Set.univ := fun t => by
  rw [bigSep_W1, bigSep_W1]
  exact point_sound V c t

/-- What the region is entered with is the invariant before the first point. -/
theorem inv_in (c : Dev nD) : Pipeline.ΦA spec1 c ⊢ (dat V c).Φ 0 := by
  rw [show (dat V c).Φ 0 = inv V c 0 (Nat.zero_le _) from rfl, inv_zero V c 0 _ rfl]

/-- After the last point the invariant gives the plain one back: the accumulators' contents are forgotten. -/
theorem inv_out (c : Dev nD) : (dat V c).Φ (Fin.last cfg1.N) ⊢ Pipeline.ΦA spec1 c := by
  rw [show (dat V c).Φ (Fin.last cfg1.N) = inv V c (Fin.last cfg1.N).val (Nat.le_of_lt_succ (Fin.last cfg1.N).isLt) from rfl,
    inv_pos V c _ _ (by rw [Fin.val_last]; have : cfg1.N = 64 := N_1; omega), plainInv_eq']
  unfold invWith
  iintro ⟨⟨H1, H2, H3, H4, H5, H6, HS, HA⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [HS]; · iexists _; iexact HS
    iexists _; iexact HA
  iexact Hg

end Cert.Kernel.Att

end
-- ==== Proof.BitsRun.lean ====
/-
  The whole program as a run. Its main is: reshape the bias to a row; the linear region; the attention region. The
  contents of the core's unscoped buffers at each boundary are folded from the launch memory: after the reshape;
  after the linear region, its output array at what its eight write-backs leave; after the attention region, its output
  array at what its write-backs leave. The attention region reads ONE array through two windows, so at its entry that
  array is dealt to the two windows in two halves and at its exit the halves are joined again.
  The conclusion names every unscoped buffer's final contents; the frame (the arguments end as launched) and the
  result's contents are read off it.
-/
import proofs.«138730_j37787122270731_2_alg».proof.Proof.BitsLinRegion
import proofs.«138730_j37787122270731_2_alg».proof.Proof.BitsAttRegion
import proofs.«138730_j37787122270731_2_alg».proof.Proof.Gen.Kernel.Regions

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s unscoped buffers at launch, after the reshape (the linear region's entry), -/
abbrev B0 : Dev nD → Valuation τ sig (Elt F) := fun c b => m (c, b)
abbrev B1 : Dev nD → Valuation τ sig (Elt F) := fun c => StableHlo.after hostOps0 (B0 m c)
/-- read at the TensorCore's references: what the linear region's proof data take. -/
abbrev E1 : (c : Dev nD) → (b : Ref sig .tc) → Buf (Elt F) ((c : Thread nD τ).loc b) := fun c b => B1 m c b
/-- After the linear region: its arrays at what the pipeline leaves, every other buffer as entered. -/
def B2 (c : Dev nD) : Valuation τ sig (Elt F) :=
  Pipeline.withArrays spec0 c (B1 m c) fun w => (Lin.dat (E1 m) c).arrAt w cfg0.N
theorem B2_arr (c : Dev nD) (w : Fin cfg0.W) :
    B2 m c (Proc.devRef .tc (Pipeline.arrRef spec0 w)) = (Lin.dat (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
/-- The attention region's entry contents (no host operation stands between the regions). -/
abbrev E2 : (c : Dev nD) → (b : Ref sig .tc) → Buf (Elt F) ((c : Thread nD τ).loc b) := fun c b => B2 m c b
theorem lin_exit_arr (c : Dev nD) (w : Fin cfg0.W) : (Lin.dat (E1 m) c).arrAt w cfg0.N = E2 m c (Pipeline.arrRef spec0 w) :=
  (B2_arr m c w).symm
theorem lin_exit_rest (c : Dev nD) : ∀ b, b ∉ Finset.univ.image (Pipeline.arrRef spec0) → E2 m c b = E1 m c b :=
  fun b hb => B2_of_ne m c b fun w e => hb (Finset.mem_image.mpr ⟨w, Finset.mem_univ _, e⟩)

/-- After the attention region: the result array at what its write-backs leave, every other buffer as entered. -/
def B3 (c : Dev nD) : Valuation τ sig (Elt F) :=
  Function.update (B2 m c) (Proc.devRef .tc main_v2) ((Att.dat (E2 m) c).arrAt 2 cfg1.N)
abbrev E3 : (c : Dev nD) → (b : Ref sig .tc) → Buf (Elt F) ((c : Thread nD τ).loc b) := fun c b => B3 m c b
theorem B3_result (c : Dev nD) : B3 m c (Proc.devRef .tc main_v2) = (Att.dat (E2 m) c).arrAt 2 cfg1.N := by
  unfold B3; exact Function.update_self ..
theorem B3_of_ne (c : Dev nD) (b : Ref sig .tc) (hb : b ≠ main_v2) : B3 m c (Proc.devRef .tc b) = B2 m c (Proc.devRef .tc b) := by
  unfold B3; exact Function.update_of_ne (StableHlo.devRef_ne_of_ne hb) ..

/-! ## The arguments end as launched -/

theorem hostOps0_keeps (c : Dev nD) (b : Ref sig .tc) (hb : b ≠ main_v0) :
    B1 m c (Proc.devRef .tc b) = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

theorem B3_main_arg0 (c : Dev nD) : B3 m c (Proc.devRef .tc main_arg0) = m ((c : Thread nD τ).loc main_arg0) :=
  calc B3 m c (Proc.devRef .tc main_arg0)
    _ = B2 m c (Proc.devRef .tc main_arg0) := B3_of_ne m c main_arg0 (by decide)
    _ = B1 m c (Proc.devRef .tc main_arg0) := (B2_arr m c 0).trans (((Lin.dat (E1 m) c).arrAt_in 0 rfl _).trans (Lin.dat_A (E1 m) c 0))
    _ = m ((c : Thread nD τ).loc main_arg0) := hostOps0_keeps m c main_arg0 (by decide)
theorem B3_main_arg1 (c : Dev nD) : B3 m c (Proc.devRef .tc main_arg1) = m ((c : Thread nD τ).loc main_arg1) :=
  calc B3 m c (Proc.devRef .tc main_arg1)
    _ = B2 m c (Proc.devRef .tc main_arg1) := B3_of_ne m c main_arg1 (by decide)
    _ = B1 m c (Proc.devRef .tc main_arg1) := (B2_arr m c 1).trans (((Lin.dat (E1 m) c).arrAt_in 1 rfl _).trans (Lin.dat_A (E1 m) c 1))
    _ = m ((c : Thread nD τ).loc main_arg1) := hostOps0_keeps m c main_arg1 (by decide)
theorem B3_main_arg2 (c : Dev nD) : B3 m c (Proc.devRef .tc main_arg2) = m ((c : Thread nD τ).loc main_arg2) :=
  calc B3 m c (Proc.devRef .tc main_arg2)
    _ = B2 m c (Proc.devRef .tc main_arg2) := B3_of_ne m c main_arg2 (by decide)
    _ = B1 m c (Proc.devRef .tc main_arg2) := B2_of_ne m c main_arg2 (by decide)
    _ = m ((c : Thread nD τ).loc main_arg2) := hostOps0_keeps m c main_arg2 (by decide)

/-! ## The attention region's arrays at entry and exit: one array in two halves -/

/-- The attention region's three windows' arrays as points-tos of the two buffers behind them: the linear layer's
    result at the left half for the query window and at the right half for the key window, the result array whole. -/
theorem att_arrays_eq (V : (c : Dev nD) → (b : Ref sig .tc) → Buf (Elt F) ((c : Thread nD τ).loc b)) (c : Dev nD)
    (G : (w : Fin cfg1.W) → Buf (Elt F) ((cfg1.win w).arr.view.loc (c.tc : Thread nD τ))) :
    ((Att.dat V c).arrays G : sProp 𝕄)
      = iprop((((c : Thread nD τ).loc main_v1) ↦{fullShare.left} G 0) ∗ (((c : Thread nD τ).loc main_v1) ↦{fullShare.right} G 1)
          ∗ (((c : Thread nD τ).loc main_v2) ↦{fullShare} G 2)) := by
  unfold Dat.arrays
  rw [bigSep_W1]
  rw [(arr_whole1 0).set_eq_univ, (arr_whole1 2).set_eq_univ]
  rfl

/-- The two distinct buffers behind the attention region's three windows, each whole at the full share. -/
theorem att_arrBufs_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v1) ↦{fullShare} V main_v1) ∗ (((c : Thread nD τ).loc main_v2) ↦{fullShare} V main_v2)) := by
  unfold Pipeline.arrBufs
  exact bigSep_eq_bigSepL_of_eq [main_v1, main_v2] (by decide) (by decide) _

/-- ENTRY: the core's unscoped buffers at `V c` are the region's arrays at the proof data's entry contents — the
    shared array split in two halves — and the unscoped rest. -/
theorem att_entry (V : (c : Dev nD) → (b : Ref sig .tc) → Buf (Elt F) ((c : Thread nD τ).loc b)) (c : Dev nD) :
    (unscopedBufs c (V c) : sProp 𝕄)
      ⊢ iprop((Att.dat V c).arrays ((Att.dat V c).arrAt · 0) ∗ Pipeline.unscopedRest (Ix := Unit) (Name := ℕ) (U := UR sig nD τ) (Lvl := ℕ) spec1 c (V c)) := by
  rw [Pipeline.unscopedBufs_split₀ cfgs 1 winFacts₀1.arr_unscoped c (V c), att_arrays_eq]
  refine sep_mono ?_ .rfl
  rw [show (Pipeline.arrBufs (cfgs 1).spec c (V c) : sProp 𝕄) = _ from att_arrBufs_eq c (V c)]
  iintro ⟨H1, H2⟩
  ihave H1' := (pointsTo_share (PosShare.mem_left_op_right fullShare)).1 $$ H1
  icases H1' with ⟨Ha, Hb⟩
  isplitl [Ha]; · iexact Ha
  isplitl [Hb]; · iexact Hb
  iexact H2

/-- EXIT: the region's arrays — the two halves of the shared array at ONE contents, the result array at `R` — and the
    unscoped rest at `V` are the core's unscoped buffers at any valuation that has the result at `R` and agrees with
    `V` elsewhere. -/
theorem att_exit (V : (c : Dev nD) → (b : Ref sig .tc) → Buf (Elt F) ((c : Thread nD τ).loc b)) (c : Dev nD)
    (V' : (b : Ref sig .tc) → Buf (Elt F) ((c : Thread nD τ).loc b))
    (G : (w : Fin cfg1.W) → Buf (Elt F) ((cfg1.win w).arr.view.loc (c.tc : Thread nD τ)))
    (h0 : G 0 = V' main_v1) (h1 : G 1 = V' main_v1) (h2 : G 2 = V' main_v2)
    (hrest : ∀ b, b ∉ Finset.univ.image (Pipeline.arrRef spec1) → V' b = V c b) :
    iprop((Att.dat V c).arrays G ∗ Pipeline.unscopedRest (Ix := Unit) (Name := ℕ) (U := UR sig nD τ) (Lvl := ℕ) spec1 c (V c))
      ⊢ (unscopedBufs c V' : sProp 𝕄) := by
  rw [Pipeline.unscopedBufs_split₀ cfgs 1 winFacts₀1.arr_unscoped c V', att_arrays_eq, h0, h1, h2]
  refine sep_mono ?_ (Entails.of_eq ?_)
  · rw [show (Pipeline.arrBufs (cfgs 1).spec c V' : sProp 𝕄) = _ from att_arrBufs_eq c V']
    iintro ⟨Ha, Hb, H2⟩
    isplitl [Ha Hb]
    · iapply (pointsTo_share (PosShare.mem_left_op_right fullShare)).2
      isplitl [Ha]; · iexact Ha
      iexact Hb
    iexact H2
  · unfold Pipeline.unscopedRest
    exact bigSep_congr fun b hb => by rw [hrest b (Finset.mem_sdiff.mp hb).2]

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Lin.dat (E1 m) c
  | ⟨1, _⟩ => fun c => Att.dat (E2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev Ride (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor

/-- The reshape as a segment over the unscoped references. -/
abbrev hostSeg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (B0 m) Ride

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tend (c : Dev nD) : sProp 𝕄 := iprop(StableHlo.held (c : Thread nD τ) (Pipeline.ucRefs τ sig) (B3 m c) ∗ ∃ r, prngReg c r)

/-! ## The regions as segments -/

set_option backward.isDefEq.respectTransparency.types false in
/-- The linear region: entered from every unscoped buffer at `B1`, left at `B2`. -/
def linSeg : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Lin.body_obligation (E1 m) c).loose
  hwaits := Pipeline.hwaits_of_owed_zero _ _ _ _ L lv 0 fun _ _ => rfl
  pre c := iprop(StableHlo.held (c : Thread nD τ) (Pipeline.ucRefs τ sig) (B1 m c) ∗ Ride c)
  post c := iprop(StableHlo.held (c : Thread nD τ) (Pipeline.ucRefs τ sig) (B2 m c) ∗ Ride c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (lin_exit_arr m c) (lin_exit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `B2`, left at `B3`. -/
def attSeg : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Att.body_obligation (E2 m) c).loose
  hwaits := Pipeline.hwaits_of_owed_zero _ _ _ _ L lv 1 fun _ _ => rfl
  pre c := iprop(StableHlo.held (c : Thread nD τ) (Pipeline.ucRefs τ sig) (B2 m c) ∗ Ride c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := att_entry (E2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Att.inv_in (E2 m) c)
    unfold Pipeline.ΦA
    iintro ⟨Hp, -, Hr⟩
    isplitl [Hr]; · iexact Hr
    iexact Hp
  hout c := by
    rw [Pipeline.ownSems0_none]
    refine (Att.inv_out (E2 m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (E2 m c))
        ⊢ (unscopedBufs c (E3 m c) : sProp 𝕄) := att_exit (E2 m) c (E3 m c) ((pdats m 1 c).arrAt · cfg1.N)
      ((((Att.dat (E2 m) c).arrAt_in 0 rfl _).trans (Att.dat_A (E2 m) c 0)).trans (B3_of_ne m c main_v1 (by decide)).symm)
      ((((Att.dat (E2 m) c).arrAt_in 1 rfl _).trans (Att.dat_A (E2 m) c 1)).trans (B3_of_ne m c main_v1 (by decide)).symm)
      (B3_result m c).symm
      (fun b hb => B3_of_ne m c b (fun e => hb (Finset.mem_image.mpr ⟨2, Finset.mem_univ _, e.symm⟩)))
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The launch -/

abbrev segs : List (Pipeline.Seg (pcfgs (F := F)) adm (pdats m) () defs₀ 𝒱₀ L lv) :=
  [ .host (hostSeg m), .region (linSeg m), .region (attSeg m) ]

theorem main_is_segs (c : Dev nD) : main (F := F) c = Pipeline.Seg.run (segs m) := (main_chain c).trans (by chain_rfl)

set_option backward.isDefEq.respectTransparency.types false in
/-- THE RUN. From any memory with zero counters every weakly fair execution of main terminates, nothing faulting, and
    every final memory holds every unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = B3 m c b) :=
  Pipeline.θ_run_regions_kit (pcfgs (F := F)) adm (pdats m) () cellOf_inj emb₁ defs₀ 𝒱₀ L lv m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Ride c)) (Tₙ := Tend m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

/-- THE FRAME, and the result's contents: the arguments end as launched, and the result array ends at what the
    attention region's write-backs leave. -/
theorem run_result : θ_run defs (onTc (τ := τ) (main (F := F))) ⟨m, fun _ => 0, ρ⟩ (fun r => ∀ c : Dev nD,
      r.2.mem ((c.tc : Thread nD τ).loc main_v2) = (Att.dat (E2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v2 (by decide))).trans (B3_result m c),
     (h c _ (mem_uc main_arg0 (by decide))).trans (B3_main_arg0 m c),
     (h c _ (mem_uc main_arg1 (by decide))).trans (B3_main_arg1 m c),
     (h c _ (mem_uc main_arg2 (by decide))).trans (B3_main_arg2 m c)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_result m ρ)

end Cert.Kernel.Run

end
-- ==== Proof.IdealLinRegion.lean ====
/-
  The linear layer's region. At every one of its eight grid points the body reads a 1024-row block of x, the whole
  of W and the bias row, and stores  block · Wᵀ + bias  into the output block; nothing is carried between points.
  Stated at any float instance and at any contents `V` of the core's buffers when the region is entered: what each
  input window's staging buffer holds at a point (its block of the array), what the one store leaves in the output's
  buffer, the body's triple, the proof data of the pipeline and its body obligation.
-/
import proofs.«138730_j37787122270731_2_alg».proof.Proof.Gen.KernelIdeal.Launch
import proofs.«138730_j37787122270731_2_alg».proof.Proof.Gen.KernelIdeal.Skeleton
import proofs.«138730_j37787122270731_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Lin

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of its array at grid point `t`, the array at its region-entry contents. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window whose body leaves its block in place holds its block at every point, fetched there or not:
    where it is not fetched its block index has not moved (x's block changes with the point and is fetched at each;
    W and the bias row have one block, fetched once). One statement per input window. -/
theorem x_holds_block {c : Dev nD} (dat : Dat τ (Elt F) Unit ℕ (UR sig nD τ) ℕ cfg0 c)
    (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem w_holds_block {c : Dev nD} (dat : Dat τ (Elt F) Unit ℕ (UR sig nD τ) ℕ cfg0 c)
    (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem b_holds_block {c : Dev nD} (dat : Dat τ (Elt F) Unit ℕ (UR sig nD τ) ℕ cfg0 c)
    (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- The whole of a 1024 × 1024 buffer, and of the 1 × 1024 bias row: the rectangles every access of the body uses. -/
abbrev rSq : Rect S1024x1024 := Rect.unit (s := S1024x1024) ![0, 0] S1024x1024.size inb_S1024x1024_S1024x1024_0_0
abbrev rRow : Rect S1x1024 := Rect.unit (s := S1x1024) ![0, 0] S1x1024.size inb_S1x1024_S1x1024_0_0

/-- What the body's one store leaves in the output's staging buffer, from the three input blocks. -/
def stored (x : Vec F S1024x1024 .f32) (w : Vec F S1024x1024 .f32) (b : Vec F S1x1024 .f32) : Vec F S1024x1024 .f32 :=
  View.canon [⟨rSq, k0_pay1 (View.ld x rSq) (View.ld w rSq) (View.ld b rRow)⟩]

/-- The one store covers the buffer. -/
theorem stored_covers (p0 : Vec F S1024x1024 .f32) (y : S1024x1024.Idx) :
    ∃ pc ∈ ([⟨rSq, p0⟩] : List (View.Piece (Elt F) S1024x1024 .f32)), y ∈ pc.1.set :=
  View.cover_of_tiled [⟨rSq, p0⟩] S1024x1024.size (by rfl) y

set_option maxHeartbeats 1000000 in
/-- The body on whole staging memrefs, the inputs' at contents `x`, `w`, `b` and the output's at anything, runs to
    the continuation with the inputs' as they were and the output's at `stored x w b`. -/
theorem body_triple (c : Dev nD) (E : Set ℕ) (i : grid0.Coords)
    (a1 : Memref sig .tc .vmem S1024x1024 .f32) (h1 : a1.IsWhole) (a2 : Memref sig .tc .vmem S1024x1024 .f32) (h2 : a2.IsWhole)
    (a3 : Memref sig .tc .vmem S1x1024 .f32) (h3 : a3.IsWhole) (a4 : Memref sig .tc .vmem S1024x1024 .f32) (h4 : a4.IsWhole)
    (x : Vec F S1024x1024 .f32) (w : Vec F S1024x1024 .f32) (b : Vec F S1x1024 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d)
        ∗ (iprop(owns (c : Thread nD τ) a1 fullShare x ∗ owns (c : Thread nD τ) a2 fullShare w ∗ owns (c : Thread nD τ) a3 fullShare b
            ∗ owns (c : Thread nD τ) a4 fullShare (stored x w b)) -∗ K ⟨⟩))
      ⊢ wp frame (wpE (defs₀ (F := F)) Variants.none c none) E (cc0__linear_kernel i a1 h1 a2 h2 a3 h3 a4 h4) K := by
  simp only [cc0__linear_kernel_eq_skeleton]; unfold cc0__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (stored_covers _)

/-- The pipeline's proof data on core `c`: the arrays as the region finds them; after the body each input's buffer at
    its block and the output's at `stored` of the three blocks; between points only the scoped buffers the kernel
    does not name and the generator register; nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => stored (blockAt V c 0 t) (blockAt V c 1 t) (blockAt V c 2 t)
  Φ _ := Pipeline.ΦA spec0 c
  q _ := fullShare
  owed _ := 0

theorem dat_A (c : Dev nD) (w : Fin cfg0.W) : (dat V c).A w = V c (Pipeline.arrRef spec0 w) := by dsimp only [dat]
theorem after_x (c : Dev nD) (t : Fin cfg0.N) : (dat V c).after 0 t = blockAt V c 0 t := by dsimp only [dat]
theorem after_w (c : Dev nD) (t : Fin cfg0.N) : (dat V c).after 1 t = blockAt V c 1 t := by dsimp only [dat]
theorem after_b (c : Dev nD) (t : Fin cfg0.N) : (dat V c).after 2 t = blockAt V c 2 t := by dsimp only [dat]
theorem after_out (c : Dev nD) (t : Fin cfg0.N) :
    (dat V c).after 3 t = stored (blockAt V c 0 t) (blockAt V c 1 t) (blockAt V c 2 t) := by dsimp only [dat]

theorem before_x (c : Dev nD) (t : Fin cfg0.N) (d) : (dat V c).before 0 t d = blockAt V c 0 t :=
  x_holds_block V (dat V c) (dat_A V c 0) (after_x V c) t d
theorem before_w (c : Dev nD) (t : Fin cfg0.N) (d) : (dat V c).before 1 t d = blockAt V c 1 t :=
  w_holds_block V (dat V c) (dat_A V c 1) (after_w V c) t d
theorem before_b (c : Dev nD) (t : Fin cfg0.N) (d) : (dat V c).before 2 t d = blockAt V c 2 t :=
  b_holds_block V (dat V c) (dat_A V c 2) (after_b V c) t d

/-- What the body is called with at point `t`, the windows one by one, -/
def pointPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def pointPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their blocks, so the triple applies; the invariant and the core's
    dues pass through untouched. -/
theorem point_sound (c : Dev nD) (t : Fin cfg0.N) :
    pointPre V c t ⊢ wp frame (wpE (defs₀ (F := F)) Variants.none c none) Set.univ (bodyAt0 t) (fun _ => pointPost V c t) := by
  unfold pointPre pointPost bodyAt0
  simp only [before_x, before_w, before_b]
  rw [show (dat V c).Φ t.succ = (dat V c).Φ t.castSucc from rfl,
    show (dat V c).owesAt () t.succ = (dat V c).owesAt () t.castSucc from rfl,
    after_x, after_w, after_b, after_out]
  iintro ⟨HΦ, Ho, ⟨%d0, H0⟩, ⟨%d1, H1⟩, ⟨%d2, H2⟩, ⟨%d3, H3⟩⟩
  iapply (body_triple c Set.univ _ _ _ _ _ _ _ _ _ (blockAt V c 0 t) (blockAt V c 1 t) (blockAt V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact point_sound V c t

end Cert.KernelIdeal.Lin

end
-- ==== Proof.IdealAttBase.lean ====
/-
  The attention region: what its three cases share. The grid is 8 × 8 (query tile, key tile), the key tile the inner
  coordinate. The body's first branch (the key tile is the first: clear the two accumulators) and its last (the key
  tile is the last: normalise and store the output block) are decided by the point's position in its run of eight;
  the output window is idle, and not written back, everywhere but at the last key tile. The two scratch buffers — the
  column of weight sums and the 1024 × 1024 weighted sum — are the kernel's own and are carried from point to point.
-/
import proofs.«138730_j37787122270731_2_alg».proof.Proof.Gen.KernelIdeal.Launch
import proofs.«138730_j37787122270731_2_alg».proof.Proof.Gen.KernelIdeal.Skeleton
import proofs.«138730_j37787122270731_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of its array at grid point `t`, the array at its region-entry contents. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query tile's window and the key tile's window hold their blocks at every point, fetched there or not: the
    query tile is fetched once per run of eight points and its index does not move inside the run; the key tile
    is fetched at every point. -/
theorem q_holds_block {c : Dev nD} (dat : Dat τ (Elt F) Unit ℕ (UR sig nD τ) ℕ cfg1 c)
    (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem k_holds_block {c : Dev nD} (dat : Dat τ (Elt F) Unit ℕ (UR sig nD τ) ℕ cfg1 c)
    (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The two branch conditions -/

/-- "The key tile is the first", as the body computes it from the grid coordinates. -/
abbrev isFirst (i : grid1.Coords) : Prop :=
  (Scalar.cmpi .ne (Scalar.extui (Scalar.cmpi .eq (BitVec.ofNat 32 (i 1).val) 0#32)) 0#32) = 1#1
/-- It holds at the points ≡ 0 (mod 8). -/
theorem isFirst_iff : ∀ t : Fin cfg1.N, isFirst (grid1.coords t) ↔ t.val % 8 = 0 :=
  (by decide +kernel : ∀ t : Fin grid1.N, isFirst (grid1.coords t) ↔ t.val % 8 = 0)

/-- "The key tile is the last", as the body computes it. -/
abbrev isLast (i : grid1.Coords) : Prop := k1_cond2 i = 1#1
/-- It holds at the points ≡ 7 (mod 8). -/
theorem isLast_iff : ∀ t : Fin cfg1.N, isLast (grid1.coords t) ↔ t.val % 8 = 7 :=
  (by decide +kernel : ∀ t : Fin grid1.N, isLast (grid1.coords t) ↔ t.val % 8 = 7)

/-! ## Where the windows are idle -/

theorem q_live : ∀ t : Fin cfg1.N, cfg1.idle 0 (grid1.coords t) = false := by decide +kernel
theorem k_live : ∀ t : Fin cfg1.N, cfg1.idle 1 (grid1.coords t) = false := by decide +kernel
/-- Away from the last key tile the output window is idle and not written back. -/
theorem out_idle : ∀ t : Fin cfg1.N, ¬isLast (grid1.coords t) → cfg1.idle 2 (grid1.coords t) = true := by decide +kernel
theorem out_noFlush : ∀ t : Fin cfg1.N, ¬isLast (grid1.coords t) → (cfg1.win 2).flush t = false := by decide +kernel
/-- At the last key tile it is live. -/
theorem out_live : ∀ t : Fin cfg1.N, isLast (grid1.coords t) → cfg1.idle 2 (grid1.coords t) = false := by decide +kernel

/-! ## The memrefs the body is called with -/

abbrev mq (t : Fin cfg1.N) : Memref sig .tc .vmem S1024x1024 .f32 := win1_0.stage (cfg1.slots t 0)
abbrev hmq (t : Fin cfg1.N) : (mq t).IsWhole := hstage1_0 ((cfg1.slots t 0).cast nbuf1_0)
abbrev mk (t : Fin cfg1.N) : Memref sig .tc .vmem S1024x1024 .f32 := win1_1.stage (cfg1.slots t 1)
abbrev hmk (t : Fin cfg1.N) : (mk t).IsWhole := hstage1_1 ((cfg1.slots t 1).cast nbuf1_1)
abbrev mo (t : Fin cfg1.N) : Memref sig .tc .vmem S1024x1024 .f32 := win1_2.stage (cfg1.slots t 2)
abbrev hmo (t : Fin cfg1.N) : (mo t).IsWhole := hstage1_2 ((cfg1.slots t 2).cast nbuf1_2)
/-- The column of weight sums and the weighted sum: whole scoped buffers of the kernel's own. -/
abbrev mSum : Memref sig .tc .vmem S1024x1 .f32 := Memref.whole cc1_scratch0
abbrev mAcc : Memref sig .tc .vmem S1024x1024 .f32 := Memref.whole cc1_scratch1
/-- Views through which the accumulators' and the output buffer's contents are stated. -/
abbrev vSum : View sig .tc .vmem S1024x1 .f32 := mSum.view
abbrev vAcc : View sig .tc .vmem S1024x1024 .f32 := mAcc.view
abbrev vOut : View sig .tc .vmem S1024x1024 .f32 := (Memref.whole cc1_stg2_0 : Memref sig .tc .vmem S1024x1024 .f32).view

/-- The region's plain invariant with the two accumulators spelled as memrefs owned at some contents, beside the
    staging buffers of the other region (which this kernel never touches) and the generator register. -/
theorem plainInv_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) mSum fullShare d) ∗ (∃ d, owns (c : Thread nD τ) mAcc fullShare d)) ∗ (∃ r, prngReg c r)) := by
  unfold Pipeline.ΦA; rw [scopedRest1_eq]; simp only [mSum, mAcc, owns_whole]; try rfl

end Cert.KernelIdeal.Att

end
-- ==== Proof.IdealAttRuns.lean ====
/-
  The attention body run once per case, on any whole memrefs: the inputs' at given contents, the accumulators' at
  given contents (at anything where the case clears them first), the output's handed back untouched where the case
  stores nothing into it. What each buffer the case stores into ends with is a list of store pieces, last first,
  which the run itself determines.
-/
import proofs.«138730_j37787122270731_2_alg».proof.Proof.IdealAttBase

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- THE FIRST KEY TILE (and not the last): both accumulators are cleared, then the tile is added. The accumulators
    start at anything; the output's buffer is handed back as found. -/
noncomputable def runFirst (c : Dev nD) (i : grid1.Coords)
    (aq : Memref sig .tc .vmem S1024x1024 .f32) (hq : aq.IsWhole) (ak : Memref sig .tc .vmem S1024x1024 .f32) (hk : ak.IsWhole)
    (ao : Memref sig .tc .vmem S1024x1024 .f32) (ho : ao.IsWhole) (aS : Memref sig .tc .vmem S1024x1 .f32) (hs : aS.IsWhole)
    (aa : Memref sig .tc .vmem S1024x1024 .f32) (ha : aa.IsWhole) (hc0 : isFirst i) (hc1 : ¬isLast i)
    (xq : Vec F S1024x1024 .f32) (xk : Vec F S1024x1024 .f32) :
    Σ' (LS : List (View.Piece (Elt F) S1024x1 .f32)), { LA : List (View.Piece (Elt F) S1024x1024 .f32) //
      ∀ (xo : Vec F S1024x1024 .f32) (E : Set ℕ) (K : PUnit → sProp 𝕄),
        iprop(owns (c : Thread nD τ) aq fullShare xq ∗ owns (c : Thread nD τ) ak fullShare xk ∗ owns (c : Thread nD τ) ao fullShare xo
            ∗ (∃ d, owns (c : Thread nD τ) aS fullShare d) ∗ (∃ d, owns (c : Thread nD τ) aa fullShare d)
            ∗ (iprop(owns (c : Thread nD τ) aq fullShare xq ∗ owns (c : Thread nD τ) ak fullShare xk ∗ owns (c : Thread nD τ) ao fullShare xo
                ∗ (∃ f, aS.view.loc (c : Thread nD τ) ↦[aS.view.set]{fullShare} aS.view.writes (Elt F) f LS)
                ∗ (∃ f, aa.view.loc (c : Thread nD τ) ↦[aa.view.set]{fullShare} aa.view.writes (Elt F) f LA)) -∗ K ⟨⟩))
          ⊢ wp frame (wpE (defs₀ (F := F)) Variants.none c none) E (cc1__attn_kernel i aq hq ak hk ao ho aS hs aa ha) K } := by
  refine ⟨?_, ?_, fun xo E K => ?run⟩
  case run =>
    simp only [cc1__attn_kernel_eq_skeleton]; unfold cc1__attn_kernel_skel
    unfold owns
    iintro ⟨⟨%fq, %hfq, Hq⟩, ⟨%fk, %hfk, Hk'⟩, ⟨%fo, %hfo, Ho⟩, ⟨%ds, %fs, -, Hs⟩, ⟨%da, %fa, -, Ha⟩, Hk⟩
    obtain rfl := hq.eq_unread hfq; obtain rfl := hk.eq_unread hfk; obtain rfl := ho.eq_unread hfo
    sl_exec (disch := first | exact hc0 | exact hc1)
    sl_step
    iapply Hk
    isplitl [Hq]
    · iexists _; isplitr; · ipureintro; exact hq.read_unread _
      iexact Hq
    isplitl [Hk']
    · iexists _; isplitr; · ipureintro; exact hk.read_unread _
      iexact Hk'
    isplitl [Ho]
    · iexists _; isplitr; · ipureintro; exact ho.read_unread _
      iexact Ho
    isplitl [Hs]; · iexists _; iexact Hs
    iexists _; iexact Ha

set_option maxHeartbeats 2000000 in
/-- A KEY TILE THAT IS NEITHER FIRST NOR LAST: the tile is added to the accumulators, which start at the contents
    `xs`, `xa` the point before left; the output's buffer is handed back as found. -/
noncomputable def runMid (c : Dev nD) (i : grid1.Coords)
    (aq : Memref sig .tc .vmem S1024x1024 .f32) (hq : aq.IsWhole) (ak : Memref sig .tc .vmem S1024x1024 .f32) (hk : ak.IsWhole)
    (ao : Memref sig .tc .vmem S1024x1024 .f32) (ho : ao.IsWhole) (aS : Memref sig .tc .vmem S1024x1 .f32) (hs : aS.IsWhole)
    (aa : Memref sig .tc .vmem S1024x1024 .f32) (ha : aa.IsWhole) (hc0 : ¬isFirst i) (hc1 : ¬isLast i)
    (xq : Vec F S1024x1024 .f32) (xk : Vec F S1024x1024 .f32) (xs : Vec F S1024x1 .f32) (xa : Vec F S1024x1024 .f32) :
    Σ' (LS : List (View.Piece (Elt F) S1024x1 .f32)), { LA : List (View.Piece (Elt F) S1024x1024 .f32) //
      ∀ (xo : Vec F S1024x1024 .f32) (E : Set ℕ) (K : PUnit → sProp 𝕄),
        iprop(owns (c : Thread nD τ) aq fullShare xq ∗ owns (c : Thread nD τ) ak fullShare xk ∗ owns (c : Thread nD τ) ao fullShare xo
            ∗ owns (c : Thread nD τ) aS fullShare xs ∗ owns (c : Thread nD τ) aa fullShare xa
            ∗ (iprop(owns (c : Thread nD τ) aq fullShare xq ∗ owns (c : Thread nD τ) ak fullShare xk ∗ owns (c : Thread nD τ) ao fullShare xo
                ∗ (∃ f, aS.view.loc (c : Thread nD τ) ↦[aS.view.set]{fullShare} aS.view.writes (Elt F) f LS)
                ∗ (∃ f, aa.view.loc (c : Thread nD τ) ↦[aa.view.set]{fullShare} aa.view.writes (Elt F) f LA)) -∗ K ⟨⟩))
          ⊢ wp frame (wpE (defs₀ (F := F)) Variants.none c none) E (cc1__attn_kernel i aq hq ak hk ao ho aS hs aa ha) K } := by
  refine ⟨?_, ?_, fun xo E K => ?run⟩
  case run =>
    simp only [cc1__attn_kernel_eq_skeleton]; unfold cc1__attn_kernel_skel
    unfold owns
    iintro ⟨⟨%fq, %hfq, Hq⟩, ⟨%fk, %hfk, Hk'⟩, ⟨%fo, %hfo, Ho⟩, ⟨%fs, %hfs, Hs⟩, ⟨%fa, %hfa, Ha⟩, Hk⟩
    obtain rfl := hq.eq_unread hfq; obtain rfl := hk.eq_unread hfk; obtain rfl := ho.eq_unread hfo
    obtain rfl := hs.eq_unread hfs; obtain rfl := ha.eq_unread hfa
    sl_exec (disch := first | exact hc0 | exact hc1)
    sl_step
    iapply Hk
    isplitl [Hq]
    · iexists _; isplitr; · ipureintro; exact hq.read_unread _
      iexact Hq
    isplitl [Hk']
    · iexists _; isplitr; · ipureintro; exact hk.read_unread _
      iexact Hk'
    isplitl [Ho]
    · iexists _; isplitr; · ipureintro; exact ho.read_unread _
      iexact Ho
    isplitl [Hs]; · iexists _; iexact Hs
    iexists _; iexact Ha

set_option maxHeartbeats 2000000 in
/-- THE LAST KEY TILE (and not the first): the tile is added to the accumulators, which start at `xs`, `xa`, and the
    normalised block is stored into the output's buffer, which starts at anything. -/
noncomputable def runLast (c : Dev nD) (i : grid1.Coords)
    (aq : Memref sig .tc .vmem S1024x1024 .f32) (hq : aq.IsWhole) (ak : Memref sig .tc .vmem S1024x1024 .f32) (hk : ak.IsWhole)
    (ao : Memref sig .tc .vmem S1024x1024 .f32) (ho : ao.IsWhole) (aS : Memref sig .tc .vmem S1024x1 .f32) (hs : aS.IsWhole)
    (aa : Memref sig .tc .vmem S1024x1024 .f32) (ha : aa.IsWhole) (hc0 : ¬isFirst i) (hc1 : isLast i)
    (xq : Vec F S1024x1024 .f32) (xk : Vec F S1024x1024 .f32) (xs : Vec F S1024x1 .f32) (xa : Vec F S1024x1024 .f32) :
    Σ' (LO : List (View.Piece (Elt F) S1024x1024 .f32)) (LS : List (View.Piece (Elt F) S1024x1 .f32)), { LA : List (View.Piece (Elt F) S1024x1024 .f32) //
      ∀ (E : Set ℕ) (K : PUnit → sProp 𝕄),
        iprop(owns (c : Thread nD τ) aq fullShare xq ∗ owns (c : Thread nD τ) ak fullShare xk ∗ (∃ d, owns (c : Thread nD τ) ao fullShare d)
            ∗ owns (c : Thread nD τ) aS fullShare xs ∗ owns (c : Thread nD τ) aa fullShare xa
            ∗ (iprop(owns (c : Thread nD τ) aq fullShare xq ∗ owns (c : Thread nD τ) ak fullShare xk
                ∗ (∃ f, ao.view.loc (c : Thread nD τ) ↦[ao.view.set]{fullShare} ao.view.writes (Elt F) f LO)
                ∗ (∃ f, aS.view.loc (c : Thread nD τ) ↦[aS.view.set]{fullShare} aS.view.writes (Elt F) f LS)
                ∗ (∃ f, aa.view.loc (c : Thread nD τ) ↦[aa.view.set]{fullShare} aa.view.writes (Elt F) f LA)) -∗ K ⟨⟩))
          ⊢ wp frame (wpE (defs₀ (F := F)) Variants.none c none) E (cc1__attn_kernel i aq hq ak hk ao ho aS hs aa ha) K } := by
  refine ⟨?_, ?_, ?_, fun E K => ?run⟩
  case run =>
    simp only [cc1__attn_kernel_eq_skeleton]; unfold cc1__attn_kernel_skel
    unfold owns
    iintro ⟨⟨%fq, %hfq, Hq⟩, ⟨%fk, %hfk, Hk'⟩, ⟨%dO, %fo, -, Ho⟩, ⟨%fs, %hfs, Hs⟩, ⟨%fa, %hfa, Ha⟩, Hk⟩
    obtain rfl := hq.eq_unread hfq; obtain rfl := hk.eq_unread hfk
    obtain rfl := hs.eq_unread hfs; obtain rfl := ha.eq_unread hfa
    sl_exec (disch := first | exact hc0 | exact hc1)
    sl_step
    iapply Hk
    isplitl [Hq]
    · iexists _; isplitr; · ipureintro; exact hq.read_unread _
      iexact Hq
    isplitl [Hk']
    · iexists _; isplitr; · ipureintro; exact hk.read_unread _
      iexact Hk'
    isplitl [Ho]; · iexists _; iexact Ho
    isplitl [Hs]; · iexists _; iexact Hs
    iexists _; iexact Ha

end Cert.KernelIdeal.Att

end
-- ==== Proof.IdealAttRegion.lean ====
/-
  The attention region's accumulation and its body obligation. After each grid point the two accumulators hold what
  the point's case leaves from what the point before left (cleared first at the first key tile of each query tile),
  and at the last key tile the output's buffer holds the normalised block; the region's invariant between points is
  the plain one with the two accumulators at these contents.
-/
import proofs.«138730_j37787122270731_2_alg».proof.Proof.IdealAttRuns

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Contents read back from a list of store pieces over anything, for each of the three buffers. -/
def sumOf (L : List (View.Piece (Elt F) S1024x1 .f32)) : Vec F S1024x1 .f32 := vSum.read (Elt F) (vSum.writes (Elt F) vSum.junk L)
def accOf (L : List (View.Piece (Elt F) S1024x1024 .f32)) : Vec F S1024x1024 .f32 := vAcc.read (Elt F) (vAcc.writes (Elt F) vAcc.junk L)
def outOf (L : List (View.Piece (Elt F) S1024x1024 .f32)) : Vec F S1024x1024 .f32 := vOut.read (Elt F) (vOut.writes (Elt F) vOut.junk L)

/-! ## Each case's stores cover the buffer they go to -/

section Covers
variable (c : Dev nD) (i : grid1.Coords)
    (aq : Memref sig .tc .vmem S1024x1024 .f32) (hq : aq.IsWhole) (ak : Memref sig .tc .vmem S1024x1024 .f32) (hk : ak.IsWhole)
    (ao : Memref sig .tc .vmem S1024x1024 .f32) (ho : ao.IsWhole) (aS : Memref sig .tc .vmem S1024x1 .f32) (hs : aS.IsWhole)
    (aa : Memref sig .tc .vmem S1024x1024 .f32) (ha : aa.IsWhole)
    (xq : Vec F S1024x1024 .f32) (xk : Vec F S1024x1024 .f32) (xs : Vec F S1024x1 .f32) (xa : Vec F S1024x1024 .f32)

theorem first_sum_covers (hc0 : isFirst i) (hc1 : ¬isLast i) (y : S1024x1.Idx) :
    ∃ pc ∈ (runFirst (F := F) c i aq hq ak hk ao ho aS hs aa ha hc0 hc1 xq xk).1, y ∈ pc.1.set :=
  View.cover_of_tiledL _ S1024x1.size (by sl_kernel_rfl) y
theorem first_acc_covers (hc0 : isFirst i) (hc1 : ¬isLast i) (y : S1024x1024.Idx) :
    ∃ pc ∈ (runFirst (F := F) c i aq hq ak hk ao ho aS hs aa ha hc0 hc1 xq xk).2.1, y ∈ pc.1.set :=
  View.cover_of_tiledL _ S1024x1024.size (by sl_kernel_rfl) y
theorem mid_sum_covers (hc0 : ¬isFirst i) (hc1 : ¬isLast i) (y : S1024x1.Idx) :
    ∃ pc ∈ (runMid (F := F) c i aq hq ak hk ao ho aS hs aa ha hc0 hc1 xq xk xs xa).1, y ∈ pc.1.set :=
  View.cover_of_tiledL _ S1024x1.size (by sl_kernel_rfl) y
theorem mid_acc_covers (hc0 : ¬isFirst i) (hc1 : ¬isLast i) (y : S1024x1024.Idx) :
    ∃ pc ∈ (runMid (F := F) c i aq hq ak hk ao ho aS hs aa ha hc0 hc1 xq xk xs xa).2.1, y ∈ pc.1.set :=
  View.cover_of_tiledL _ S1024x1024.size (by sl_kernel_rfl) y
theorem last_out_covers (hc0 : ¬isFirst i) (hc1 : isLast i) (y : S1024x1024.Idx) :
    ∃ pc ∈ (runLast (F := F) c i aq hq ak hk ao ho aS hs aa ha hc0 hc1 xq xk xs xa).1, y ∈ pc.1.set :=
  View.cover_of_tiledL _ S1024x1024.size (by sl_kernel_rfl) y
theorem last_sum_covers (hc0 : ¬isFirst i) (hc1 : isLast i) (y : S1024x1.Idx) :
    ∃ pc ∈ (runLast (F := F) c i aq hq ak hk ao ho aS hs aa ha hc0 hc1 xq xk xs xa).2.1, y ∈ pc.1.set :=
  View.cover_of_tiledL _ S1024x1.size (by sl_kernel_rfl) y
theorem last_acc_covers (hc0 : ¬isFirst i) (hc1 : isLast i) (y : S1024x1024.Idx) :
    ∃ pc ∈ (runLast (F := F) c i aq hq ak hk ao ho aS hs aa ha hc0 hc1 xq xk xs xa).2.2.1, y ∈ pc.1.set :=
  View.cover_of_tiledL _ S1024x1024.size (by sl_kernel_rfl) y
end Covers

/-! ## The cases at a grid point -/

/-- The first-key-tile run at point `t`: on the point's memrefs and its two input blocks. -/
def firstAt (c : Dev nD) (t : Fin cfg1.N) (h0 : t.val % 8 = 0) (h1 : ¬t.val % 8 = 7) :=
  runFirst (F := F) c (grid1.coords t) (mq t) (hmq t) (mk t) (hmk t) (mo t) (hmo t) mSum (Memref.isWhole_whole _) mAcc (Memref.isWhole_whole _)
    ((isFirst_iff t).mpr h0) (fun h => h1 ((isLast_iff t).mp h)) (blockAt V c 0 t) (blockAt V c 1 t)
/-- The middle run at point `t`, from the accumulators' contents `xs`, `xa`. -/
def midAt (c : Dev nD) (t : Fin cfg1.N) (h0 : ¬t.val % 8 = 0) (h1 : ¬t.val % 8 = 7) (xs : Vec F S1024x1 .f32) (xa : Vec F S1024x1024 .f32) :=
  runMid (F := F) c (grid1.coords t) (mq t) (hmq t) (mk t) (hmk t) (mo t) (hmo t) mSum (Memref.isWhole_whole _) mAcc (Memref.isWhole_whole _)
    (fun h => h0 ((isFirst_iff t).mp h)) (fun h => h1 ((isLast_iff t).mp h)) (blockAt V c 0 t) (blockAt V c 1 t) xs xa
/-- The last-key-tile run at point `t`, from the accumulators' contents `xs`, `xa`. -/
def lastAt (c : Dev nD) (t : Fin cfg1.N) (h0 : ¬t.val % 8 = 0) (h1 : t.val % 8 = 7) (xs : Vec F S1024x1 .f32) (xa : Vec F S1024x1024 .f32) :=
  runLast (F := F) c (grid1.coords t) (mq t) (hmq t) (mk t) (hmk t) (mo t) (hmo t) mSum (Memref.isWhole_whole _) mAcc (Memref.isWhole_whole _)
    (fun h => h0 ((isFirst_iff t).mp h)) ((isLast_iff t).mpr h1) (blockAt V c 0 t) (blockAt V c 1 t) xs xa

/-- A placeholder for the output's buffer where no case stores into it: nothing consults it there (the window is
    idle and not written back). -/
def unstored : Vec F S1024x1024 .f32 := outOf []

/-- THE ACCUMULATION: after the body at position `n`, the output's buffer, the column of weight sums and the weighted
    sum — the case the position selects, the accumulators taken from position `n - 1` unless the case clears them. -/
def stateAt (c : Dev nD) : (n : ℕ) → n < cfg1.N → Vec F S1024x1024 .f32 × Vec F S1024x1 .f32 × Vec F S1024x1024 .f32
  | 0, hn => (unstored, sumOf (firstAt V c ⟨0, hn⟩ (Nat.zero_mod _) (fun h => absurd (show (0 : ℕ) % 8 = 7 from h) (by decide))).1, accOf (firstAt V c ⟨0, hn⟩ (Nat.zero_mod _) (fun h => absurd (show (0 : ℕ) % 8 = 7 from h) (by decide))).2.1)
  | n + 1, hn =>
    if h0 : (n + 1) % 8 = 0 then
      if h1 : (n + 1) % 8 = 7 then False.elim (by omega)
      else (unstored, sumOf (firstAt V c ⟨n + 1, hn⟩ h0 h1).1, accOf (firstAt V c ⟨n + 1, hn⟩ h0 h1).2.1)
    else
      if h1 : (n + 1) % 8 = 7 then
        (outOf (lastAt V c ⟨n + 1, hn⟩ h0 h1 (stateAt c n (Nat.lt_of_succ_lt hn)).2.1 (stateAt c n (Nat.lt_of_succ_lt hn)).2.2).1,
         sumOf (lastAt V c ⟨n + 1, hn⟩ h0 h1 (stateAt c n (Nat.lt_of_succ_lt hn)).2.1 (stateAt c n (Nat.lt_of_succ_lt hn)).2.2).2.1,
         accOf (lastAt V c ⟨n + 1, hn⟩ h0 h1 (stateAt c n (Nat.lt_of_succ_lt hn)).2.1 (stateAt c n (Nat.lt_of_succ_lt hn)).2.2).2.2.1)
      else
        (unstored,
         sumOf (midAt V c ⟨n + 1, hn⟩ h0 h1 (stateAt c n (Nat.lt_of_succ_lt hn)).2.1 (stateAt c n (Nat.lt_of_succ_lt hn)).2.2).1,
         accOf (midAt V c ⟨n + 1, hn⟩ h0 h1 (stateAt c n (Nat.lt_of_succ_lt hn)).2.1 (stateAt c n (Nat.lt_of_succ_lt hn)).2.2).2.1)

/-- The accumulators the point before `t` left (for `t` not the first point of all). -/
abbrev prevSum (c : Dev nD) (t : Fin cfg1.N) : Vec F S1024x1 .f32 := (stateAt V c (t.val - 1) (Nat.lt_of_le_of_lt (Nat.sub_le _ _) t.isLt)).2.1
abbrev prevAcc (c : Dev nD) (t : Fin cfg1.N) : Vec F S1024x1024 .f32 := (stateAt V c (t.val - 1) (Nat.lt_of_le_of_lt (Nat.sub_le _ _) t.isLt)).2.2

theorem stateAt_first (c : Dev nD) (t : Fin cfg1.N) (h0 : t.val % 8 = 0) (h1 : ¬t.val % 8 = 7) :
    stateAt V c t.val t.isLt = (unstored, sumOf (firstAt V c t h0 h1).1, accOf (firstAt V c t h0 h1).2.1) := by
  obtain ⟨n, hn⟩ := t
  cases n with
  | zero => exact rfl
  | succ n => exact (dif_pos h0).trans ((dif_neg h1).trans rfl)

theorem stateAt_mid (c : Dev nD) (t : Fin cfg1.N) (h0 : ¬t.val % 8 = 0) (h1 : ¬t.val % 8 = 7) :
    stateAt V c t.val t.isLt = (unstored, sumOf (midAt V c t h0 h1 (prevSum V c t) (prevAcc V c t)).1,
      accOf (midAt V c t h0 h1 (prevSum V c t) (prevAcc V c t)).2.1) := by
  obtain ⟨n, hn⟩ := t
  cases n with
  | zero => exact (by exfalso; exact absurd (Nat.zero_mod _) h0)
  | succ n => exact (dif_neg h0).trans ((dif_neg h1).trans rfl)

theorem stateAt_last (c : Dev nD) (t : Fin cfg1.N) (h0 : ¬t.val % 8 = 0) (h1 : t.val % 8 = 7) :
    stateAt V c t.val t.isLt = (outOf (lastAt V c t h0 h1 (prevSum V c t) (prevAcc V c t)).1,
      sumOf (lastAt V c t h0 h1 (prevSum V c t) (prevAcc V c t)).2.1,
      accOf (lastAt V c t h0 h1 (prevSum V c t) (prevAcc V c t)).2.2.1) := by
  obtain ⟨n, hn⟩ := t
  cases n with
  | zero => exact (by exfalso; exact absurd (Nat.zero_mod _) h0)
  | succ n => exact (dif_neg h0).trans ((dif_pos h1).trans rfl)

/-! ## The region's invariant between points -/

/-- The invariant's shape: the other region's staging buffers at anything, the two accumulators as `PS`, `PA` say,
    the generator register at some state. -/
def invWith (c : Dev nD) (PS PA : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ PS ∗ PA) ∗ (∃ r, prngReg c r))

theorem plainInv_eq' (c : Dev nD) :
    (Pipeline.ΦA spec1 c : sProp 𝕄) = invWith c iprop(∃ d, owns (c : Thread nD τ) mSum fullShare d) iprop(∃ d, owns (c : Thread nD τ) mAcc fullShare d) := by
  rw [plainInv_eq]; rfl

/-- Before the first point the plain invariant; before any other the accumulators at what the point before left. -/
def inv (c : Dev nD) : (n : ℕ) → n ≤ cfg1.N → sProp 𝕄
  | 0, _ => Pipeline.ΦA spec1 c
  | n + 1, hn => invWith c (owns (c : Thread nD τ) mSum fullShare (stateAt V c n hn).2.1) (owns (c : Thread nD τ) mAcc fullShare (stateAt V c n hn).2.2)

theorem inv_zero (c : Dev nD) (n : ℕ) (h : n ≤ cfg1.N) (hz : n = 0) : inv V c n h = Pipeline.ΦA spec1 c := by
  subst hz; rfl
theorem inv_succ (c : Dev nD) (n : ℕ) (hn : n < cfg1.N) :
    inv V c (n + 1) hn = invWith c (owns (c : Thread nD τ) mSum fullShare (stateAt V c n hn).2.1) (owns (c : Thread nD τ) mAcc fullShare (stateAt V c n hn).2.2) := rfl
theorem inv_pos (c : Dev nD) (n : ℕ) (h : n ≤ cfg1.N) (hz : n ≠ 0) :
    inv V c n h = invWith c (owns (c : Thread nD τ) mSum fullShare (stateAt V c (n - 1) (by omega)).2.1) (owns (c : Thread nD τ) mAcc fullShare (stateAt V c (n - 1) (by omega)).2.2) := by
  cases n with
  | zero => exact absurd rfl hz
  | succ n => rfl

/-! ## The pipeline's proof data -/

/-- The two input windows read one array (the linear layer's result): each holds one half of it. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => (stateAt V c t.val t.isLt).1
  Φ t := inv V c t.val (Nat.le_of_lt_succ t.isLt)
  q w := match w with
    | ⟨0, _⟩ => fullShare.left
    | ⟨1, _⟩ => fullShare.right
    | ⟨2, _⟩ => fullShare
  owed _ := 0

theorem dat_A (c : Dev nD) (w : Fin cfg1.W) : (dat V c).A w = V c (Pipeline.arrRef spec1 w) := by dsimp only [dat]
theorem inv_castSucc (c : Dev nD) (t : Fin cfg1.N) : (dat V c).Φ t.castSucc = inv V c t.val (Nat.le_of_lt t.isLt) := by
  dsimp only [dat]; simp only [Fin.coe_castSucc]
theorem after_q (c : Dev nD) (t : Fin cfg1.N) : (dat V c).after 0 t = blockAt V c 0 t := by dsimp only [dat]
theorem after_k (c : Dev nD) (t : Fin cfg1.N) : (dat V c).after 1 t = blockAt V c 1 t := by dsimp only [dat]
theorem after_o (c : Dev nD) (t : Fin cfg1.N) : (dat V c).after 2 t = (stateAt V c t.val t.isLt).1 := by dsimp only [dat]
theorem before_q (c : Dev nD) (t : Fin cfg1.N) (d) : (dat V c).before 0 t d = blockAt V c 0 t :=
  q_holds_block V (dat V c) (dat_A V c 0) (after_q V c) t d
theorem before_k (c : Dev nD) (t : Fin cfg1.N) (d) : (dat V c).before 1 t d = blockAt V c 1 t :=
  k_holds_block V (dat V c) (dat_A V c 1) (after_k V c) t d

/-! ## The body obligation -/

def pointPre (c : Dev nD) (t : Fin cfg1.N) : sProp 𝕄 :=
  iprop((dat V c).Φ t.castSucc ∗ (dat V c).owesAt () t.castSucc
    ∗ (∃ d, owns (c : Thread nD τ) (mq t) fullShare ((dat V c).before 0 t d))
    ∗ (∃ d, owns (c : Thread nD τ) (mk t) fullShare ((dat V c).before 1 t d))
    ∗ (∃ d, owns (c : Thread nD τ) (mo t) fullShare ((dat V c).before 2 t d)))

def pointPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The inputs' buffers hold their blocks; the point's position in its run of eight says
    which case it is; the invariant hands the body the accumulators at what the point before left (at anything before
    the first point of all, and the first case does not look) and takes them back at this point's contents; the
    output's buffer goes back untouched except at the last key tile; the core owes nothing throughout. -/
theorem point_sound (c : Dev nD) (t : Fin cfg1.N) :
    pointPre V c t ⊢ wp frame (wpE (defs₀ (F := F)) Variants.none c none) Set.univ (bodyAt1 t) (fun _ => pointPost V c t) := by
  unfold pointPre pointPost bodyAt1
  simp only [before_q, before_k]
  rw [show (dat V c).owesAt () t.succ = (dat V c).owesAt () t.castSucc from rfl]
  rw [show (dat V c).Φ t.succ = inv V c (t.val + 1) t.isLt from rfl, inv_succ]
  have hN : t.val < 64 := lt_of_lt_of_eq t.isLt (show cfg1.N = 64 from N_1)
  rw [show (dat V c).leavesExact 0 t = owns (c : Thread nD τ) (mq t) fullShare ((dat V c).after 0 t) from by
    unfold Dat.leavesExact; rw [q_live t], after_q]
  rw [show (dat V c).leavesExact 1 t = owns (c : Thread nD τ) (mk t) fullShare ((dat V c).after 1 t) from by
    unfold Dat.leavesExact; rw [k_live t], after_k]
  by_cases h0 : t.val % 8 = 0
  · have h1 : ¬t.val % 8 = 7 := by omega
    rw [Dat.leavesExact_idle (dat V c) 2 t (out_idle t (fun h => h1 ((isLast_iff t).mp h))) (out_noFlush t (fun h => h1 ((isLast_iff t).mp h)))]
    rw [stateAt_first V c t h0 h1]
    (try dsimp only)
    have hpre : (dat V c).Φ t.castSucc ⊢ (Pipeline.ΦA spec1 c : sProp 𝕄) := by
      rw [inv_castSucc V c t]
      by_cases hz : t.val = 0
      · rw [inv_zero V c _ _ hz]
      · rw [inv_pos V c _ _ hz, plainInv_eq']; unfold invWith
        iintro ⟨⟨H1, H2, H3, H4, H5, H6, HS, HA⟩, Hg⟩
        isplitr [Hg]
        · isplitl [H1]; · iexact H1
          isplitl [H2]; · iexact H2
          isplitl [H3]; · iexact H3
          isplitl [H4]; · iexact H4
          isplitl [H5]; · iexact H5
          isplitl [H6]; · iexact H6
          isplitl [HS]; · iexists _; iexact HS
          iexists _; iexact HA
        iexact Hg
    refine (sep_mono hpre .rfl).trans ?_
    rw [plainInv_eq']; unfold invWith
    iintro ⟨⟨⟨H1, H2, H3, H4, H5, H6, HS, HA⟩, Hg⟩, Ho, ⟨%d0, H0q⟩, ⟨%d1, H0k⟩, ⟨%d2, H0o⟩⟩
    iapply ((firstAt V c t h0 h1).2.2 _ Set.univ _)
    isplitl [H0q]; · iexact H0q
    isplitl [H0k]; · iexact H0k
    isplitl [H0o]; · iexact H0o
    isplitl [HS]; · iexact HS
    isplitl [HA]; · iexact HA
    iintro ⟨H0q, H0k, H0o, ⟨%es, HS⟩, ⟨%ea, HA⟩⟩
    isplitr [Ho H0q H0k H0o]
    · isplitr [Hg]
      · isplitl [H1]; · iexact H1
        isplitl [H2]; · iexact H2
        isplitl [H3]; · iexact H3
        isplitl [H4]; · iexact H4
        isplitl [H5]; · iexact H5
        isplitl [H6]; · iexact H6
        isplitl [HS]
        · unfold owns; iexists _; isplitr
          swap; · iexact HS
          ipureintro; exact View.read_writes_of_cover _ _ _ _ _ (first_sum_covers c _ _ _ _ _ _ _ _ _ _ _ _ _ _ _)
        unfold owns; iexists _; isplitr
        swap; · iexact HA
        ipureintro; exact View.read_writes_of_cover _ _ _ _ _ (first_acc_covers c _ _ _ _ _ _ _ _ _ _ _ _ _ _ _)
      iexact Hg
    isplitl [Ho]; · iexact Ho
    isplitl [H0q]; · iexact H0q
    isplitl [H0k]; · iexact H0k
    iexists _; iexact H0o
  · have hz : t.val ≠ 0 := fun e => h0 (by rw [e])
    rw [inv_castSucc V c t, inv_pos V c _ _ hz]
    by_cases h1 : t.val % 8 = 7
    · rw [show (dat V c).leavesExact 2 t = owns (c : Thread nD τ) (mo t) fullShare ((dat V c).after 2 t) from by
        unfold Dat.leavesExact; rw [out_live t ((isLast_iff t).mpr h1)], after_o]
      rw [stateAt_last V c t h0 h1]
      (try dsimp only)
      unfold invWith
      iintro ⟨⟨⟨H1, H2, H3, H4, H5, H6, HS, HA⟩, Hg⟩, Ho, ⟨%d0, H0q⟩, ⟨%d1, H0k⟩, ⟨%d2, H0o⟩⟩
      iapply ((lastAt V c t h0 h1 (prevSum V c t) (prevAcc V c t)).2.2.2 Set.univ _)
      isplitl [H0q]; · iexact H0q
      isplitl [H0k]; · iexact H0k
      isplitl [H0o]; · iexists _; iexact H0o
      isplitl [HS]; · iexact HS
      isplitl [HA]; · iexact HA
      iintro ⟨H0q, H0k, ⟨%eo, H0o⟩, ⟨%es, HS⟩, ⟨%ea, HA⟩⟩
      isplitr [Ho H0q H0k H0o]
      · isplitr [Hg]
        · isplitl [H1]; · iexact H1
          isplitl [H2]; · iexact H2
          isplitl [H3]; · iexact H3
          isplitl [H4]; · iexact H4
          isplitl [H5]; · iexact H5
          isplitl [H6]; · iexact H6
          isplitl [HS]
          · unfold owns; iexists _; isplitr
            swap; · iexact HS
            ipureintro; exact View.read_writes_of_cover _ _ _ _ _ (last_sum_covers c _ _ _ _ _ _ _ _ _ _ _ _ _ _ _ _ _)
          unfold owns; iexists _; isplitr
          swap; · iexact HA
          ipureintro; exact View.read_writes_of_cover _ _ _ _ _ (last_acc_covers c _ _ _ _ _ _ _ _ _ _ _ _ _ _ _ _ _)
        iexact Hg
      isplitl [Ho]; · iexact Ho
      isplitl [H0q]; · iexact H0q
      isplitl [H0k]; · iexact H0k
      unfold owns; iexists _; isplitr
      swap; · iexact H0o
      ipureintro; exact View.read_writes_of_cover _ _ _ _ _ (last_out_covers c _ _ _ _ _ _ _ _ _ _ _ _ _ _ _ _ _)
    · rw [Dat.leavesExact_idle (dat V c) 2 t (out_idle t (fun h => h1 ((isLast_iff t).mp h))) (out_noFlush t (fun h => h1 ((isLast_iff t).mp h)))]
      rw [stateAt_mid V c t h0 h1]
      (try dsimp only)
      unfold invWith
      iintro ⟨⟨⟨H1, H2, H3, H4, H5, H6, HS, HA⟩, Hg⟩, Ho, ⟨%d0, H0q⟩, ⟨%d1, H0k⟩, ⟨%d2, H0o⟩⟩
      iapply ((midAt V c t h0 h1 (prevSum V c t) (prevAcc V c t)).2.2 _ Set.univ _)
      isplitl [H0q]; · iexact H0q
      isplitl [H0k]; · iexact H0k
      isplitl [H0o]; · iexact H0o
      isplitl [HS]; · iexact HS
      isplitl [HA]; · iexact HA
      iintro ⟨H0q, H0k, H0o, ⟨%es, HS⟩, ⟨%ea, HA⟩⟩
      isplitr [Ho H0q H0k H0o]
      · isplitr [Hg]
        · isplitl [H1]; · iexact H1
          isplitl [H2]; · iexact H2
          isplitl [H3]; · iexact H3
          isplitl [H4]; · iexact H4
          isplitl [H5]; · iexact H5
          isplitl [H6]; · iexact H6
          isplitl [HS]
          · unfold owns; iexists _; isplitr
            swap; · iexact HS
            ipureintro; exact View.read_writes_of_cover _ _ _ _ _ (mid_sum_covers c _ _ _ _ _ _ _ _ _ _ _ _ _ _ _ _ _)
          unfold owns; iexists _; isplitr
          swap; · iexact HA
          ipureintro; exact View.read_writes_of_cover _ _ _ _ _ (mid_acc_covers c _ _ _ _ _ _ _ _ _ _ _ _ _ _ _ _ _)
        iexact Hg
      isplitl [Ho]; · iexact Ho
      isplitl [H0q]; · iexact H0q
      isplitl [H0k]; · iexact H0k
      iexists _; iexact H0o

/-- The library's body obligation, at every point. -/
theorem body_obligation (c : Dev nD) : BodyObligation (dat (F := F) V c) (defs₀ (F := F)) Variants.none () Set.univ := fun t => by
  rw [bigSep_W1, bigSep_W1]
  exact point_sound V c t

/-- What the region is entered with is the invariant before the first point. -/
theorem inv_in (c : Dev nD) : Pipeline.ΦA spec1 c ⊢ (dat V c).Φ 0 := by
  rw [show (dat V c).Φ 0 = inv V c 0 (Nat.zero_le _) from rfl, inv_zero V c 0 _ rfl]

/-- After the last point the invariant gives the plain one back: the accumulators' contents are forgotten. -/
theorem inv_out (c : Dev nD) : (dat V c).Φ (Fin.last cfg1.N) ⊢ Pipeline.ΦA spec1 c := by
  rw [show (dat V c).Φ (Fin.last cfg1.N) = inv V c (Fin.last cfg1.N).val (Nat.le_of_lt_succ (Fin.last cfg1.N).isLt) from rfl,
    inv_pos V c _ _ (by rw [Fin.val_last]; have : cfg1.N = 64 := N_1; omega), plainInv_eq']
  unfold invWith
  iintro ⟨⟨H1, H2, H3, H4, H5, H6, HS, HA⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [HS]; · iexists _; iexact HS
    iexists _; iexact HA
  iexact Hg

end Cert.KernelIdeal.Att

end
-- ==== Proof.IdealRun.lean ====
/-
  The whole program as a run. Its main is: reshape the bias to a row; the linear region; the attention region. The
  contents of the core's unscoped buffers at each boundary are folded from the launch memory: after the reshape;
  after the linear region, its output array at what its eight write-backs leave; after the attention region, its output
  array at what its write-backs leave. The attention region reads ONE array through two windows, so at its entry that
  array is dealt to the two windows in two halves and at its exit the halves are joined again.
  The conclusion names every unscoped buffer's final contents; the frame (the arguments end as launched) and the
  result's contents are read off it.
-/
import proofs.«138730_j37787122270731_2_alg».proof.Proof.IdealLinRegion
import proofs.«138730_j37787122270731_2_alg».proof.Proof.IdealAttRegion
import proofs.«138730_j37787122270731_2_alg».proof.Proof.Gen.KernelIdeal.Regions

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s unscoped buffers at launch, after the reshape (the linear region's entry), -/
abbrev B0 : Dev nD → Valuation τ sig (Elt F) := fun c b => m (c, b)
abbrev B1 : Dev nD → Valuation τ sig (Elt F) := fun c => StableHlo.after hostOps0 (B0 m c)
/-- read at the TensorCore's references: what the linear region's proof data take. -/
abbrev E1 : (c : Dev nD) → (b : Ref sig .tc) → Buf (Elt F) ((c : Thread nD τ).loc b) := fun c b => B1 m c b
/-- After the linear region: its arrays at what the pipeline leaves, every other buffer as entered. -/
def B2 (c : Dev nD) : Valuation τ sig (Elt F) :=
  Pipeline.withArrays spec0 c (B1 m c) fun w => (Lin.dat (E1 m) c).arrAt w cfg0.N
theorem B2_arr (c : Dev nD) (w : Fin cfg0.W) :
    B2 m c (Proc.devRef .tc (Pipeline.arrRef spec0 w)) = (Lin.dat (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
/-- The attention region's entry contents (no host operation stands between the regions). -/
abbrev E2 : (c : Dev nD) → (b : Ref sig .tc) → Buf (Elt F) ((c : Thread nD τ).loc b) := fun c b => B2 m c b
theorem lin_exit_arr (c : Dev nD) (w : Fin cfg0.W) : (Lin.dat (E1 m) c).arrAt w cfg0.N = E2 m c (Pipeline.arrRef spec0 w) :=
  (B2_arr m c w).symm
theorem lin_exit_rest (c : Dev nD) : ∀ b, b ∉ Finset.univ.image (Pipeline.arrRef spec0) → E2 m c b = E1 m c b :=
  fun b hb => B2_of_ne m c b fun w e => hb (Finset.mem_image.mpr ⟨w, Finset.mem_univ _, e⟩)

/-- After the attention region: the result array at what its write-backs leave, every other buffer as entered. -/
def B3 (c : Dev nD) : Valuation τ sig (Elt F) :=
  Function.update (B2 m c) (Proc.devRef .tc main_v2) ((Att.dat (E2 m) c).arrAt 2 cfg1.N)
abbrev E3 : (c : Dev nD) → (b : Ref sig .tc) → Buf (Elt F) ((c : Thread nD τ).loc b) := fun c b => B3 m c b
theorem B3_result (c : Dev nD) : B3 m c (Proc.devRef .tc main_v2) = (Att.dat (E2 m) c).arrAt 2 cfg1.N := by
  unfold B3; exact Function.update_self ..
theorem B3_of_ne (c : Dev nD) (b : Ref sig .tc) (hb : b ≠ main_v2) : B3 m c (Proc.devRef .tc b) = B2 m c (Proc.devRef .tc b) := by
  unfold B3; exact Function.update_of_ne (StableHlo.devRef_ne_of_ne hb) ..

/-! ## The arguments end as launched -/

theorem hostOps0_keeps (c : Dev nD) (b : Ref sig .tc) (hb : b ≠ main_v0) :
    B1 m c (Proc.devRef .tc b) = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

theorem B3_main_arg0 (c : Dev nD) : B3 m c (Proc.devRef .tc main_arg0) = m ((c : Thread nD τ).loc main_arg0) :=
  calc B3 m c (Proc.devRef .tc main_arg0)
    _ = B2 m c (Proc.devRef .tc main_arg0) := B3_of_ne m c main_arg0 (by decide)
    _ = B1 m c (Proc.devRef .tc main_arg0) := (B2_arr m c 0).trans (((Lin.dat (E1 m) c).arrAt_in 0 rfl _).trans (Lin.dat_A (E1 m) c 0))
    _ = m ((c : Thread nD τ).loc main_arg0) := hostOps0_keeps m c main_arg0 (by decide)
theorem B3_main_arg1 (c : Dev nD) : B3 m c (Proc.devRef .tc main_arg1) = m ((c : Thread nD τ).loc main_arg1) :=
  calc B3 m c (Proc.devRef .tc main_arg1)
    _ = B2 m c (Proc.devRef .tc main_arg1) := B3_of_ne m c main_arg1 (by decide)
    _ = B1 m c (Proc.devRef .tc main_arg1) := (B2_arr m c 1).trans (((Lin.dat (E1 m) c).arrAt_in 1 rfl _).trans (Lin.dat_A (E1 m) c 1))
    _ = m ((c : Thread nD τ).loc main_arg1) := hostOps0_keeps m c main_arg1 (by decide)
theorem B3_main_arg2 (c : Dev nD) : B3 m c (Proc.devRef .tc main_arg2) = m ((c : Thread nD τ).loc main_arg2) :=
  calc B3 m c (Proc.devRef .tc main_arg2)
    _ = B2 m c (Proc.devRef .tc main_arg2) := B3_of_ne m c main_arg2 (by decide)
    _ = B1 m c (Proc.devRef .tc main_arg2) := B2_of_ne m c main_arg2 (by decide)
    _ = m ((c : Thread nD τ).loc main_arg2) := hostOps0_keeps m c main_arg2 (by decide)

/-! ## The attention region's arrays at entry and exit: one array in two halves -/

/-- The attention region's three windows' arrays as points-tos of the two buffers behind them: the linear layer's
    result at the left half for the query window and at the right half for the key window, the result array whole. -/
theorem att_arrays_eq (V : (c : Dev nD) → (b : Ref sig .tc) → Buf (Elt F) ((c : Thread nD τ).loc b)) (c : Dev nD)
    (G : (w : Fin cfg1.W) → Buf (Elt F) ((cfg1.win w).arr.view.loc (c.tc : Thread nD τ))) :
    ((Att.dat V c).arrays G : sProp 𝕄)
      = iprop((((c : Thread nD τ).loc main_v1) ↦{fullShare.left} G 0) ∗ (((c : Thread nD τ).loc main_v1) ↦{fullShare.right} G 1)
          ∗ (((c : Thread nD τ).loc main_v2) ↦{fullShare} G 2)) := by
  unfold Dat.arrays
  rw [bigSep_W1]
  rw [(arr_whole1 0).set_eq_univ, (arr_whole1 2).set_eq_univ]
  rfl

/-- The two distinct buffers behind the attention region's three windows, each whole at the full share. -/
theorem att_arrBufs_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v1) ↦{fullShare} V main_v1) ∗ (((c : Thread nD τ).loc main_v2) ↦{fullShare} V main_v2)) := by
  unfold Pipeline.arrBufs
  exact bigSep_eq_bigSepL_of_eq [main_v1, main_v2] (by decide) (by decide) _

/-- ENTRY: the core's unscoped buffers at `V c` are the region's arrays at the proof data's entry contents — the
    shared array split in two halves — and the unscoped rest. -/
theorem att_entry (V : (c : Dev nD) → (b : Ref sig .tc) → Buf (Elt F) ((c : Thread nD τ).loc b)) (c : Dev nD) :
    (unscopedBufs c (V c) : sProp 𝕄)
      ⊢ iprop((Att.dat V c).arrays ((Att.dat V c).arrAt · 0) ∗ Pipeline.unscopedRest (Ix := Unit) (Name := ℕ) (U := UR sig nD τ) (Lvl := ℕ) spec1 c (V c)) := by
  rw [Pipeline.unscopedBufs_split₀ cfgs 1 winFacts₀1.arr_unscoped c (V c), att_arrays_eq]
  refine sep_mono ?_ .rfl
  rw [show (Pipeline.arrBufs (cfgs 1).spec c (V c) : sProp 𝕄) = _ from att_arrBufs_eq c (V c)]
  iintro ⟨H1, H2⟩
  ihave H1' := (pointsTo_share (PosShare.mem_left_op_right fullShare)).1 $$ H1
  icases H1' with ⟨Ha, Hb⟩
  isplitl [Ha]; · iexact Ha
  isplitl [Hb]; · iexact Hb
  iexact H2

/-- EXIT: the region's arrays — the two halves of the shared array at ONE contents, the result array at `R` — and the
    unscoped rest at `V` are the core's unscoped buffers at any valuation that has the result at `R` and agrees with
    `V` elsewhere. -/
theorem att_exit (V : (c : Dev nD) → (b : Ref sig .tc) → Buf (Elt F) ((c : Thread nD τ).loc b)) (c : Dev nD)
    (V' : (b : Ref sig .tc) → Buf (Elt F) ((c : Thread nD τ).loc b))
    (G : (w : Fin cfg1.W) → Buf (Elt F) ((cfg1.win w).arr.view.loc (c.tc : Thread nD τ)))
    (h0 : G 0 = V' main_v1) (h1 : G 1 = V' main_v1) (h2 : G 2 = V' main_v2)
    (hrest : ∀ b, b ∉ Finset.univ.image (Pipeline.arrRef spec1) → V' b = V c b) :
    iprop((Att.dat V c).arrays G ∗ Pipeline.unscopedRest (Ix := Unit) (Name := ℕ) (U := UR sig nD τ) (Lvl := ℕ) spec1 c (V c))
      ⊢ (unscopedBufs c V' : sProp 𝕄) := by
  rw [Pipeline.unscopedBufs_split₀ cfgs 1 winFacts₀1.arr_unscoped c V', att_arrays_eq, h0, h1, h2]
  refine sep_mono ?_ (Entails.of_eq ?_)
  · rw [show (Pipeline.arrBufs (cfgs 1).spec c V' : sProp 𝕄) = _ from att_arrBufs_eq c V']
    iintro ⟨Ha, Hb, H2⟩
    isplitl [Ha Hb]
    · iapply (pointsTo_share (PosShare.mem_left_op_right fullShare)).2
      isplitl [Ha]; · iexact Ha
      iexact Hb
    iexact H2
  · unfold Pipeline.unscopedRest
    exact bigSep_congr fun b hb => by rw [hrest b (Finset.mem_sdiff.mp hb).2]

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Lin.dat (E1 m) c
  | ⟨1, _⟩ => fun c => Att.dat (E2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev Ride (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor

/-- The reshape as a segment over the unscoped references. -/
abbrev hostSeg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (B0 m) Ride

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tend (c : Dev nD) : sProp 𝕄 := iprop(StableHlo.held (c : Thread nD τ) (Pipeline.ucRefs τ sig) (B3 m c) ∗ ∃ r, prngReg c r)

/-! ## The regions as segments -/

set_option backward.isDefEq.respectTransparency.types false in
/-- The linear region: entered from every unscoped buffer at `B1`, left at `B2`. -/
def linSeg : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Lin.body_obligation (E1 m) c).loose
  hwaits := Pipeline.hwaits_of_owed_zero _ _ _ _ L lv 0 fun _ _ => rfl
  pre c := iprop(StableHlo.held (c : Thread nD τ) (Pipeline.ucRefs τ sig) (B1 m c) ∗ Ride c)
  post c := iprop(StableHlo.held (c : Thread nD τ) (Pipeline.ucRefs τ sig) (B2 m c) ∗ Ride c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (lin_exit_arr m c) (lin_exit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `B2`, left at `B3`. -/
def attSeg : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Att.body_obligation (E2 m) c).loose
  hwaits := Pipeline.hwaits_of_owed_zero _ _ _ _ L lv 1 fun _ _ => rfl
  pre c := iprop(StableHlo.held (c : Thread nD τ) (Pipeline.ucRefs τ sig) (B2 m c) ∗ Ride c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := att_entry (E2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Att.inv_in (E2 m) c)
    unfold Pipeline.ΦA
    iintro ⟨Hp, -, Hr⟩
    isplitl [Hr]; · iexact Hr
    iexact Hp
  hout c := by
    rw [Pipeline.ownSems0_none]
    refine (Att.inv_out (E2 m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (E2 m c))
        ⊢ (unscopedBufs c (E3 m c) : sProp 𝕄) := att_exit (E2 m) c (E3 m c) ((pdats m 1 c).arrAt · cfg1.N)
      ((((Att.dat (E2 m) c).arrAt_in 0 rfl _).trans (Att.dat_A (E2 m) c 0)).trans (B3_of_ne m c main_v1 (by decide)).symm)
      ((((Att.dat (E2 m) c).arrAt_in 1 rfl _).trans (Att.dat_A (E2 m) c 1)).trans (B3_of_ne m c main_v1 (by decide)).symm)
      (B3_result m c).symm
      (fun b hb => B3_of_ne m c b (fun e => hb (Finset.mem_image.mpr ⟨2, Finset.mem_univ _, e.symm⟩)))
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The launch -/

abbrev segs : List (Pipeline.Seg (pcfgs (F := F)) adm (pdats m) () defs₀ 𝒱₀ L lv) :=
  [ .host (hostSeg m), .region (linSeg m), .region (attSeg m) ]

theorem main_is_segs (c : Dev nD) : main (F := F) c = Pipeline.Seg.run (segs m) := (main_chain c).trans (by chain_rfl)

set_option backward.isDefEq.respectTransparency.types false in
/-- THE RUN. From any memory with zero counters every weakly fair execution of main terminates, nothing faulting, and
    every final memory holds every unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = B3 m c b) :=
  Pipeline.θ_run_regions_kit (pcfgs (F := F)) adm (pdats m) () cellOf_inj emb₁ defs₀ 𝒱₀ L lv m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Ride c)) (Tₙ := Tend m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

/-- THE FRAME, and the result's contents: the arguments end as launched, and the result array ends at what the
    attention region's write-backs leave. -/
theorem run_result : θ_run defs (onTc (τ := τ) (main (F := F))) ⟨m, fun _ => 0, ρ⟩ (fun r => ∀ c : Dev nD,
      r.2.mem ((c.tc : Thread nD τ).loc main_v2) = (Att.dat (E2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v2 (by decide))).trans (B3_result m c),
     (h c _ (mem_uc main_arg0 (by decide))).trans (B3_main_arg0 m c),
     (h c _ (mem_uc main_arg1 (by decide))).trans (B3_main_arg1 m c),
     (h c _ (mem_uc main_arg2 (by decide))).trans (B3_main_arg2 m c)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_result m ρ)

end Cert.KernelIdeal.Run

end
-- ==== Proof.IdealAttPieces.lean ====
/-
  What each case of the attention body leaves in the buffers it stores into, as the program's own value terms.

  Every store of the body writes a whole buffer, and every load reads a whole buffer, through the rectangle of the
  buffer's own extents at zero offsets. So a buffer the case stores into ends with the value of its last store, and each
  value is a function of what the loads before it read: the two input blocks, and the accumulators either as the point
  before left them or, at the first key tile, as the clearing stores just left them. Nothing here depends on how the
  element type computes: the statements hold for every instance.
-/
import proofs.«138730_j37787122270731_2_alg».proof.Proof.IdealAttRegion
import Idealize.ShloMosaic.Lib.Pipeline.Value

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The offsets of a whole-buffer rectangle of rank two are zero. -/
theorem hz2 : (![0, 0] : Fin 2 → Nat) = fun _ => 0 := funext fun a => by fin_cases a <;> rfl

/-! ## The first key tile: the accumulators are cleared, then the tile is added to the cleared values -/

theorem first_sum_eq (c : Dev nD) (i : grid1.Coords)
    (aq : Memref sig .tc .vmem S1024x1024 .f32) (hq : aq.IsWhole) (ak : Memref sig .tc .vmem S1024x1024 .f32) (hk : ak.IsWhole)
    (ao : Memref sig .tc .vmem S1024x1024 .f32) (ho : ao.IsWhole) (aS : Memref sig .tc .vmem S1024x1 .f32) (hs : aS.IsWhole)
    (aa : Memref sig .tc .vmem S1024x1024 .f32) (ha : aa.IsWhole)
    (hc0 : isFirst i) (hc1 : ¬isLast i) (xq xk : Vec F S1024x1024 .f32) :
    sumOf (runFirst (F := F) c i aq hq ak hk ao ho aS hs aa ha hc0 hc1 xq xk).1 = k1_pay5 xq xk (k1_pay1 (F := F)) := by
  unfold sumOf
  rw [View.read_writes_junk_eq_canon]
  unfold runFirst
  dsimp only
  sl_unfold_run_names
  rw [View.canon_cons_unit_zero hz2, View.readCov_unit_zero _ hz2]
  simp only [View.readAt_eq_ld, hq.read_unread, hk.read_unread, View.ld_unit_zero (S := S1024x1024) hz2]

theorem first_acc_eq (c : Dev nD) (i : grid1.Coords)
    (aq : Memref sig .tc .vmem S1024x1024 .f32) (hq : aq.IsWhole) (ak : Memref sig .tc .vmem S1024x1024 .f32) (hk : ak.IsWhole)
    (ao : Memref sig .tc .vmem S1024x1024 .f32) (ho : ao.IsWhole) (aS : Memref sig .tc .vmem S1024x1 .f32) (hs : aS.IsWhole)
    (aa : Memref sig .tc .vmem S1024x1024 .f32) (ha : aa.IsWhole)
    (hc0 : isFirst i) (hc1 : ¬isLast i) (xq xk : Vec F S1024x1024 .f32) :
    accOf (runFirst (F := F) c i aq hq ak hk ao ho aS hs aa ha hc0 hc1 xq xk).2.1 = k1_pay6 xq xk (k1_pay2 (F := F)) := by
  unfold accOf
  rw [View.read_writes_junk_eq_canon]
  unfold runFirst
  dsimp only
  sl_unfold_run_names
  rw [View.canon_cons_unit_zero hz2, View.readCov_unit_zero _ hz2]
  simp only [View.readAt_eq_ld, hq.read_unread, hk.read_unread, View.ld_unit_zero (S := S1024x1024) hz2]

/-! ## A key tile in the middle: the tile is added to what the point before left -/

theorem mid_sum_eq (c : Dev nD) (i : grid1.Coords)
    (aq : Memref sig .tc .vmem S1024x1024 .f32) (hq : aq.IsWhole) (ak : Memref sig .tc .vmem S1024x1024 .f32) (hk : ak.IsWhole)
    (ao : Memref sig .tc .vmem S1024x1024 .f32) (ho : ao.IsWhole) (aS : Memref sig .tc .vmem S1024x1 .f32) (hs : aS.IsWhole)
    (aa : Memref sig .tc .vmem S1024x1024 .f32) (ha : aa.IsWhole)
    (hc0 : ¬isFirst i) (hc1 : ¬isLast i) (xq xk : Vec F S1024x1024 .f32) (xs : Vec F S1024x1 .f32) (xa : Vec F S1024x1024 .f32) :
    sumOf (runMid (F := F) c i aq hq ak hk ao ho aS hs aa ha hc0 hc1 xq xk xs xa).1 = k1_pay5 xq xk xs := by
  unfold sumOf
  rw [View.read_writes_junk_eq_canon]
  unfold runMid
  dsimp only
  sl_unfold_run_names
  rw [View.canon_unit_zero hz2]
  simp only [View.readAt_eq_ld, hq.read_unread, hk.read_unread, hs.read_unread, View.ld_unit_zero (S := S1024x1024) hz2, View.ld_unit_zero (S := S1024x1) hz2]

theorem mid_acc_eq (c : Dev nD) (i : grid1.Coords)
    (aq : Memref sig .tc .vmem S1024x1024 .f32) (hq : aq.IsWhole) (ak : Memref sig .tc .vmem S1024x1024 .f32) (hk : ak.IsWhole)
    (ao : Memref sig .tc .vmem S1024x1024 .f32) (ho : ao.IsWhole) (aS : Memref sig .tc .vmem S1024x1 .f32) (hs : aS.IsWhole)
    (aa : Memref sig .tc .vmem S1024x1024 .f32) (ha : aa.IsWhole)
    (hc0 : ¬isFirst i) (hc1 : ¬isLast i) (xq xk : Vec F S1024x1024 .f32) (xs : Vec F S1024x1 .f32) (xa : Vec F S1024x1024 .f32) :
    accOf (runMid (F := F) c i aq hq ak hk ao ho aS hs aa ha hc0 hc1 xq xk xs xa).2.1 = k1_pay6 xq xk xa := by
  unfold accOf
  rw [View.read_writes_junk_eq_canon]
  unfold runMid
  dsimp only
  sl_unfold_run_names
  rw [View.canon_unit_zero hz2]
  simp only [View.readAt_eq_ld, hq.read_unread, hk.read_unread, ha.read_unread, View.ld_unit_zero (S := S1024x1024) hz2]

/-! ## The last key tile: the tile is added, and the normalised block is computed from the two new accumulators -/

theorem last_out_eq (c : Dev nD) (i : grid1.Coords)
    (aq : Memref sig .tc .vmem S1024x1024 .f32) (hq : aq.IsWhole) (ak : Memref sig .tc .vmem S1024x1024 .f32) (hk : ak.IsWhole)
    (ao : Memref sig .tc .vmem S1024x1024 .f32) (ho : ao.IsWhole) (aS : Memref sig .tc .vmem S1024x1 .f32) (hs : aS.IsWhole)
    (aa : Memref sig .tc .vmem S1024x1024 .f32) (ha : aa.IsWhole)
    (hc0 : ¬isFirst i) (hc1 : isLast i) (xq xk : Vec F S1024x1024 .f32) (xs : Vec F S1024x1 .f32) (xa : Vec F S1024x1024 .f32) :
    outOf (runLast (F := F) c i aq hq ak hk ao ho aS hs aa ha hc0 hc1 xq xk xs xa).1 = k1_pay7 (k1_pay5 xq xk xs) (k1_pay6 xq xk xa) := by
  unfold outOf
  rw [View.read_writes_junk_eq_canon]
  unfold runLast
  dsimp only
  sl_unfold_run_names
  rw [View.canon_unit_zero hz2, View.readCov_unit_zero _ hz2, View.readCov_unit_zero _ hz2]
  simp only [View.readAt_eq_ld, hq.read_unread, hk.read_unread, hs.read_unread, ha.read_unread, View.ld_unit_zero (S := S1024x1024) hz2, View.ld_unit_zero (S := S1024x1) hz2]

theorem last_sum_eq (c : Dev nD) (i : grid1.Coords)
    (aq : Memref sig .tc .vmem S1024x1024 .f32) (hq : aq.IsWhole) (ak : Memref sig .tc .vmem S1024x1024 .f32) (hk : ak.IsWhole)
    (ao : Memref sig .tc .vmem S1024x1024 .f32) (ho : ao.IsWhole) (aS : Memref sig .tc .vmem S1024x1 .f32) (hs : aS.IsWhole)
    (aa : Memref sig .tc .vmem S1024x1024 .f32) (ha : aa.IsWhole)
    (hc0 : ¬isFirst i) (hc1 : isLast i) (xq xk : Vec F S1024x1024 .f32) (xs : Vec F S1024x1 .f32) (xa : Vec F S1024x1024 .f32) :
    sumOf (runLast (F := F) c i aq hq ak hk ao ho aS hs aa ha hc0 hc1 xq xk xs xa).2.1 = k1_pay5 xq xk xs := by
  unfold sumOf
  rw [View.read_writes_junk_eq_canon]
  unfold runLast
  dsimp only
  sl_unfold_run_names
  rw [View.canon_unit_zero hz2]
  simp only [View.readAt_eq_ld, hq.read_unread, hk.read_unread, hs.read_unread, View.ld_unit_zero (S := S1024x1024) hz2, View.ld_unit_zero (S := S1024x1) hz2]

theorem last_acc_eq (c : Dev nD) (i : grid1.Coords)
    (aq : Memref sig .tc .vmem S1024x1024 .f32) (hq : aq.IsWhole) (ak : Memref sig .tc .vmem S1024x1024 .f32) (hk : ak.IsWhole)
    (ao : Memref sig .tc .vmem S1024x1024 .f32) (ho : ao.IsWhole) (aS : Memref sig .tc .vmem S1024x1 .f32) (hs : aS.IsWhole)
    (aa : Memref sig .tc .vmem S1024x1024 .f32) (ha : aa.IsWhole)
    (hc0 : ¬isFirst i) (hc1 : isLast i) (xq xk : Vec F S1024x1024 .f32) (xs : Vec F S1024x1 .f32) (xa : Vec F S1024x1024 .f32) :
    accOf (runLast (F := F) c i aq hq ak hk ao ho aS hs aa ha hc0 hc1 xq xk xs xa).2.2.1 = k1_pay6 xq xk xa := by
  unfold accOf
  rw [View.read_writes_junk_eq_canon]
  unfold runLast
  dsimp only
  sl_unfold_run_names
  rw [View.canon_unit_zero hz2]
  simp only [View.readAt_eq_ld, hq.read_unread, hk.read_unread, ha.read_unread, View.ld_unit_zero (S := S1024x1024) hz2]

end Cert.KernelIdeal.Att

end
-- ==== Proof.PayInit.lean ====
/-
  The two fills that start a row block's running sums, over the extended reals: every entry of the column of running
  weight sums and of the block of running weighted sums is the real number zero.
-/
import proofs.«138730_j37787122270731_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-- The column of running weight sums starts at zero. -/
theorem pay_zero_col (j : S1024x1.Idx) : k1_pay1 (F := Ideal) j = 0 := by
  unfold k1_pay1
  exact (congrFun (shapeCast_self _ _) j).trans Ideal.ofBits_zero_f32

/-- The block of running weighted sums starts at zero. -/
theorem pay_zero_acc (j : S1024x1024.Idx) : k1_pay2 (F := Ideal) j = 0 := by
  unfold k1_pay2
  exact (congrFun (shapeCast_self _ _) j).trans Ideal.ofBits_zero_f32

end Cert.KernelIdeal.Pay

end
-- ==== Proof.PayDot.lean ====
/-
  The two matrix products of the program, over the extended reals, read at an entry.

  Both contract one axis of length 1024 into a zero accumulator, so at an entry each is one sum of 1024 products with no
  order and no rounding left in it. The first pairs row p of the left factor with row q of the right factor (a product
  against a transpose); the second pairs row p of the left factor with column d of the right factor (the plain product).
-/
import proofs.«138730_j37787122270731_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ## Rows against rows -/

theorem rr_lhs_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem rr_lhs_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rr_rhs_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rr_rhs_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The product against a transpose, into a zero accumulator: entry (p, q) is the sum over k of the left factor at (p, k)
    times the right factor at (q, k). -/
theorem matmul_rows_rows_apply {φ₁ φ₂ : FTy} (prec : Option ContractPrecision)
    (lhs : FVec Ideal S1024x1024 φ₁) (rhs : FVec Ideal S1024x1024 φ₂) (p q : Fin 1024) :
    matmul dot_S1024x1024_S1024x1024_S1024x1024_1_1_0_0_n_n prec lhs rhs (constant (F := Ideal) S1024x1024 .f32 0x00000000#32) (ix2 p q)
      = ∑ k : Fin 1024, lhs (ix2 p k) * rhs (ix2 q k) := by
  refine (Ideal.matmul_constant_zero_apply dot_S1024x1024_S1024x1024_S1024x1024_1_1_0_0_n_n prec lhs rhs (ix2 p q)).trans ?_
  rw [← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun a => Fin.ext (by
    match a with
    | ⟨0, _⟩ => exact rr_lhs_0 _ _
    | ⟨1, _⟩ => exact (rr_lhs_1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun a => Fin.ext (by
    match a with
    | ⟨0, _⟩ => exact rr_rhs_0 _ _
    | ⟨1, _⟩ => exact (rr_rhs_1 _ _).trans hk)
  rw [el, er]

/-! ## Rows against columns -/

theorem rc_lhs_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem rc_lhs_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rc_rhs_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rc_rhs_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The plain product, into a zero accumulator: entry (p, d) is the sum over q of the left factor at (p, q) times the right
    factor at (q, d). -/
theorem matmul_rows_cols_apply {φ₁ φ₂ : FTy} (prec : Option ContractPrecision)
    (lhs : FVec Ideal S1024x1024 φ₁) (rhs : FVec Ideal S1024x1024 φ₂) (p d : Fin 1024) :
    matmul dot_S1024x1024_S1024x1024_S1024x1024_1_0_0_1_n_n prec lhs rhs (constant (F := Ideal) S1024x1024 .f32 0x00000000#32) (ix2 p d)
      = ∑ q : Fin 1024, lhs (ix2 p q) * rhs (ix2 q d) := by
  refine (Ideal.matmul_constant_zero_apply dot_S1024x1024_S1024x1024_S1024x1024_1_0_0_1_n_n prec lhs rhs (ix2 p d)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p d) ((contrEquiv1 dot_S1024x1024_S1024x1024_S1024x1024_1_0_0_1_n_n 1024 rfl rfl).symm k) = ix2 p k := funext fun a => Fin.ext (by
    match a with
    | ⟨0, _⟩ => exact rc_lhs_0 _ _
    | ⟨1, _⟩ => exact (rc_lhs_1 _ _).trans hk)
  have er : dot_S1024x1024_S1024x1024_S1024x1024_1_0_0_1_n_n.rhsIdx (ix2 p d) ((contrEquiv1 dot_S1024x1024_S1024x1024_S1024x1024_1_0_0_1_n_n 1024 rfl rfl).symm k) = ix2 k d := funext fun a => Fin.ext (by
    match a with
    | ⟨0, _⟩ => exact (rc_rhs_0 _ _).trans hk
    | ⟨1, _⟩ => exact rc_rhs_1 _ _)
  rw [el, er]

/-! ## The rounding on the way into a product -/

/-- Over the extended reals the narrowing of the second block before the products changes nothing: entry by entry it is the
    block itself. -/
theorem pay_trunc (v6 : Vec Ideal S1024x1024 .f32) (j : S1024x1024.Idx) : k1_pay3 (F := Ideal) v6 j = v6 j := by
  unfold k1_pay3
  exact congrFun (shapeCast_self v6 _) j

end Cert.KernelIdeal.Pay

end
-- ==== Proof.PayWeight.lean ====
/-
  The weight block, over the extended reals, read at an entry: the exponential of the bounded score of row p of the
  first block against row q of the second. The narrowing of both blocks before the product is the identity here.
-/
import proofs.«138730_j37787122270731_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«138730_j37787122270731_2_alg».proof.Proof.PayDot

noncomputable section

namespace Cert.KernelIdeal.Pay

open Cert.KernelIdeal Cert.KernelIdeal.Gen Idealize.ShloMosaic Idealize.ShloMosaic.ValueIdx

theorem pay_weight (v3 v6 : Vec Ideal S1024x1024 .f32) (p q : Fin 1024) :
    k1_pay4 (F := Ideal) v3 v6 (ix2 p q) = Ideal.exp (Ideal.tanh (∑ k : Fin 1024, v3 (ix2 p k) * v6 (ix2 q k))) := by
  unfold k1_pay4
  refine congrArg Ideal.exp (congrArg Ideal.tanh ?_)
  refine (matmul_rows_rows_apply none _ _ p q).trans ?_
  refine Finset.sum_congr rfl fun k _ => congrArg₂ (· * ·) ?_ (pay_trunc v6 (ix2 q k))
  exact congrFun (shapeCast_self v3 _) _

end Cert.KernelIdeal.Pay

end
-- ==== Proof.LibColumnLayout.lean ====
/-
  Two layout steps that every row-wise reduction kept as a column needs, read at an index.

  A sum along the rows of an [a, b] block is a vector of length a. Kept "as a column" it is viewed as an [a, 1] array, and to
  be combined with the block again it is spread over the b columns. Read at an entry, both steps only pick the row: the
  column at (i, u) is the vector at i, and the spread column at (p, c) is the column at (p, 0). Stated for any extents and
  any element type; no program is involved.
-/
import Idealize.ShloMosaic.Lib.ValueIdx
import Idealize.ShloMosaic.Lib.ValueLayout
import Idealize.ShloMosaic.Lib.Pipeline.Value

noncomputable section

namespace Cert.Lib.ColumnLayout

open Idealize.ShloMosaic Idealize.ShloMosaic.ValueIdx

/-- A vector of length `a` viewed as an `[a, 1]` column reads, at `(i, u)`, the vector at `i`, whatever the unit
    coordinate `u`: both positions are the `i`-th in row-major order. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread over `b` columns reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnLayout

end
-- ==== Proof.PayCarry.lean ====
/-
  The two running sums of a row block, over the extended reals, read at an entry. Each step adds to what was carried:
  to the column, the sum of row p of the weight block; to the block, row p of the weights against column d of the second
  block. The row sum is taken along the lanes and kept as a column; read at (p, 0) the column is the vector at p.
-/
import proofs.«138730_j37787122270731_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«138730_j37787122270731_2_alg».proof.Proof.PayDot
import proofs.«138730_j37787122270731_2_alg».proof.Proof.LibColumnLayout

noncomputable section

namespace Cert.KernelIdeal.Pay

open Cert.KernelIdeal Cert.KernelIdeal.Gen Idealize.ShloMosaic Idealize.ShloMosaic.ValueIdx

open Cert.Lib.ColumnLayout

/-- A sum along the lanes of a block, at row p: the sum over q of the block at (p, q). -/
theorem lane_sum_apply (src : FVec Ideal S1024x1024 .f32) (h : S1024x1024.Reduces [1] S1024) (hφ : FKind.Formats .f32)
    (hacc : (0x00000000#32 : BitVec 32) = FKind.add.neutral .f32 hφ) (p : Fin 1024) :
    multiReduction (F := Ideal) .add [1] S1024 src 0x00000000#32 h hφ hacc (ix1 p) = ∑ q : Fin 1024, src (ix2 p q) := by
  refine (Ideal.multiReduction_add_single src 0x00000000#32 h hφ hacc (ix1 p)).trans ?_
  refine Finset.sum_congr rfl fun q _ => congrArg src ?_
  funext a
  match a with
  | ⟨0, _⟩ => rfl
  | ⟨1, _⟩ => rfl

theorem pay_col (v3 v6 : Vec Ideal S1024x1024 .f32) (v12 : Vec Ideal S1024x1 .f32) (p : Fin 1024) :
    k1_pay5 (F := Ideal) v3 v6 v12 (ix2 p (0 : Fin 1))
      = v12 (ix2 p (0 : Fin 1)) + ∑ q : Fin 1024, k1_pay4 (F := Ideal) v3 v6 (ix2 p q) := by
  unfold k1_pay5
  refine (congrFun (shapeCast_self _ _) _).trans ?_
  refine congrArg (v12 (ix2 p (0 : Fin 1)) + ·) ?_
  refine (shapeCast_a_a1_apply _ shapeCasts_S1024_S1024x1 p (0 : Fin 1)).trans ?_
  exact lane_sum_apply (k1_pay4 (F := Ideal) v3 v6) _ _ _ p

theorem pay_acc (v3 v6 v19 : Vec Ideal S1024x1024 .f32) (p d : Fin 1024) :
    k1_pay6 (F := Ideal) v3 v6 v19 (ix2 p d)
      = v19 (ix2 p d) + ∑ q : Fin 1024, k1_pay4 (F := Ideal) v3 v6 (ix2 p q) * v6 (ix2 q d) := by
  unfold k1_pay6
  refine (congrFun (shapeCast_self _ _) _).trans ?_
  refine congrArg (v19 (ix2 p d) + ·) ?_
  refine (matmul_rows_cols_apply none _ _ p d).trans ?_
  exact Finset.sum_congr rfl fun q _ => congrArg (k1_pay4 (F := Ideal) v3 v6 (ix2 p q) * ·) (pay_trunc v6 (ix2 q d))

end Cert.KernelIdeal.Pay

end
-- ==== Proof.PayOut.lean ====
/-
  The last step of a row block, over the extended reals, read at an entry: the running weighted sum at (p, d) times the
  reciprocal of row p's running weight sum, through tanh. The reciprocal is taken once per row, on the column, and then
  spread over the 1024 columns; read at an entry the spreading only picks the row.
-/
import proofs.«138730_j37787122270731_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«138730_j37787122270731_2_alg».proof.Proof.LibColumnLayout

noncomputable section

namespace Cert.KernelIdeal.Pay

open Cert.KernelIdeal Cert.KernelIdeal.Gen Idealize.ShloMosaic Idealize.ShloMosaic.ValueIdx

open Cert.Lib.ColumnLayout

/-- The word of the literal 1.0 denotes the real number one: 2^23 · 2^(127 - 127 - 23). -/
theorem ofBits_one_f32 : Ideal.ofBits .f32 0x3F800000#32 = 1 := by
  simp [Ideal.ofBits, Ideal.ieee]
  exact_mod_cast (by norm_num : (8388608 : ℝ) * ((2 : ℝ) ^ 23)⁻¹ = 1)

theorem pay_out (v29 : Vec Ideal S1024x1 .f32) (v32 : Vec Ideal S1024x1024 .f32) (p d : Fin 1024) :
    k1_pay7 (F := Ideal) v29 v32 (ix2 p d) = Ideal.tanh (v32 (ix2 p d) * Ideal.div 1 (v29 (ix2 p (0 : Fin 1)))) := by
  unfold k1_pay7
  refine congrArg Ideal.tanh (congrArg (v32 (ix2 p d) * ·) ?_)
  refine (broadcastTo_a1_ab_apply _ broadcasts_S1024x1_S1024x1024 p d).trans ?_
  refine congrArg (Ideal.div · (v29 (ix2 p (0 : Fin 1)))) ?_
  exact ofBits_one_f32

end Cert.KernelIdeal.Pay

end
-- ==== Proof.Spec.lean ====
/-
  The mathematics both programs compute, over the extended reals, as one function of the three argument arrays.

  With  h = x · Wᵀ + b  (8192 rows of 1024), the weight of row s for row r is  w r s = exp (tanh ⟨h r, h s⟩),
  and the result is  tanh ((Σ_s w r s · h s d) · (1 / Σ_s w r s)).  Since tanh bounds every score, the weights
  are the numerators of the row-wise softmax of the bounded scores whatever shift the softmax subtracts; that
  identity needs every entry of h to be a real number and is proved where the reference is read.
  The sums over the 8192 rows are also written as eight consecutive runs of 1024 rows, the order in which a
  tiled evaluation meets them.
-/
import Idealize.ShloMosaic.PureOps.Ideal
import Idealize.ShloMosaic.Lib.ValueIdx

noncomputable section

namespace Cert.Attn

open Idealize.ShloMosaic Idealize.ShloMosaic.ValueIdx

/-- The three argument arrays' index types: 8192 × 1024, 1024 × 1024, 1024. -/
abbrev SX : Shape := ⟨2, ![8192, 1024]⟩
abbrev SW : Shape := ⟨2, ![1024, 1024]⟩
abbrev SB : Shape := ⟨1, ![1024]⟩

/-- The linear layer: row `r` of `x` against row `d` of `W`, plus the bias at `d`. -/
def hid (x : SX.Idx → EReal) (W : SW.Idx → EReal) (b : SB.Idx → EReal) (r : Fin 8192) (d : Fin 1024) : EReal :=
  (∑ k : Fin 1024, x (ix2 r k) * W (ix2 d k)) + b (ix1 d)

/-- The weight of row `s` for row `r`: the exponential of the bounded score. -/
def wgt (h : Fin 8192 → Fin 1024 → EReal) (r s : Fin 8192) : EReal :=
  Ideal.exp (Ideal.tanh (∑ k : Fin 1024, h r k * h s k))

/-- The weights' sum of a row. -/
def den (h : Fin 8192 → Fin 1024 → EReal) (r : Fin 8192) : EReal := ∑ s : Fin 8192, wgt h r s

/-- The weighted sum of the rows, at column `d`. -/
def num (h : Fin 8192 → Fin 1024 → EReal) (r : Fin 8192) (d : Fin 1024) : EReal := ∑ s : Fin 8192, wgt h r s * h s d

/-- The attention output at row `r`, column `d`. -/
def attn (h : Fin 8192 → Fin 1024 → EReal) (r : Fin 8192) (d : Fin 1024) : EReal :=
  Ideal.tanh (num h r d * Ideal.div 1 (den h r))

/-- The whole result array. -/
def out (x : SX.Idx → EReal) (W : SW.Idx → EReal) (b : SB.Idx → EReal) : SX.Idx → EReal :=
  fun i => attn (hid x W b) (i 0) (i 1)

theorem out_apply (x : SX.Idx → EReal) (W : SW.Idx → EReal) (b : SB.Idx → EReal) (r : Fin 8192) (d : Fin 1024) :
    out x W b (ix2 r d) = attn (hid x W b) r d := rfl

/-- Row `k` of the `J`-th run of 1024 rows. -/
def rowOf (J : Fin 8) (k : Fin 1024) : Fin 8192 := ⟨J.val * 1024 + k.val, by omega⟩

/-- The runs tile the rows: a pair (run, row in the run) is a row, one to one and onto. -/
def rowEquiv : Fin 8 × Fin 1024 ≃ Fin 8192 where
  toFun p := rowOf p.1 p.2
  invFun s := (⟨s.val / 1024, by omega⟩, ⟨s.val % 1024, Nat.mod_lt _ (by decide)⟩)
  left_inv p := by
    obtain ⟨J, k⟩ := p
    ext
    · show (J.val * 1024 + k.val) / 1024 = J.val
      omega
    · show (J.val * 1024 + k.val) % 1024 = k.val
      omega
  right_inv s := by
    ext
    show s.val / 1024 * 1024 + s.val % 1024 = s.val
    omega

/-- A sum over the rows is the sum over the runs of the sums inside each run. -/
theorem sum_rows {M : Type*} [AddCommMonoid M] (f : Fin 8192 → M) :
    ∑ s : Fin 8192, f s = ∑ J : Fin 8, ∑ k : Fin 1024, f (rowOf J k) := by
  rw [← Equiv.sum_comp rowEquiv f, Fintype.sum_prod_type]
  rfl

end Cert.Attn

end
-- ==== Proof.AttnSteps.lean ====
/-
  Eight steps make the sum over the eight runs: a quantity that starts at zero plus the first run's share and gains
  one run's share per step holds, after the eighth step, the sum of all eight shares — and the shares of the runs, each
  a sum inside its run, add up to the sum over all the rows.
-/
import proofs.«138730_j37787122270731_2_alg».proof.Proof.Spec

noncomputable section

namespace Cert.Attn

open Idealize.ShloMosaic Idealize.ShloMosaic.ValueIdx

/-- After the eighth of eight steps, each adding one run's share to what the step before left (the first to zero). -/
theorem eight_steps (g : Fin 8 → EReal) (S : ℕ → EReal)
    (h0 : S 0 = 0 + g 0)
    (hs : ∀ (J : ℕ) (hJ : J + 1 < 8), S (J + 1) = S J + g ⟨J + 1, hJ⟩) : S 7 = ∑ J : Fin 8, g J := by
  rw [hs 6 (by omega), hs 5 (by omega), hs 4 (by omega), hs 3 (by omega), hs 2 (by omega), hs 1 (by omega),
    hs 0 (by omega), h0, zero_add, Fin.sum_univ_eight]
  rfl

/-- The weights' sum of a row, run by run. -/
theorem den_by_runs (h : Fin 8192 → Fin 1024 → EReal) (r : Fin 8192) :
    den h r = ∑ J : Fin 8, ∑ q : Fin 1024, wgt h r (rowOf J q) := sum_rows _

/-- The weighted sum of the rows, run by run. -/
theorem num_by_runs (h : Fin 8192 → Fin 1024 → EReal) (r : Fin 8192) (d : Fin 1024) :
    num h r d = ∑ J : Fin 8, ∑ q : Fin 1024, wgt h r (rowOf J q) * h (rowOf J q) d := sum_rows _

end Cert.Attn

end
-- ==== Proof.IdealAttValue.lean ====
/-
  What the attention region leaves in the result array, at the extended reals.
  Write R for the linear layer's result as the region finds it, row by row. At grid point t — query tile t / 8, key
  tile t % 8 — the two input blocks are the rows of those tiles, so the point's weights are the weights of the
  specification at those rows. The column accumulator after the point is what the point before left (zero at the first
  key tile) plus the tile's weights summed along the tile, the matrix accumulator likewise with each weight times its
  row; after the eighth key tile they are the specification's denominator and numerator of the query rows (the sum
  over the rows taken run by run), and the block stored is tanh (numerator · (1 / denominator)). The blocks written
  back at the last key tiles tile the result array.
-/
import proofs.«138730_j37787122270731_2_alg».proof.Proof.IdealAttRegion
import proofs.«138730_j37787122270731_2_alg».proof.Proof.IdealAttPieces
import proofs.«138730_j37787122270731_2_alg».proof.Proof.PayInit
import proofs.«138730_j37787122270731_2_alg».proof.Proof.PayWeight
import proofs.«138730_j37787122270731_2_alg».proof.Proof.PayCarry
import proofs.«138730_j37787122270731_2_alg».proof.Proof.PayOut
import proofs.«138730_j37787122270731_2_alg».proof.Proof.AttnSteps
import Idealize.ShloMosaic.Lib.Pipeline.Value

set_option maxRecDepth 16384

noncomputable section

namespace Cert.KernelIdeal.AttValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Att Cert.KernelIdeal.Pay Cert.Attn

variable (V : (c : Dev nD) → (b : Ref sig .tc) → Buf (Elt Ideal) ((c : Thread nD τ).loc b)) (c : Dev nD)

/-- The linear layer's result as the region finds it, row by row. -/
def rows : Fin 8192 → Fin 1024 → EReal := fun r k => V c main_v1 (ix2 r k)

/-! ## The grid: which tiles a point works on -/

theorem grid_facts : ∀ t : Fin cfg1.N, win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = 0 :=
  (by decide +kernel : ∀ t : Fin grid1.N, _)

theorem N64 : cfg1.N = 64 := N_1

/-- The query tile and the key tile of a point. -/
def qTile (t : Fin cfg1.N) : Fin 8 := ⟨t.val / 8, by have := t.isLt; have := N64; omega⟩
def kTile (t : Fin cfg1.N) : Fin 8 := ⟨t.val % 8, Nat.mod_lt _ (by decide)⟩

/-- The query block's entry (p, k) is row p of the query tile; the key block's entry (q, k) is row q of the key tile. -/
theorem q_read (t : Fin cfg1.N) (p k : Fin 1024) : blockAt V c 0 t (ix2 p k) = rows V c (rowOf (qTile t) p) k := by
  obtain ⟨e0, e1, -⟩ := grid_facts t
  show V c main_v1 (((cfg1.win 0).blk t).view.emb (ix2 p k)) = V c main_v1 (ix2 (rowOf (qTile t) p) k)
  refine congrArg (V c main_v1) (funext fun a => Fin.ext ?_)
  match a with
  | ⟨0, _⟩ => show win1_0.index t (0 : Fin 2) * 1024 + 1 * p.val = t.val / 8 * 1024 + p.val; rw [e0]; omega
  | ⟨1, _⟩ => show win1_0.index t (1 : Fin 2) * 1024 + 1 * k.val = k.val; rw [e1]; omega
theorem k_read (t : Fin cfg1.N) (q k : Fin 1024) : blockAt V c 1 t (ix2 q k) = rows V c (rowOf (kTile t) q) k := by
  obtain ⟨-, -, e2, e3, -⟩ := grid_facts t
  show V c main_v1 (((cfg1.win 1).blk t).view.emb (ix2 q k)) = V c main_v1 (ix2 (rowOf (kTile t) q) k)
  refine congrArg (V c main_v1) (funext fun a => Fin.ext ?_)
  match a with
  | ⟨0, _⟩ => show win1_1.index t (0 : Fin 2) * 1024 + 1 * q.val = t.val % 8 * 1024 + q.val; rw [e2]; omega
  | ⟨1, _⟩ => show win1_1.index t (1 : Fin 2) * 1024 + 1 * k.val = k.val; rw [e3]; omega

/-- The point's weight of key row q for query row p is the specification's weight at those rows. -/
theorem weight_eq (t : Fin cfg1.N) (p q : Fin 1024) :
    k1_pay4 (F := Ideal) (blockAt V c 0 t) (blockAt V c 1 t) (ix2 p q) = wgt (rows V c) (rowOf (qTile t) p) (rowOf (kTile t) q) := by
  refine (pay_weight (blockAt V c 0 t) (blockAt V c 1 t) p q).trans ?_
  unfold wgt
  refine congrArg Ideal.exp (congrArg Ideal.tanh (Finset.sum_congr rfl fun k _ => ?_))
  rw [q_read, k_read]

/-- One key tile's share of the denominator and of the numerator of query row p. -/
def denShare (I J : Fin 8) (p : Fin 1024) : EReal := ∑ q : Fin 1024, wgt (rows V c) (rowOf I p) (rowOf J q)
def numShare (I J : Fin 8) (p d : Fin 1024) : EReal := ∑ q : Fin 1024, wgt (rows V c) (rowOf I p) (rowOf J q) * rows V c (rowOf J q) d

theorem col_share (t : Fin cfg1.N) (p : Fin 1024) :
    ∑ q : Fin 1024, k1_pay4 (F := Ideal) (blockAt V c 0 t) (blockAt V c 1 t) (ix2 p q) = denShare V c (qTile t) (kTile t) p :=
  Finset.sum_congr rfl fun q _ => weight_eq V c t p q
theorem acc_share (t : Fin cfg1.N) (p d : Fin 1024) :
    ∑ q : Fin 1024, k1_pay4 (F := Ideal) (blockAt V c 0 t) (blockAt V c 1 t) (ix2 p q) * blockAt V c 1 t (ix2 q d) = numShare V c (qTile t) (kTile t) p d :=
  Finset.sum_congr rfl fun q _ => by rw [weight_eq, k_read]

/-! ## The accumulators after each point -/

/-- The three buffers after point t. -/
abbrev outAt (t : Fin cfg1.N) : Vec Ideal S1024x1024 .f32 := (stateAt V c t.val t.isLt).1
abbrev colAt (t : Fin cfg1.N) : Vec Ideal S1024x1 .f32 := (stateAt V c t.val t.isLt).2.1
abbrev accAt (t : Fin cfg1.N) : Vec Ideal S1024x1024 .f32 := (stateAt V c t.val t.isLt).2.2

/-- The accumulators after a point as payloads of the point's blocks and of what the point before left. -/
theorem col_of_first (t : Fin cfg1.N) (h0 : t.val % 8 = 0) (h1 : ¬t.val % 8 = 7) :
    colAt V c t = k1_pay5 (F := Ideal) (blockAt V c 0 t) (blockAt V c 1 t) (k1_pay1 (F := Ideal)) := by
  show (stateAt V c t.val t.isLt).2.1 = _
  rw [stateAt_first V c t h0 h1]
  dsimp only
  unfold firstAt
  rw [first_sum_eq]
theorem acc_of_first (t : Fin cfg1.N) (h0 : t.val % 8 = 0) (h1 : ¬t.val % 8 = 7) :
    accAt V c t = k1_pay6 (F := Ideal) (blockAt V c 0 t) (blockAt V c 1 t) (k1_pay2 (F := Ideal)) := by
  show (stateAt V c t.val t.isLt).2.2 = _
  rw [stateAt_first V c t h0 h1]
  dsimp only
  unfold firstAt
  rw [first_acc_eq]
theorem col_of_next (t : Fin cfg1.N) (h0 : ¬t.val % 8 = 0) :
    colAt V c t = k1_pay5 (F := Ideal) (blockAt V c 0 t) (blockAt V c 1 t) (prevSum V c t) := by
  show (stateAt V c t.val t.isLt).2.1 = _
  by_cases h1 : t.val % 8 = 7
  · rw [stateAt_last V c t h0 h1]
    dsimp only
    unfold lastAt
    rw [last_sum_eq]
  · rw [stateAt_mid V c t h0 h1]
    dsimp only
    unfold midAt
    rw [mid_sum_eq]
theorem acc_of_next (t : Fin cfg1.N) (h0 : ¬t.val % 8 = 0) :
    accAt V c t = k1_pay6 (F := Ideal) (blockAt V c 0 t) (blockAt V c 1 t) (prevAcc V c t) := by
  show (stateAt V c t.val t.isLt).2.2 = _
  by_cases h1 : t.val % 8 = 7
  · rw [stateAt_last V c t h0 h1]
    dsimp only
    unfold lastAt
    rw [last_acc_eq]
  · rw [stateAt_mid V c t h0 h1]
    dsimp only
    unfold midAt
    rw [mid_acc_eq]
theorem out_of_last (t : Fin cfg1.N) (h0 : ¬t.val % 8 = 0) (h1 : t.val % 8 = 7) :
    outAt V c t = k1_pay7 (F := Ideal) (k1_pay5 (F := Ideal) (blockAt V c 0 t) (blockAt V c 1 t) (prevSum V c t))
      (k1_pay6 (F := Ideal) (blockAt V c 0 t) (blockAt V c 1 t) (prevAcc V c t)) := by
  show (stateAt V c t.val t.isLt).1 = _
  rw [stateAt_last V c t h0 h1]
  dsimp only
  unfold lastAt
  rw [last_out_eq]

theorem col_first (t : Fin cfg1.N) (h0 : t.val % 8 = 0) (p : Fin 1024) :
    (colAt V c t (ix2 p (0 : Fin 1)) : EReal) = 0 + denShare V c (qTile t) (kTile t) p := by
  rw [col_of_first V c t h0 (by omega)]
  refine (pay_col (blockAt V c 0 t) (blockAt V c 1 t) (k1_pay1 (F := Ideal)) p).trans ?_
  rw [pay_zero_col, col_share]
theorem acc_first (t : Fin cfg1.N) (h0 : t.val % 8 = 0) (p d : Fin 1024) :
    (accAt V c t (ix2 p d) : EReal) = 0 + numShare V c (qTile t) (kTile t) p d := by
  rw [acc_of_first V c t h0 (by omega)]
  refine (pay_acc (blockAt V c 0 t) (blockAt V c 1 t) (k1_pay2 (F := Ideal)) p d).trans ?_
  rw [pay_zero_acc, acc_share]
theorem col_next (t : Fin cfg1.N) (h0 : ¬t.val % 8 = 0) (p : Fin 1024) :
    (colAt V c t (ix2 p (0 : Fin 1)) : EReal) = prevSum V c t (ix2 p (0 : Fin 1)) + denShare V c (qTile t) (kTile t) p := by
  rw [col_of_next V c t h0]
  refine (pay_col (blockAt V c 0 t) (blockAt V c 1 t) (prevSum V c t) p).trans ?_
  rw [col_share]
theorem acc_next (t : Fin cfg1.N) (h0 : ¬t.val % 8 = 0) (p d : Fin 1024) :
    (accAt V c t (ix2 p d) : EReal) = prevAcc V c t (ix2 p d) + numShare V c (qTile t) (kTile t) p d := by
  rw [acc_of_next V c t h0]
  refine (pay_acc (blockAt V c 0 t) (blockAt V c 1 t) (prevAcc V c t) p d).trans ?_
  rw [acc_share]

/-- At the last key tile the stored block is tanh (accumulated · (1 / column)). -/
theorem out_last (t : Fin cfg1.N) (h1 : t.val % 8 = 7) (p d : Fin 1024) :
    (outAt V c t (ix2 p d) : EReal) = Ideal.tanh (accAt V c t (ix2 p d) * Ideal.div 1 (colAt V c t (ix2 p (0 : Fin 1)))) := by
  have h0 : ¬t.val % 8 = 0 := by omega
  rw [out_of_last V c t h0 h1, col_of_next V c t h0, acc_of_next V c t h0]
  exact pay_out _ _ p d

/-! ## After the eighth key tile -/

/-- Point (query tile I, key tile J). -/
def pt (I : Fin 8) (J : ℕ) (hJ : J < 8) : Fin cfg1.N := ⟨I.val * 8 + J, by have := I.isLt; have := N64; omega⟩

theorem qTile_pt (I : Fin 8) (J : ℕ) (hJ : J < 8) : qTile (pt I J hJ) = I := Fin.ext (by show (I.val * 8 + J) / 8 = I.val; omega)
theorem kTile_pt (I : Fin 8) (J : ℕ) (hJ : J < 8) : kTile (pt I J hJ) = ⟨J, hJ⟩ := Fin.ext (by show (I.val * 8 + J) % 8 = J; omega)

theorem stateAt_congr (n n' : ℕ) (hn : n < cfg1.N) (hn' : n' < cfg1.N) (h : n = n') : stateAt V c n hn = stateAt V c n' hn' := by
  subst h; rfl

theorem prevSum_pt (I : Fin 8) (J : ℕ) (hJ : J + 1 < 8) : prevSum V c (pt I (J + 1) hJ) = colAt V c (pt I J (by omega)) :=
  congrArg (fun s => s.2.1) (stateAt_congr V c _ _ _ _ (by show I.val * 8 + (J + 1) - 1 = I.val * 8 + J; omega))
theorem prevAcc_pt (I : Fin 8) (J : ℕ) (hJ : J + 1 < 8) : prevAcc V c (pt I (J + 1) hJ) = accAt V c (pt I J (by omega)) :=
  congrArg (fun s => s.2.2) (stateAt_congr V c _ _ _ _ (by show I.val * 8 + (J + 1) - 1 = I.val * 8 + J; omega))

/-- The column entry of query row p, and the matrix entry (p, d), after each of the eight key tiles. -/
def colSeq (I : Fin 8) (p : Fin 1024) (J : ℕ) : EReal := if hJ : J < 8 then colAt V c (pt I J hJ) (ix2 p (0 : Fin 1)) else 0
def accSeq (I : Fin 8) (p d : Fin 1024) (J : ℕ) : EReal := if hJ : J < 8 then accAt V c (pt I J hJ) (ix2 p d) else 0

/-- After the eighth key tile the column holds the denominator of each query row, -/
theorem col_total (I : Fin 8) (p : Fin 1024) : (colAt V c (pt I 7 (by decide)) (ix2 p (0 : Fin 1)) : EReal) = den (rows V c) (rowOf I p) := by
  have h7 : colSeq V c I p 7 = colAt V c (pt I 7 (by decide)) (ix2 p (0 : Fin 1)) := dif_pos (by decide)
  rw [← h7, den_by_runs]
  refine eight_steps (fun J => denShare V c I J p) (colSeq V c I p) ?_ ?_
  · show colSeq V c I p 0 = 0 + denShare V c I 0 p
    unfold colSeq; rw [dif_pos (by decide : 0 < 8)]
    have h := col_first V c (pt I 0 (by decide)) (by show (I.val * 8 + 0) % 8 = 0; omega) p
    rw [qTile_pt, kTile_pt] at h
    exact h
  · intro J hJ
    show colSeq V c I p (J + 1) = colSeq V c I p J + denShare V c I ⟨J + 1, hJ⟩ p
    unfold colSeq; rw [dif_pos hJ, dif_pos (by omega : J < 8)]
    have h := col_next V c (pt I (J + 1) hJ) (by show ¬(I.val * 8 + (J + 1)) % 8 = 0; omega) p
    rw [qTile_pt, kTile_pt, prevSum_pt] at h
    exact h
/-- and the matrix accumulator the numerator. -/
theorem acc_total (I : Fin 8) (p d : Fin 1024) : (accAt V c (pt I 7 (by decide)) (ix2 p d) : EReal) = num (rows V c) (rowOf I p) d := by
  have h7 : accSeq V c I p d 7 = accAt V c (pt I 7 (by decide)) (ix2 p d) := dif_pos (by decide)
  rw [← h7, num_by_runs]
  refine eight_steps (fun J => numShare V c I J p d) (accSeq V c I p d) ?_ ?_
  · show accSeq V c I p d 0 = 0 + numShare V c I 0 p d
    unfold accSeq; rw [dif_pos (by decide : 0 < 8)]
    have h := acc_first V c (pt I 0 (by decide)) (by show (I.val * 8 + 0) % 8 = 0; omega) p d
    rw [qTile_pt, kTile_pt] at h
    exact h
  · intro J hJ
    show accSeq V c I p d (J + 1) = accSeq V c I p d J + numShare V c I ⟨J + 1, hJ⟩ p d
    unfold accSeq; rw [dif_pos hJ, dif_pos (by omega : J < 8)]
    have h := acc_next V c (pt I (J + 1) hJ) (by show ¬(I.val * 8 + (J + 1)) % 8 = 0; omega) p d
    rw [qTile_pt, kTile_pt, prevAcc_pt] at h
    exact h

/-- The block stored at the last key tile of query tile I is the specification's output at the tile's rows. -/
theorem out_total (I : Fin 8) (p d : Fin 1024) : (outAt V c (pt I 7 (by decide)) (ix2 p d) : EReal) = attn (rows V c) (rowOf I p) d := by
  rw [out_last V c _ (by show (I.val * 8 + 7) % 8 = 7; omega), col_total, acc_total]
  rfl

/-! ## The result array -/

/-- What the result array ends holding, as one function of its index. -/
def result : Buf (Elt Ideal) ((cfg1.win 2).arr.view.loc (c.tc : Thread nD τ)) := fun i => attn (rows V c) (i 0) (i 1)

theorem pt_of_last (t : Fin cfg1.N) (h1 : t.val % 8 = 7) : t = pt (qTile t) 7 (by decide) :=
  Fin.ext (by show t.val = t.val / 8 * 8 + 7; omega)

/-- What a last-key-tile point writes back is its block of `result`. -/
theorem flushed_eq (t : Fin cfg1.N) (hf : (cfg1.win 2).flush t = true) :
    (dat V c).flushed 2 t = ((cfg1.win 2).blk t).view.read (Elt Ideal) (result V c) := by
  have h1 : t.val % 8 = 7 := (flush1_2 t).mp hf
  obtain ⟨-, -, -, -, e4, e5⟩ := grid_facts t
  show (cfg1.win 2).cut (grid1.coords t) ((dat V c).after 2 t) = _
  rw [after_o]
  funext j
  obtain ⟨p, d, rfl⟩ : ∃ (p : Fin 1024) (d : Fin 1024), j = ix2 p d := ⟨j 0, j 1, eq_ix2 j⟩
  show outAt V c t (ix2 p d) = result V c (((cfg1.win 2).blk t).view.emb (ix2 p d))
  have ht := pt_of_last t h1
  have eo : (outAt V c t (ix2 p d) : EReal) = attn (rows V c) (rowOf (qTile t) p) d := by
    have := out_total V c (qTile t) p d
    rw [← ht] at this
    exact this
  rw [eo]
  unfold result
  have r0 : (((cfg1.win 2).blk t).view.emb (ix2 p d)) 0 = rowOf (qTile t) p := Fin.ext (by
    show win1_2.index t (0 : Fin 2) * 1024 + 1 * p.val = t.val / 8 * 1024 + p.val; rw [e4]; omega)
  have r1 : (((cfg1.win 2).blk t).view.emb (ix2 p d)) 1 = d := Fin.ext (by
    show win1_2.index t (1 : Fin 2) * 1024 + 1 * d.val = d.val; rw [e5]; omega)
  rw [r0, r1]

/-- An index of the array is in point t's block iff each coordinate is in the block's range on its axis. -/
theorem mem_block (t : Fin cfg1.N) (i : S8192x1024.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v2).slice (win1_2.rect t)).set ↔ _
  rw [View.set_slice_whole, Rect.mem_set_unit]
  exact Iff.rfl

/-- Every index of the result array is in the block some last-key-tile point writes back. -/
theorem covered (i : S8192x1024.Idx) : ∃ t : Fin cfg1.N, (cfg1.win 2).flush t = true ∧ i ∈ ((cfg1.win 2).blk t).view.set := by
  have hi0 : (i 0).val < 8192 := (i 0).isLt
  have hi1 : (i 1).val < 1024 := (i 1).isLt
  let t : Fin cfg1.N := ⟨(i 0).val / 1024 * 8 + 7, by have := N64; omega⟩
  obtain ⟨-, -, -, -, e4, e5⟩ := grid_facts t
  refine ⟨t, (flush1_2 t).mpr (by show ((i 0).val / 1024 * 8 + 7) % 8 = 7; omega), ?_⟩
  rw [mem_block]
  intro a
  match a with
  | ⟨0, _⟩ =>
    show win1_2.index t (0 : Fin 2) * 1024 ≤ (i 0).val ∧ (i 0).val < win1_2.index t (0 : Fin 2) * 1024 + 1024
    rw [e4]; show ((i 0).val / 1024 * 8 + 7) / 8 * 1024 ≤ (i 0).val ∧ (i 0).val < ((i 0).val / 1024 * 8 + 7) / 8 * 1024 + 1024
    omega
  | ⟨1, _⟩ =>
    show win1_2.index t (1 : Fin 2) * 1024 ≤ (i 1).val ∧ (i 1).val < win1_2.index t (1 : Fin 2) * 1024 + 1024
    rw [e5]; omega

/-- THE RESULT ARRAY after the region: the specification's output over the rows the region found. -/
theorem final : (dat V c).arrAt 2 cfg1.N = result V c :=
  (dat V c).arrAt_eq_of_cover 2 (result V c) (fun t hf => flushed_eq V c t hf) covered

end Cert.KernelIdeal.AttValue

end
-- ==== Proof.PayLinear.lean ====
/-
  The linear layer's block, over the extended reals, read at an entry: row p of the first block against row q of the
  second, plus the bias at q. The bias is one row spread over the 1024 rows; read at an entry the spreading only picks
  the column.
-/
import proofs.«138730_j37787122270731_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«138730_j37787122270731_2_alg».proof.Proof.PayDot

noncomputable section

namespace Cert.KernelIdeal.Pay

open Cert.KernelIdeal Cert.KernelIdeal.Gen Idealize.ShloMosaic Idealize.ShloMosaic.ValueIdx

theorem pay_linear (v0 v1 : Vec Ideal S1024x1024 .f32) (v3 : Vec Ideal S1x1024 .f32) (p q : Fin 1024) :
    k0_pay1 (F := Ideal) v0 v1 v3 (ix2 p q) = (∑ k : Fin 1024, v0 (ix2 p k) * v1 (ix2 q k)) + v3 (ix2 (0 : Fin 1) q) := by
  unfold k0_pay1
  refine congrArg₂ (· + ·) (matmul_rows_rows_apply (some .fp32) v0 v1 p q) ?_
  refine (broadcastTo_1b_ab_apply _ broadcasts_S1x1024_S1024x1024 p q).trans ?_
  exact congrFun (shapeCast_self v3 _) _

end Cert.KernelIdeal.Pay

end
-- ==== Proof.IdealLinValue.lean ====
/-
  The linear layer's region, from blocks to the array. Each of the eight grid points writes back a 1024-row block of
  one function of the output array's index: row `r` of x against row `d` of W, plus the bias at `d`. The blocks
  tile the array, so after the region the array is that function.
-/
import proofs.«138730_j37787122270731_2_alg».proof.Proof.IdealLinRegion
import proofs.«138730_j37787122270731_2_alg».proof.Proof.PayLinear
import Idealize.ShloMosaic.Lib.Pipeline.Value
import Idealize.ShloMosaic.Lib.ValueIdx

noncomputable section

namespace Cert.KernelIdeal.LinValue

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Lin Cert.KernelIdeal.Pay

variable (V : (c : Dev nD) → (b : Ref sig .tc) → Buf (Elt Ideal) ((c : Thread nD τ).loc b))

/-- The whole-buffer rectangle's offsets are zero. -/
theorem zero_offsets : (![0, 0] : Fin 2 → Nat) = fun _ => 0 := funext fun a => by fin_cases a <;> rfl

/-- The three arrays the region reads, as the region finds them, as functions of their indices into the extended reals:
    x, W and the bias row. -/
abbrev xArr (c : Dev nD) : S8192x1024.Idx → EReal := V c main_arg0
abbrev wArr (c : Dev nD) : S1024x1024.Idx → EReal := V c main_arg1
abbrev bRow (c : Dev nD) : S1x1024.Idx → EReal := V c main_v0

/-- The linear layer at row `r`, column `d`. -/
def linAt (c : Dev nD) (r : Fin 8192) (d : Fin 1024) : EReal :=
  (∑ k : Fin 1024, xArr V c (ix2 r k) * wArr V c (ix2 d k)) + bRow V c (ix2 (0 : Fin 1) d)

/-- The same as one function of the output array's index. -/
def lin (c : Dev nD) : S8192x1024.Idx → Elt Ideal .f32 := fun i =>
  linAt V c ⟨(i 0).val, idx2_lt0 i⟩ ⟨(i 1).val, idx2_lt1 i⟩

/-- The printed index maps, decided over the grid: x's and the output's block index is the point on the row axis,
    every other block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- x's block at point `t` holds rows `1024 t … 1024 t + 1023` of x. -/
theorem x_block (c : Dev nD) (t : Fin cfg0.N) (y : S1024x1024.Idx) (i : S8192x1024.Idx)
    (h0 : (i 0).val = t.val * 1024 + (y 0).val) (h1 : (i 1).val = (y 1).val) :
    blockAt V c 0 t y = V c main_arg0 i := by
  obtain ⟨e0, e1, -⟩ := idx_facts t
  unfold blockAt
  rw [View.read_apply]
  show V c main_arg0 (((cfg0.win 0).blk t).view.emb y) = V c main_arg0 i
  refine congrArg _ (funext fun a => Fin.ext ?_)
  match a with
  | ⟨0, _⟩ => show win0_0.index t (0 : Fin 2) * 1024 + 1 * (y 0).val = (i 0).val; omega
  | ⟨1, _⟩ => show win0_0.index t (1 : Fin 2) * 1024 + 1 * (y 1).val = (i 1).val; omega

/-- W's one block is W. -/
theorem w_block (c : Dev nD) (t : Fin cfg0.N) (y : S1024x1024.Idx) :
    blockAt V c 1 t y = V c main_arg1 y := by
  obtain ⟨-, -, e0, e1, -⟩ := idx_facts t
  unfold blockAt
  rw [View.read_apply]
  show V c main_arg1 (((cfg0.win 1).blk t).view.emb y) = V c main_arg1 y
  refine congrArg _ (funext fun a => Fin.ext ?_)
  match a with
  | ⟨0, _⟩ => show win0_1.index t (0 : Fin 2) * 1024 + 1 * (y 0).val = (y 0).val; omega
  | ⟨1, _⟩ => show win0_1.index t (1 : Fin 2) * 1024 + 1 * (y 1).val = (y 1).val; omega

/-- The bias row's one block is the bias row. -/
theorem b_block (c : Dev nD) (t : Fin cfg0.N) (y : S1x1024.Idx) :
    blockAt V c 2 t y = V c main_v0 y := by
  obtain ⟨-, -, -, -, e0, e1, -⟩ := idx_facts t
  unfold blockAt
  rw [View.read_apply]
  show V c main_v0 (((cfg0.win 2).blk t).view.emb y) = V c main_v0 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 1024 + 1 * (y 1).val = (y 1).val; omega

/-- What point `t` writes back is block `t` of the linear layer. -/
theorem flushed_eq (c : Dev nD) (t : Fin cfg0.N) :
    (dat (F := Ideal) V c).flushed 3 t = ((cfg0.win 3).blk t).view.read (Elt Ideal) (lin V c) := by
  show (cfg0.win 3).cut (grid0.coords t) ((dat (F := Ideal) V c).after 3 t) = _
  rw [after_out]
  unfold stored
  rw [View.canon_unit_zero zero_offsets]
  simp only [View.ld_unit_zero (S := S1024x1024) zero_offsets, View.ld_unit_zero (S := S1x1024) zero_offsets]
  obtain ⟨-, -, -, -, -, -, e0, e1⟩ := idx_facts t
  funext y
  obtain ⟨p, q, rfl⟩ : ∃ (p q : Fin 1024), y = ix2 p q := ⟨y 0, y 1, eq_ix2 y⟩
  have h0 : ((((cfg0.win 3).blk t).view.emb (ix2 p q)) 0).val = t.val * 1024 + p.val := by
    show win0_3.index t (0 : Fin 2) * 1024 + 1 * p.val = _
    omega
  have h1 : ((((cfg0.win 3).blk t).view.emb (ix2 p q)) 1).val = q.val := by
    show win0_3.index t (1 : Fin 2) * 1024 + 1 * q.val = _
    omega
  show k0_pay1 (F := Ideal) (blockAt V c 0 t) (blockAt V c 1 t) (blockAt V c 2 t) (ix2 p q)
    = lin V c (((cfg0.win 3).blk t).view.emb (ix2 p q))
  rw [pay_linear]
  generalize ((cfg0.win 3).blk t).view.emb (ix2 p q) = i at h0 h1
  unfold lin linAt
  refine congrArg₂ (· + ·) (Finset.sum_congr rfl fun k _ => ?_) ?_
  · rw [x_block V c t (ix2 p k) (ix2 ⟨(i 0).val, idx2_lt0 i⟩ k) h0 rfl, w_block V c t (ix2 q k)]
    exact congrArg (fun d : Fin 1024 => xArr V c (ix2 ⟨(i 0).val, idx2_lt0 i⟩ k) * wArr V c (ix2 d k)) (Fin.ext h1.symm)
  · rw [b_block V c t (ix2 (0 : Fin 1) q)]
    exact congrArg (fun d : Fin 1024 => bRow V c (ix2 (0 : Fin 1) d)) (Fin.ext h1.symm)

/-- An index of the array is in point `t`'s block iff each coordinate is in the block's range on its axis. -/
theorem mem_blk (t : Fin cfg0.N) (i : S8192x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v1).slice (win0_3.rect t)).set ↔ _
  rw [View.set_slice_whole, Rect.mem_set_unit]
  exact Iff.rfl

/-- The blocks tile the array: row `r` lies in the block of point `r / 1024`. -/
theorem cover (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  have hN : grid0.N = 8 := N_0
  have ht : (i 0).val / 1024 < cfg0.N := by show (i 0).val / 1024 < grid0.N; omega
  refine ⟨⟨(i 0).val / 1024, ht⟩, flush0_3 _, ?_⟩
  rw [mem_blk]
  obtain ⟨-, -, -, -, -, -, e0, e1⟩ := idx_facts ⟨(i 0).val / 1024, ht⟩
  intro a
  match a with
  | ⟨0, _⟩ =>
    show win0_3.index ⟨(i 0).val / 1024, ht⟩ (0 : Fin 2) * 1024 ≤ (i 0).val
      ∧ (i 0).val < win0_3.index ⟨(i 0).val / 1024, ht⟩ (0 : Fin 2) * 1024 + 1024
    rw [e0]
    show (i 0).val / 1024 * 1024 ≤ (i 0).val ∧ (i 0).val < (i 0).val / 1024 * 1024 + 1024
    omega
  | ⟨1, _⟩ =>
    show win0_3.index ⟨(i 0).val / 1024, ht⟩ (1 : Fin 2) * 1024 ≤ (i 1).val
      ∧ (i 1).val < win0_3.index ⟨(i 0).val / 1024, ht⟩ (1 : Fin 2) * 1024 + 1024
    rw [e1]
    omega

/-- After the region the output array is the linear layer, -/
theorem lin_array (c : Dev nD) : (dat (F := Ideal) V c).arrAt 3 cfg0.N = lin V c :=
  (dat (F := Ideal) V c).arrAt_eq_of_cover 3 (lin V c) (fun t _ => flushed_eq V c t) cover

/-- and, read at row `r`, column `d`: row `r` of x against row `d` of W, plus the bias at `d`. -/
theorem lin_final (c : Dev nD) (r : Fin 8192) (d : Fin 1024) :
    (dat (F := Ideal) V c).arrAt 3 cfg0.N (ix2 r d)
      = (∑ k : Fin 1024, xArr V c (ix2 r k) * wArr V c (ix2 d k)) + bRow V c (ix2 (0 : Fin 1) d) :=
  congrFun (lin_array V c) (ix2 r d)

end Cert.KernelIdeal.LinValue

end
-- ==== Proof.IdealRunValue.lean ====
/-
  The linear layer's result as the attention region finds it. The bias reaches the linear region as a one-row
  array, the reshape of the launch bias; x and W reach it as launched; so the array the linear region leaves, which
  the attention region reads, is the specification's `hid` of the three launch arrays.
-/
import proofs.«138730_j37787122270731_2_alg».proof.Proof.IdealRun
import proofs.«138730_j37787122270731_2_alg».proof.Proof.IdealLinValue
import proofs.«138730_j37787122270731_2_alg».proof.Proof.Spec
import Idealize.ShloMosaic.Lib.ValueLayout
import Idealize.ShloMosaic.Lib.StableHlo.Run

noncomputable section

namespace Cert.KernelIdeal.RunValue

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (c : Dev nD)

/-- The one-row bias array the linear region finds is the reshape of the launch bias, -/
theorem bias_array :
    (Run.E1 m c main_v0 : S1x1024.Idx → EReal)
      = shapeCast S1x1024 (m ((c.tc : Thread nD τ).loc main_arg2) : S1024.Idx → EReal) shapeCasts_S1024_S1x1024 := by
  dsimp only [Run.E1, Run.B1, Run.B0, hostOps0]
  after_results
  rfl

/-- so at column `d` of its one row it reads the launch bias at `d`. -/
theorem bias_row (d : Fin 1024) :
    (Run.E1 m c main_v0 : S1x1024.Idx → EReal) (ix2 (0 : Fin 1) d)
      = (m ((c.tc : Thread nD τ).loc main_arg2) : S1024.Idx → EReal) (ix1 d) :=
  (congrFun (bias_array m c) _).trans (shapeCast_a_1a_apply _ shapeCasts_S1024_S1x1024 0 d)

/-- x and W reach the linear region as launched. -/
theorem x_entry : LinValue.xArr (Run.E1 m) c = m ((c.tc : Thread nD τ).loc main_arg0) :=
  Run.hostOps0_keeps m c main_arg0 (by decide)
theorem w_entry : LinValue.wArr (Run.E1 m) c = m ((c.tc : Thread nD τ).loc main_arg1) :=
  Run.hostOps0_keeps m c main_arg1 (by decide)
/-- The bias row, under the name the linear layer's closed form uses. -/
theorem b_entry (d : Fin 1024) :
    LinValue.bRow (Run.E1 m) c (ix2 (0 : Fin 1) d) = (m ((c.tc : Thread nD τ).loc main_arg2) : S1024.Idx → EReal) (ix1 d) :=
  bias_row m c d

/-- The array the attention region reads is the specification's linear layer of the three launch arrays. -/
theorem hidden_eq (r : Fin 8192) (k : Fin 1024) :
    (Run.E2 m c main_v1 : S8192x1024.Idx → EReal) (ix2 r k)
      = Cert.Attn.hid (m ((c.tc : Thread nD τ).loc main_arg0)) (m ((c.tc : Thread nD τ).loc main_arg1))
          (m ((c.tc : Thread nD τ).loc main_arg2)) r k := by
  have e : (Run.E2 m c main_v1 : S8192x1024.Idx → EReal) = (Lin.dat (F := Ideal) (Run.E1 m) c).arrAt 3 cfg0.N :=
    (Run.lin_exit_arr m c 3).symm
  rw [e, LinValue.lin_final (Run.E1 m) c r k, x_entry m c, w_entry m c, b_entry m c k]
  rfl

end Cert.KernelIdeal.RunValue

end
-- ==== Proof.IdealResult.lean ====
/-
  The kernel's result array is the specification's output of the three launch arrays: the attention region leaves the
  specification's output over the rows it finds, and those rows are the linear layer of the launch arrays.
-/
import proofs.«138730_j37787122270731_2_alg».proof.Proof.IdealRun
import proofs.«138730_j37787122270731_2_alg».proof.Proof.IdealAttValue
import proofs.«138730_j37787122270731_2_alg».proof.Proof.IdealRunValue

noncomputable section

namespace Cert.KernelIdeal.Result

open Idealize.ShloMosaic Idealize.ShloMosaic.TcCoe Idealize.ShloMosaic.ValueIdx Idealize.SL.Sem
open Cert.KernelIdeal Cert.KernelIdeal.Gen Cert.Attn

variable (m : (ℓ : Loc nD τ sig) → Buf (Elt Ideal) ℓ) (c : Dev nD)

/-- The rows the attention region finds are the linear layer of the launch arrays. -/
theorem rows_eq : AttValue.rows (Run.E2 m) c
    = hid (m ((c.tc : Thread nD τ).loc main_arg0)) (m ((c.tc : Thread nD τ).loc main_arg1)) (m ((c.tc : Thread nD τ).loc main_arg2)) :=
  funext fun r => funext fun k => RunValue.hidden_eq m c r k

/-- What the result array ends holding. -/
theorem result_eq : (Att.dat (F := Ideal) (Run.E2 m) c).arrAt 2 cfg1.N
    = out (m ((c.tc : Thread nD τ).loc main_arg0)) (m ((c.tc : Thread nD τ).loc main_arg1)) (m ((c.tc : Thread nD τ).loc main_arg2)) := by
  rw [AttValue.final (Run.E2 m) c]
  unfold AttValue.result
  rw [rows_eq]
  rfl

end Cert.KernelIdeal.Result

end
-- ==== Proof.RefRead.lean ====
/-
  The reference program read back: its run and its operations read at an index are imported here once,
  so that the modules about the reference's mathematics share one import.
-/
import proofs.«138730_j37787122270731_2_alg».proof.Defs
import proofs.«138730_j37787122270731_2_alg».proof.Proof.Gen.ReferenceIdeal.Run
import proofs.«138730_j37787122270731_2_alg».proof.Proof.Gen.ReferenceIdeal.Read
-- ==== Proof.RefAlgebra.lean ====
/-
  The softmax of bounded real scores, written with every score shifted by one real number, weighted against
  real rows, is the un-shifted quotient: over the reals the common positive factor cancels between numerator and
  denominator; the statement is over the extended reals, every term being the coercion of a real number.
-/
import Idealize.ShloMosaic.PureOps.Ideal

noncomputable section

namespace Cert.Attn.Ref

open Idealize.ShloMosaic

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of extended reals that are all real is real. -/
theorem sum_real {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_sum]; exact Finset.sum_congr rfl fun i _ => hg i⟩

/-- The real identity: shifting every score by `M` scales numerator and denominator by `exp (-M)`. -/
theorem shifted_real {n : ℕ} (hn : 0 < n) (t h : Fin n → ℝ) (M : ℝ) :
    ∑ s : Fin n, Real.exp (t s - M) * (1 / ∑ s' : Fin n, Real.exp (t s' - M)) * h s
      = (∑ s : Fin n, Real.exp (t s) * h s) * (1 / ∑ s : Fin n, Real.exp (t s)) := by
  have hD : (0 : ℝ) < ∑ s : Fin n, Real.exp (t s) :=
    Finset.sum_pos (fun i _ => Real.exp_pos _) ⟨⟨0, hn⟩, Finset.mem_univ _⟩
  have hc : (0 : ℝ) < Real.exp (-M) := Real.exp_pos _
  have hD' : ∑ s' : Fin n, Real.exp (t s' - M) = Real.exp (-M) * ∑ s : Fin n, Real.exp (t s) := by
    rw [Finset.mul_sum]
    refine Finset.sum_congr rfl fun s _ => ?_
    rw [sub_eq_add_neg, Real.exp_add, mul_comm]
  rw [hD', Finset.sum_mul]
  refine Finset.sum_congr rfl fun s _ => ?_
  rw [sub_eq_add_neg, Real.exp_add]
  field_simp

/-- The same over the extended reals, in the shape the reference prints it: each weight is the quotient of the
    shifted exponential by `0 +` the sum of the shifted exponentials. -/
theorem shifted_softmax {n : ℕ} (hn : 0 < n) (t h : Fin n → ℝ) (M : ℝ) :
    ∑ s : Fin n, Ideal.div (Ideal.exp ((t s : EReal) - (M : EReal)))
        ((0 : EReal) + ∑ s' : Fin n, Ideal.exp ((t s' : EReal) - (M : EReal))) * (h s : EReal)
      = (∑ s : Fin n, Ideal.exp (t s : EReal) * (h s : EReal)) * Ideal.div 1 (∑ s : Fin n, Ideal.exp (t s : EReal)) := by
  have hD : (0 : ℝ) < ∑ s : Fin n, Real.exp (t s) :=
    Finset.sum_pos (fun i _ => Real.exp_pos _) ⟨⟨0, hn⟩, Finset.mem_univ _⟩
  have hD' : (0 : ℝ) < ∑ s : Fin n, Real.exp (t s - M) :=
    Finset.sum_pos (fun i _ => Real.exp_pos _) ⟨⟨0, hn⟩, Finset.mem_univ _⟩
  have e1 : ∀ s, Ideal.exp ((t s : EReal) - (M : EReal)) = ((Real.exp (t s - M) : ℝ) : EReal) := fun s => by
    rw [← EReal.coe_sub, Ideal.exp_coe]
  have e2 : ∀ s, Ideal.exp (t s : EReal) = ((Real.exp (t s) : ℝ) : EReal) := fun s => Ideal.exp_coe _
  simp only [e1, e2]
  rw [zero_add, ← coe_sum, ← coe_sum, Ideal.div_coe hD.ne', one_mul]
  have l : ∀ s : Fin n, Ideal.div ((Real.exp (t s - M) : ℝ) : EReal) ((∑ s' : Fin n, Real.exp (t s' - M) : ℝ) : EReal) * (h s : EReal)
      = ((Real.exp (t s - M) * (1 / ∑ s' : Fin n, Real.exp (t s' - M)) * h s : ℝ) : EReal) := fun s => by
    rw [Ideal.div_coe hD'.ne', ← EReal.coe_mul, ← EReal.coe_mul]
  have r : ∀ s : Fin n, ((Real.exp (t s) : ℝ) : EReal) * (h s : EReal) = ((Real.exp (t s) * h s : ℝ) : EReal) := fun s =>
    (EReal.coe_mul _ _).symm
  rw [Finset.sum_congr rfl fun s _ => l s, Finset.sum_congr rfl fun s _ => r s, ← coe_sum, ← coe_sum, ← EReal.coe_mul,
    shifted_real hn t h M]

end Cert.Attn.Ref

end
-- ==== Proof.RefHidden.lean ====
/-
  The linear layer of the reference read at an index: row `r` of `x` against row `d` of `W`, plus the bias at `d`,
  which is the specification's `hid`; and it is a real number when every entry of the three arrays is.
-/
import proofs.«138730_j37787122270731_2_alg».proof.Proof.RefRead
import proofs.«138730_j37787122270731_2_alg».proof.Proof.Spec
import proofs.«138730_j37787122270731_2_alg».proof.Proof.RefAlgebra

noncomputable section

namespace Cert.Attn.Ref

open Cert.ReferenceIdeal Cert.ReferenceIdeal.Read Idealize.ShloMosaic Idealize.ShloMosaic.ValueIdx Idealize.SL.Sem

/-- The reference's `x · Wᵀ + b` at `(r, d)` is the specification's `hid`. -/
theorem hid_read (x : (⟨S8192x1024, .f32⟩ : BufTy).Contents (Elt Ideal)) (W : (⟨S1024x1024, .f32⟩ : BufTy).Contents (Elt Ideal))
    (b : (⟨S1024, .f32⟩ : BufTy).Contents (Elt Ideal)) (r : Fin 8192) (d : Fin 1024) :
    val_main_v4 (F := Ideal) x W b (ix2 r d) = Cert.Attn.hid x W b r d := by
  rw [val_main_v4_apply, val_main_v1_apply, val_main_v3_apply, val_main_v2_apply]
  simp only [val_main_v0_apply]
  have e1 : ∀ k : Fin 1024, lidx_main_v1 (ix2 r d) k = ix2 r k := fun k =>
    funext fun a => Fin.ext (by match a with | ⟨0, _⟩ => rfl | ⟨1, _⟩ => rfl)
  have e2 : ∀ k : Fin 1024, idx_main_v0 (ridx_main_v1 (ix2 r d) k) = ix2 d k := fun k =>
    funext fun a => Fin.ext (by match a with | ⟨0, _⟩ => rfl | ⟨1, _⟩ => rfl)
  have e3 : idx_main_v2 (idx_main_v3 (ix2 r d)) = ix1 d :=
    funext fun a => Fin.ext (by match a with | ⟨0, _⟩ => rfl)
  simp only [e1, e2, e3]
  rfl

/-- With real entries in `x`, `W` and `b`, every entry of the linear layer is a real number. -/
theorem hid_real (x : (⟨S8192x1024, .f32⟩ : BufTy).Contents (Elt Ideal)) (W : (⟨S1024x1024, .f32⟩ : BufTy).Contents (Elt Ideal))
    (b : (⟨S1024, .f32⟩ : BufTy).Contents (Elt Ideal))
    (hx : ∀ i, ∃ r : ℝ, x i = (r : EReal)) (hW : ∀ i, ∃ r : ℝ, W i = (r : EReal)) (hb : ∀ i, ∃ r : ℝ, b i = (r : EReal))
    (r : Fin 8192) (d : Fin 1024) : ∃ ρ : ℝ, Cert.Attn.hid x W b r d = (ρ : EReal) := by
  unfold Cert.Attn.hid
  obtain ⟨s, hs⟩ := sum_real Finset.univ (fun k : Fin 1024 => x (ix2 r k) * W (ix2 d k)) (fun k => by
    obtain ⟨a, ha⟩ := hx (ix2 r k)
    obtain ⟨c, hc⟩ := hW (ix2 d k)
    exact ⟨a * c, by rw [ha, hc, EReal.coe_mul]⟩)
  obtain ⟨β, hβ⟩ := hb (ix1 d)
  exact ⟨s + β, by rw [hs, hβ, EReal.coe_add]⟩

end Cert.Attn.Ref

end
-- ==== Proof.RefScores.lean ====
/-
  The reference's bounded scores read at an index: the hyperbolic tangent of the inner product of two rows of the
  linear layer. With real inputs each score is a real number, and the specification's weight is its exponential.
-/
import proofs.«138730_j37787122270731_2_alg».proof.Proof.RefHidden

noncomputable section

namespace Cert.Attn.Ref

open Cert.ReferenceIdeal Cert.ReferenceIdeal.Read Idealize.ShloMosaic Idealize.ShloMosaic.ValueIdx Idealize.SL.Sem

/-- The score of rows `r` and `s`: `tanh ⟨h r, h s⟩`. -/
theorem score_read (x : (⟨S8192x1024, .f32⟩ : BufTy).Contents (Elt Ideal)) (W : (⟨S1024x1024, .f32⟩ : BufTy).Contents (Elt Ideal))
    (b : (⟨S1024, .f32⟩ : BufTy).Contents (Elt Ideal)) (r s : Fin 8192) :
    val_main_v7 (F := Ideal) x W b (ix2 r s)
      = Ideal.tanh (∑ k : Fin 1024, Cert.Attn.hid x W b r k * Cert.Attn.hid x W b s k) := by
  rw [val_main_v7_apply, val_main_v6_apply]
  simp only [val_main_v5_apply]
  have e1 : ∀ k : Fin 1024, lidx_main_v6 (ix2 r s) k = ix2 r k := fun k =>
    funext fun a => Fin.ext (by match a with | ⟨0, _⟩ => rfl | ⟨1, _⟩ => rfl)
  have e2 : ∀ k : Fin 1024, idx_main_v5 (ridx_main_v6 (ix2 r s) k) = ix2 s k := fun k =>
    funext fun a => Fin.ext (by match a with | ⟨0, _⟩ => rfl | ⟨1, _⟩ => rfl)
  simp only [e1, e2, hid_read]
  rfl

/-- With real inputs the score is a real number `τ`, and the specification's weight of row `s` for row `r` is `exp τ`. -/
theorem score_real (x : (⟨S8192x1024, .f32⟩ : BufTy).Contents (Elt Ideal)) (W : (⟨S1024x1024, .f32⟩ : BufTy).Contents (Elt Ideal))
    (b : (⟨S1024, .f32⟩ : BufTy).Contents (Elt Ideal))
    (hx : ∀ i, ∃ r : ℝ, x i = (r : EReal)) (hW : ∀ i, ∃ r : ℝ, W i = (r : EReal)) (hb : ∀ i, ∃ r : ℝ, b i = (r : EReal))
    (r s : Fin 8192) :
    ∃ τ : ℝ, val_main_v7 (F := Ideal) x W b (ix2 r s) = (τ : EReal)
      ∧ Cert.Attn.wgt (Cert.Attn.hid x W b) r s = Ideal.exp (τ : EReal) := by
  obtain ⟨σ, hσ⟩ := sum_real Finset.univ (fun k : Fin 1024 => Cert.Attn.hid x W b r k * Cert.Attn.hid x W b s k) (fun k => by
    obtain ⟨a, ha⟩ := hid_real x W b hx hW hb r k
    obtain ⟨c, hc⟩ := hid_real x W b hx hW hb s k
    exact ⟨a * c, by rw [ha, hc, EReal.coe_mul]⟩)
  have hσ' : ∑ k : Fin 1024, Cert.Attn.hid x W b r k * Cert.Attn.hid x W b s k = (σ : EReal) := hσ
  refine ⟨Real.tanh σ, ?_, ?_⟩
  · rw [score_read, hσ', Ideal.tanh_coe]
  · unfold Cert.Attn.wgt
    rw [hσ', Ideal.tanh_coe]

/-- So every entry of the score array is a real number. -/
theorem score_real_all (x : (⟨S8192x1024, .f32⟩ : BufTy).Contents (Elt Ideal)) (W : (⟨S1024x1024, .f32⟩ : BufTy).Contents (Elt Ideal))
    (b : (⟨S1024, .f32⟩ : BufTy).Contents (Elt Ideal))
    (hx : ∀ i, ∃ r : ℝ, x i = (r : EReal)) (hW : ∀ i, ∃ r : ℝ, W i = (r : EReal)) (hb : ∀ i, ∃ r : ℝ, b i = (r : EReal))
    (i : S8192x8192.Idx) : ∃ τ : ℝ, val_main_v7 (F := Ideal) x W b i = (τ : EReal) := by
  obtain ⟨τ, hτ, _⟩ := score_real x W b hx hW hb (i 0) (i 1)
  exact ⟨τ, (congrArg (val_main_v7 (F := Ideal) x W b) (eq_ix2 i)).trans hτ⟩

end Cert.Attn.Ref

end
-- ==== Proof.RefMax.lean ====
/-
  The row maximum the reference's softmax subtracts: a fold of `max` from −∞ over the row's scores, then once more
  `max` with −∞. With real scores it is a real number; nothing else about it is needed, since it cancels.
-/
import proofs.«138730_j37787122270731_2_alg».proof.Proof.RefScores
import Idealize.ShloMosaic.PureOps.Reduce

noncomputable section

namespace Cert.Attn.Ref

open Cert.ReferenceIdeal Cert.ReferenceIdeal.Gen Cert.ReferenceIdeal.Read Idealize.ShloMosaic Idealize.ShloMosaic.ValueIdx Idealize.SL.Sem

/-- The f32 pattern of −∞ denotes `⊥`. -/
theorem ofBits_neg_inf : Ideal.ofBits .f32 0xFF800000#32 = ⊥ := by simp [Ideal.ofBits, Ideal.ieee]

/-- The fold of `max` from `⊥` over a nonempty finite family of real numbers is a real number: it is above `⊥`
    because one member is, and below `⊤` because every member is. -/
theorem fold_max_real {n : ℕ} (hn : 0 < n) (f : Fin n → EReal) (hf : ∀ k, ∃ r : ℝ, f k = (r : EReal)) :
    ∃ M : ℝ, (Finset.univ : Finset (Fin n)).fold max (⊥ : EReal) f = (M : EReal) := by
  have h1 : (Finset.univ : Finset (Fin n)).fold max (⊥ : EReal) f ≠ ⊤ := by
    refine ne_of_lt ?_
    rw [Finset.fold_max_lt]
    exact ⟨bot_lt_top, fun k _ => by obtain ⟨r, hr⟩ := hf k; rw [hr]; exact EReal.coe_lt_top r⟩
  have h2 : (Finset.univ : Finset (Fin n)).fold max (⊥ : EReal) f ≠ ⊥ := by
    refine ne_of_gt ?_
    rw [Finset.lt_fold_max]
    exact Or.inr ⟨⟨0, hn⟩, Finset.mem_univ _, by obtain ⟨r, hr⟩ := hf ⟨0, hn⟩; rw [hr]; exact EReal.bot_lt_coe r⟩
  exact ⟨_, (EReal.coe_toReal h1 h2).symm⟩

/-- The subtracted row maximum is a real number when the inputs are real. -/
theorem rowmax_real (x : (⟨S8192x1024, .f32⟩ : BufTy).Contents (Elt Ideal)) (W : (⟨S1024x1024, .f32⟩ : BufTy).Contents (Elt Ideal))
    (b : (⟨S1024, .f32⟩ : BufTy).Contents (Elt Ideal))
    (hx : ∀ i, ∃ r : ℝ, x i = (r : EReal)) (hW : ∀ i, ∃ r : ℝ, W i = (r : EReal)) (hb : ∀ i, ∃ r : ℝ, b i = (r : EReal))
    (r : Fin 8192) : ∃ M : ℝ, val_main_v10 (F := Ideal) x W b (ix1 r) = (M : EReal) := by
  have hred : S8192x8192.Reduces [1] S8192 := by decide
  obtain ⟨M, hM⟩ := fold_max_real (n := 8192) (by decide)
    (val_main_v7 (F := Ideal) x W b ∘ hred.lift (ix1 r)) (fun k => score_real_all x W b hx hW hb _)
  refine ⟨M, ?_⟩
  rw [val_main_v10_apply, val_main_v9_apply, val_main_cst_0_apply]
  have h8 : val_main_v8 (F := Ideal) x W b (ix1 r) = (M : EReal) := by
    unfold val_main_v8
    generalize val_main_v7 (F := Ideal) x W b = y at hM ⊢
    refine (Host.reduce_eq_fold_single (FloatOps.maximumf (F := Ideal) (φ := .f32)) _ _
      reducesTo_S8192x8192_S8192_d1 hred h_S_ (ix1 r)).trans ?_
    rw [val_main_cst_apply]
    refine Eq.trans ?_ hM
    show Finset.fold max (Ideal.ofBits .f32 0xFF800000#32) (y ∘ hred.lift (ix1 r)) Finset.univ = _
    rw [ofBits_neg_inf]
    rfl
  rw [h8]
  show max (Ideal.ofBits .f32 0xFF800000#32) (M : EReal) = (M : EReal)
  rw [ofBits_neg_inf]
  exact max_eq_right bot_le

end Cert.Attn.Ref

end
-- ==== Proof.RefOut.lean ====
/-
  The reference's result is the specification: at `(r, d)` the reference takes `tanh` of the sum over the rows `s` of
  (shifted exponential of the score / the row's sum of shifted exponentials) · `h s d`; with real inputs the scores,
  the shift and the rows are real numbers, and the shifted-softmax identity turns this into the un-shifted quotient.
-/
import proofs.«138730_j37787122270731_2_alg».proof.Proof.RefMax

noncomputable section

namespace Cert.Attn.Ref

open Cert.ReferenceIdeal Cert.ReferenceIdeal.Gen Cert.ReferenceIdeal.Read Idealize.ShloMosaic Idealize.ShloMosaic.ValueIdx Idealize.SL.Sem

/-- The shifted exponential at `(r, k)`: the exponential of the score minus the row's subtracted maximum. -/
theorem expo_read (x : (⟨S8192x1024, .f32⟩ : BufTy).Contents (Elt Ideal)) (W : (⟨S1024x1024, .f32⟩ : BufTy).Contents (Elt Ideal))
    (b : (⟨S1024, .f32⟩ : BufTy).Contents (Elt Ideal)) (r k : Fin 8192) :
    val_main_v14 (F := Ideal) x W b (ix2 r k)
      = Ideal.exp (val_main_v7 (F := Ideal) x W b (ix2 r k) - val_main_v10 (F := Ideal) x W b (ix1 r)) := by
  rw [val_main_v14_apply, val_main_v13_apply, val_main_v12_apply, val_main_v11_apply]
  have e : idx_main_v11 (idx_main_v12 (ix2 r k)) = ix1 r :=
    funext fun a => Fin.ext (by match a with | ⟨0, _⟩ => rfl)
  rw [e]
  rfl

/-- The divisor at `(r, k)`: zero plus the row's sum of shifted exponentials. -/
theorem denom_read (x : (⟨S8192x1024, .f32⟩ : BufTy).Contents (Elt Ideal)) (W : (⟨S1024x1024, .f32⟩ : BufTy).Contents (Elt Ideal))
    (b : (⟨S1024, .f32⟩ : BufTy).Contents (Elt Ideal)) (r k : Fin 8192) :
    val_main_v17 (F := Ideal) x W b (ix2 r k)
      = (0 : EReal) + ∑ s : Fin 8192, val_main_v14 (F := Ideal) x W b (ix2 r s) := by
  rw [val_main_v17_apply, val_main_v16_apply]
  have e : idx_main_v16 (idx_main_v17 (ix2 r k)) = ix1 r :=
    funext fun a => Fin.ext (by match a with | ⟨0, _⟩ => rfl)
  rw [e, val_main_v15_apply, val_main_cst_1_apply]
  have e2 : ∀ s : Fin 8192, idx_main_v15 (ix1 r) s = ix2 r s := fun s =>
    funext fun a => Fin.ext (by match a with | ⟨0, _⟩ => rfl | ⟨1, _⟩ => rfl)
  simp only [e2]
  show Ideal.ofBits .f32 0x00000000#32 + _ = _
  rw [Ideal.ofBits_zero_f32]

/-- The reference's result, read at the ideal values, is the specification's `out` when every input entry is real. -/
theorem ref_eq
    (x : (⟨Cert.ReferenceIdeal.S8192x1024, .f32⟩ : BufTy).Contents (Elt Ideal))
    (W : (⟨Cert.ReferenceIdeal.S1024x1024, .f32⟩ : BufTy).Contents (Elt Ideal))
    (b : (⟨Cert.ReferenceIdeal.S1024, .f32⟩ : BufTy).Contents (Elt Ideal))
    (hx : ∀ i, ∃ r : ℝ, x i = (r : EReal)) (hW : ∀ i, ∃ r : ℝ, W i = (r : EReal)) (hb : ∀ i, ∃ r : ℝ, b i = (r : EReal)) :
    Cert.ReferenceIdeal.Read.val_main_v20 (F := Ideal) x W b = Cert.Attn.out x W b := by
  funext i
  obtain ⟨r, d, rfl⟩ : ∃ (r : Fin 8192) (d : Fin 1024), i = ix2 r d := ⟨i 0, i 1, eq_ix2 i⟩
  rw [Cert.Attn.out_apply, val_main_v20_apply, val_main_v19_apply]
  choose τ hτ hw using fun s : Fin 8192 => score_real x W b hx hW hb r s
  choose η hη using fun s : Fin 8192 => hid_real x W b hx hW hb s d
  obtain ⟨M, hM⟩ := rowmax_real x W b hx hW hb r
  have e1 : ∀ k : Fin 8192, lidx_main_v19 (ix2 r d) k = ix2 r k := fun k =>
    funext fun a => Fin.ext (by match a with | ⟨0, _⟩ => rfl | ⟨1, _⟩ => rfl)
  have e2 : ∀ k : Fin 8192, ridx_main_v19 (ix2 r d) k = ix2 k d := fun k =>
    funext fun a => Fin.ext (by match a with | ⟨0, _⟩ => rfl | ⟨1, _⟩ => rfl)
  have hE : ∀ k : Fin 8192, val_main_v14 (F := Ideal) x W b (ix2 r k) = Ideal.exp ((τ k : EReal) - (M : EReal)) := fun k => by
    rw [expo_read, hτ, hM]
  have hT : ∀ k : Fin 8192, val_main_v18 (F := Ideal) x W b (ix2 r k) * val_main_v4 (F := Ideal) x W b (ix2 k d)
      = Ideal.div (Ideal.exp ((τ k : EReal) - (M : EReal)))
          ((0 : EReal) + ∑ s : Fin 8192, Ideal.exp ((τ s : EReal) - (M : EReal))) * (η k : EReal) := fun k => by
    rw [val_main_v18_apply, denom_read, hid_read, hη]
    simp only [hE]
    rfl
  simp only [e1, e2]
  rw [Finset.sum_congr rfl fun k _ => hT k, shifted_softmax (by decide) τ η M]
  unfold Cert.Attn.attn Cert.Attn.num Cert.Attn.den
  simp only [hw, hη]
  exact Ideal.hostUnary_tanh_def _

end Cert.Attn.Ref

end
-- ==== Proof.PayFinite.lean ====
/-
  From the precondition to real numbers.

  The precondition says of each of the three argument arrays that every entry's absolute value is below plus infinity,
  and joins the three statements. Over the extended reals the absolute value of x is the larger of x and -x, and that is
  below plus infinity only when x is neither infinity: x is then a real number. So under the precondition every entry of
  every argument array is a real number. The statement is about three arrays and nothing else, so it serves whichever
  program's argument arrays the precondition is stated of.
-/
import proofs.«138730_j37787122270731_2_alg».proof.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.KernelIdeal.Pay

open Idealize.ShloMosaic Idealize.ShloMosaic.ValueIdx Cert.Pre_finite_inputs

/-- The scalar shape has one index. -/
instance subsingleton_scalar_idx : Subsingleton S_.Idx := ⟨fun a b => funext fun d => d.elim0⟩

/-- An extended real whose absolute value is below plus infinity is a real number. -/
theorem real_of_abs_lt_top (x : EReal) (h : max x (-x) < ⊤) : ∃ r : ℝ, x = (r : EReal) := by
  induction x using EReal.rec with
  | bot => simp at h
  | coe r => exact ⟨r, rfl⟩
  | top => simp at h

/-- A truth value whose one-bit word is 1 is true. -/
theorem ofBool_eq_one {b : Bool} (h : BitVec.ofBool b = 1#1) : b = true := by
  cases b
  · exact absurd h (by decide)
  · rfl

/-- The word with all exponent bits set and no fraction bit denotes plus infinity. -/
theorem ofBits_inf_f32 : Ideal.ofBits .f32 0x7F800000#32 = ⊤ := by simp [Ideal.ofBits, Ideal.ieee]

/-- Where the comparison "absolute value below plus infinity" holds at an entry, the entry is a real number. -/
theorem real_of_lt_inf {s : Shape} (a : FVec Ideal s .f32) (hb : S_.BroadcastsInDim s (![] : Fin 0 → Fin s.rank)) (i : s.Idx)
    (h : cmpf .olt (Host.absf a) (broadcastInDim s ![] hb (constant (F := Ideal) S_ .f32 0x7F800000#32)) i = 1#1) :
    ∃ r : ℝ, a i = (r : EReal) := by
  have h' : Ideal.cmp .olt (max (a i) (-(a i))) (Ideal.ofBits .f32 0x7F800000#32) = 1#1 := h
  rw [ofBits_inf_f32] at h'
  have h'' : BitVec.ofBool (decide (max (a i) (-(a i)) < ⊤)) = 1#1 := h'
  exact real_of_abs_lt_top _ (of_decide_eq_true (ofBool_eq_one h''))

/-- Under the precondition every entry of each of the three arrays is a real number. -/
theorem finite_of_pre [Cert.Pre_finite_inputs.Facts] (a0 : FVec Ideal S8192x1024 .f32) (a1 : FVec Ideal S1024x1024 .f32)
    (a2 : FVec Ideal S1024 .f32) (h : Cert.Pre_finite_inputs.fn (F := Ideal) a0 a1 a2 = (fun _ => 1#1)) :
    (∀ i, ∃ r : ℝ, a0 i = (r : EReal)) ∧ (∀ i, ∃ r : ℝ, a1 i = (r : EReal)) ∧ (∀ i, ∃ r : ℝ, a2 i = (r : EReal)) := by
  have h0 := congrFun h ix0
  dsimp only [Cert.Pre_finite_inputs.fn] at h0
  obtain ⟨h01, h2⟩ := IntOp.andi_eq_one.1 h0
  obtain ⟨h0', h1⟩ := IntOp.andi_eq_one.1 h01
  exact ⟨fun i => real_of_lt_inf a0 _ i (Host.reduce_andi_all _ _ _ _ ix0 h0' i),
    fun i => real_of_lt_inf a1 _ i (Host.reduce_andi_all _ _ _ _ ix0 h1 i),
    fun i => real_of_lt_inf a2 _ i (Host.reduce_andi_all _ _ _ _ ix0 h2 i)⟩

end Cert.KernelIdeal.Pay

end
-- ==== Proof.lean ====
/-
  The certificate. The kernel computes h = x · Wᵀ + b in one tiled region and, in a second region tiled over query
  and key tiles, accumulates for every query row the weights exp (tanh ⟨h r, h s⟩) and the weighted rows, and at the
  last key tile stores tanh (weighted sum · (1 / weight sum)). The reference computes the softmax of the bounded scores
  with the usual shift by the row maximum. Over the extended reals, on inputs that are real numbers, both are the one
  function `Cert.Attn.out` of the three arrays: the shift cancels between numerator and denominator, and the factor
  1 / (weight sum) moves across the finite sum; both steps use that every entry is a real number, which is what the
  precondition says.
  Both kernel programs run to the end and leave their arguments as launched (two regions; the second reads one array
  through two windows and carries its accumulators from grid point to grid point); the reference's run is read back
  operation by operation.
-/
import proofs.«138730_j37787122270731_2_alg».proof.Defs
import proofs.«138730_j37787122270731_2_alg».proof.Proof.Gen.Kernel
import proofs.«138730_j37787122270731_2_alg».proof.Proof.Gen.KernelIdeal
import proofs.«138730_j37787122270731_2_alg».proof.Proof.Gen.ReferenceIdeal
import proofs.«138730_j37787122270731_2_alg».proof.Proof.Gen.Pre_finite_inputs
import proofs.«138730_j37787122270731_2_alg».proof.Proof.Gen.ReferenceIdeal.Run
import proofs.«138730_j37787122270731_2_alg».proof.Proof.Gen.ReferenceIdeal.Read
import proofs.«138730_j37787122270731_2_alg».proof.Proof.BitsRun
import proofs.«138730_j37787122270731_2_alg».proof.Proof.IdealRun
import proofs.«138730_j37787122270731_2_alg».proof.Proof.IdealResult
import proofs.«138730_j37787122270731_2_alg».proof.Proof.RefOut
import proofs.«138730_j37787122270731_2_alg».proof.Proof.PayFinite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Run.frame (F := Bits) m ρ

theorem frame_kernelIdeal : Cert.frame_KernelIdeal := fun m ρ _ => Cert.KernelIdeal.Run.frame (F := Ideal) m ρ

theorem frame_reference : Cert.frame_ReferenceIdeal := fun m ρ _ =>
  (θ_run Cert.ReferenceIdeal.defs _ _).mono (fun _ h c => (h c).2) (Cert.ReferenceIdeal.Value.run (F := Ideal) m ρ)

/-- The two idealized programs, from memories agreeing on the arguments, end with the one array `Cert.Attn.out` of
    the arguments. -/
theorem algebraic : Cert.algebraic_KernelIdeal_ReferenceIdeal := by
  intro m ρ m' ρ' hpre hagree
  refine ⟨fun c => Cert.Attn.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Result.result_eq m c), (h c).2⟩)
      (Cert.KernelIdeal.Run.run_result (F := Ideal) m ρ)
  · refine (θ_run Cert.ReferenceIdeal.defs _ _).mono (fun _ h c => ⟨?_, (h c).2⟩)
      (Cert.ReferenceIdeal.Value.run (F := Ideal) m' ρ')
    obtain ⟨hx, hW, hb⟩ := Cert.KernelIdeal.Pay.finite_of_pre _ _ _ (hpre c)
    rw [(h c).1, Cert.ReferenceIdeal.Read.val_main_v20_eq, (hagree c).1, (hagree c).2.1, (hagree c).2.2]
    exact Cert.Attn.Ref.ref_eq _ _ _ hx hW hb

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
